-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_arg14 : FVec F S64 .f32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg11 : FVec F S64 .f32) (main_arg12 : FVec F S64 .f32) (main_arg13 : FVec F S64 .f32) (main_arg14 : FVec F S64 .f32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S64 .f32) (main_arg8 : FVec F S64x128 .f32) (main_arg9 : FVec F S128 .f32) (main_arg10 : FVec F S128x64 .f32) (main_arg11 : FVec F S64 .f32) (main_arg12 : FVec F S64 .f32) (main_arg13 : FVec F S64 .f32) (main_arg14 : FVec F S64 .f32) (main_arg15 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_arg12 main_arg13 main_arg14 main_arg15 main_v48 main_v49 main_v50

def fn_part1 {F : FTy → Type} [FloatOps F] (main_arg4 : FVec F S64x64 .f32) (main_arg5 : FVec F S64x64 .f32) (main_arg6 : FVec F S64x64 .f32) (main_arg7 : FVec F S64 .f32) (main_arg8 : FVec F S64x128 .f32) (main_arg9 : FVec F S128 .f32) (main_arg10 : FVec F S128x64 .f32) (main_arg11 : FVec F S64 .f32) (main_arg12 : FVec F S64 .f32) (main_arg13 : FVec F S64 .f32) (main_arg14 : FVec F S64 .f32) (main_arg15 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x64 .f32) (main_arg1 : FVec F S800000x64 .f32) (main_arg2 : FVec F S64x64 .f32) (main_arg3 : FVec F S64x64 .f32) (main_arg4 : FVec F S64x64 .f32) (main_arg5 : FVec F S64x64 .f32) (main_arg6 : FVec F S64x64 .f32) (main_arg7 : FVec F S64 .f32) (main_arg8 : FVec F S64x128 .f32) (main_arg9 : FVec F S128 .f32) (main_arg10 : FVec F S128x64 .f32) (main_arg11 : FVec F S64 .f32) (main_arg12 : FVec F S64 .f32) (main_arg13 : FVec F S64 .f32) (main_arg14 : FVec F S64 .f32) (main_arg15 : FVec F S64 .f32) (main_arg16 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S800000x64 : Shape := ⟨2, ![800000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S2x800000 : Shape := ⟨2, ![2, 800000]⟩
abbrev S64x8 : Shape := ⟨2, ![64, 8]⟩
abbrev S8x64 : Shape := ⟨2, ![8, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8 : Shape := ⟨2, ![800000, 8]⟩
abbrev S4000x64 : Shape := ⟨2, ![4000, 64]⟩
abbrev S4000x8 : Shape := ⟨2, ![4000, 8]⟩
abbrev S50000x8 : Shape := ⟨2, ![50000, 8]⟩
abbrev S1x64 : Shape := ⟨2, ![1, 64]⟩
abbrev S50000x128 : Shape := ⟨2, ![50000, 128]⟩
abbrev S1x128 : Shape := ⟨2, ![1, 128]⟩

abbrev nBuf : Space → Nat
  | .hbm => 162
  | .vmem => 16
  | .smem => 0
  | _ => 0

abbrev hbmTy0_0 (i : Nat) : BufTy := match i % 128 with
  | 0 => ⟨S50000x64, .f32⟩
  | 1 => ⟨S800000x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64, .f32⟩
  | 8 => ⟨S64x128, .f32⟩
  | 9 => ⟨S128, .f32⟩
  | 10 => ⟨S128x64, .f32⟩
  | 11 => ⟨S64, .f32⟩
  | 12 => ⟨S64, .f32⟩
  | 13 => ⟨S64, .f32⟩
  | 14 => ⟨S64, .f32⟩
  | 15 => ⟨S64, .f32⟩
  | 16 => ⟨S2x800000, .i32⟩
  | 17 => ⟨S64x8, .f32⟩
  | 18 => ⟨S8x64, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S800000x64, .bf16⟩
  | 42 => ⟨S800000x8, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S_, .f32⟩
  | 49 => ⟨S50000x8, .f32⟩
  | 50 => ⟨S800000x1, .i32⟩
  | 51 => ⟨S50000x8, .f32⟩
  | 52 => ⟨S50000x64, .f32⟩
  | 53 => ⟨S_, .f32⟩
  | 54 => ⟨S50000x64, .f32⟩
  | 55 => ⟨S50000x64, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S50000x64, .f32⟩
  | 62 => ⟨S_, .f32⟩
  | 63 => ⟨S64, .f32⟩
  | 64 => ⟨S_, .f32⟩
  | 65 => ⟨S64, .f32⟩
  | 66 => ⟨S64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S50000x64, .f32⟩
  | 75 => ⟨S50000x64, .f32⟩
  | 76 => ⟨S50000x64, .f32⟩
  | 77 => ⟨S_, .f32⟩
  | 78 => ⟨S_, .f32⟩
  | 79 => ⟨S_, .f32⟩
  | 80 => ⟨S_, .f32⟩
  | 81 => ⟨S64, .f32⟩
  | 82 => ⟨S64, .f32⟩
  | 83 => ⟨S64, .f32⟩
  | 84 => ⟨S_, .f32⟩
  | 85 => ⟨S_, .i1⟩
  | 86 => ⟨S_, .f32⟩
  | 87 => ⟨S_, .f32⟩
  | 88 => ⟨S64, .f32⟩
  | 89 => ⟨S64, .f32⟩
  | 90 => ⟨S1x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S64, .f32⟩
  | 98 => ⟨S64, .f32⟩
  | 99 => ⟨S64, .f32⟩
  | 100 => ⟨S1x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x64, .f32⟩
  | 114 => ⟨S1x64, .f32⟩
  | 115 => ⟨S50000x64, .f32⟩
  | 116 => ⟨S50000x64, .f32⟩
  | 117 => ⟨S50000x64, .f32⟩
  | 118 => ⟨S_, .f32⟩
  | 119 => ⟨S64, .f32⟩
  | 120 => ⟨S_, .f32⟩
  | 121 => ⟨S64, .f32⟩
  | 122 => ⟨S64, .f32⟩
  | 123 => ⟨S_, .i32⟩
  | 124 => ⟨S_, .f32⟩
  | 125 => ⟨S64, .f32⟩
  | 126 => ⟨S1x64, .f32⟩
  | 127 => ⟨S_, .f32⟩
  | _ => ⟨S50000x64, .f32⟩

abbrev hbmTy0_1 (i : Nat) : BufTy := match i % 128 with
  | 0 => ⟨S1x64, .f32⟩
  | 1 => ⟨S1x64, .f32⟩
  | 2 => ⟨S50000x64, .f32⟩
  | 3 => ⟨S50000x64, .f32⟩
  | 4 => ⟨S50000x64, .f32⟩
  | 5 => ⟨S_, .f32⟩
  | 6 => ⟨S_, .f32⟩
  | 7 => ⟨S_, .f32⟩
  | 8 => ⟨S_, .f32⟩
  | 9 => ⟨S64, .f32⟩
  | 10 => ⟨S64, .f32⟩
  | 11 => ⟨S64, .f32⟩
  | 12 => ⟨S_, .f32⟩
  | 13 => ⟨S_, .i1⟩
  | 14 => ⟨S_, .f32⟩
  | 15 => ⟨S_, .f32⟩
  | 16 => ⟨S64, .f32⟩
  | 17 => ⟨S64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S64, .f32⟩
  | 26 => ⟨S64, .f32⟩
  | 27 => ⟨S64, .f32⟩
  | 28 => ⟨S1x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x8, .f32⟩
  | .local _ .vmem, ⟨11, _⟩ => ⟨S8x64, .f32⟩
  | .local _ .vmem, ⟨12, _⟩ => ⟨S4000x64, .bf16⟩
  | .local _ .vmem, ⟨13, _⟩ => ⟨S4000x64, .bf16⟩
  | .local _ .vmem, ⟨14, _⟩ => ⟨S4000x8, .f32⟩
  | .local _ .vmem, ⟨15, _⟩ => ⟨S4000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_10 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_call1_cst : Ref sig .tc := ⟨.hbm, 110, rfl⟩
abbrev main_call1_v0 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_11 : Ref sig .tc := ⟨.hbm, 118, rfl⟩
abbrev main_v64 : Ref sig .tc := ⟨.hbm, 119, rfl⟩
abbrev main_cst_12 : Ref sig .tc := ⟨.hbm, 120, rfl⟩
abbrev main_v65 : Ref sig .tc := ⟨.hbm, 121, rfl⟩
abbrev main_v66 : Ref sig .tc := ⟨.hbm, 122, rfl⟩
abbrev main_c_13 : Ref sig .tc := ⟨.hbm, 123, rfl⟩
abbrev main_call2_cst : Ref sig .tc := ⟨.hbm, 124, rfl⟩
abbrev main_call2_v0 : Ref sig .tc := ⟨.hbm, 125, rfl⟩
abbrev main_call2_v1 : Ref sig .tc := ⟨.hbm, 126, rfl⟩
abbrev main_call2_cst_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_v7 : Ref sig .tc := ⟨.hbm, 133, rfl⟩
abbrev main_call2_cst_1 : Ref sig .tc := ⟨.hbm, 134, rfl⟩
abbrev main_call2_v8 : Ref sig .tc := ⟨.hbm, 135, rfl⟩
abbrev main_call2_cst_2 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_cst_3 : Ref sig .tc := ⟨.hbm, 140, rfl⟩
abbrev main_call2_v12 : Ref sig .tc := ⟨.hbm, 141, rfl⟩
abbrev main_call2_cst_4 : Ref sig .tc := ⟨.hbm, 142, rfl⟩
abbrev main_call2_call0_v0 : Ref sig .tc := ⟨.hbm, 143, rfl⟩
abbrev main_call2_call0_v1 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_cst_14 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64x8_S64x8_0_0 : ∀ a, (![0, 0] : Fin 2 → Nat) a + S64x8.size a ≤ S64x8.size a
  h_S64x8 : 0 < S64x8.numel
  inb_S8x64_S8x64_0_0 : ∀ a, (![0, 0] : Fin 2 → Nat) a + S8x64.size a ≤ S8x64.size a
  h_S8x64 : 0 < S8x64.numel
  packedbf16_S4000x64_S4000x64_0_0 : (Rect.unit (s := S4000x64) ![0, 0] S4000x64.size inb_S4000x64_S4000x64_0_0).PackedRows (EltTy.packing .bf16)
  inb_S4000x8_S4000x8_0_0 : ∀ a, (![0, 0] : Fin 2 → Nat) a + S4000x8.size a ≤ S4000x8.size a
  h_S4000x8 : 0 < S4000x8.numel
  bcast_S_S50000x64 : S_.BroadcastsInDim S50000x64 (![] : Fin 0 → Fin S50000x64.rank)
  bcast_S_S50000x8 : S_.BroadcastsInDim S50000x8 (![] : Fin 0 → Fin S50000x8.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x64_S800000x1_S800000x64_1_0_n_n_0_1_164_wf : GatherDims.WF S50000x64 S800000x1 S800000x64 [1] [0] [] [0] [] 1 ![1, 64]
  dot_S4000x64_S64x64_S4000x64_1_0_0_1_n_n_wf : DotDims.WF S4000x64 S64x64 S4000x64 [1] [0] [0] [1] [] []
  dot_S4000x64_S64x8_S4000x8_1_0_0_1_n_n_wf : DotDims.WF S4000x64 S64x8 S4000x8 [1] [0] [0] [1] [] []
  dot_S4000x8_S8x64_S4000x64_1_0_0_1_n_n_wf : DotDims.WF S4000x8 S8x64 S4000x64 [1] [0] [0] [1] [] []
  scatter_S50000x64_S800000x1_S800000x64_1_0_0_1_wf : ScatterDims.WF S50000x64 S800000x1 S800000x64 [1] [0] [0] 1
  scatter_S50000x8_S800000x1_S800000x8_1_0_0_1_wf : ScatterDims.WF S50000x8 S800000x1 S800000x8 [1] [0] [0] 1
  dot_S50000x8_S8x64_S50000x64_1_0_0_1_n_n_wf : DotDims.WF S50000x8 S8x64 S50000x64 [1] [0] [0] [1] [] []
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S800000x64.size a
  hwx0_2 : ∀ i : grid0.Coords, EltTy.bits .f32 = 32 ∨ (Rect.block (s := S800000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x8.size a ≤ S64x8.size a
  hwx0_7 : ∀ i : grid0.Coords, EltTy.bits .f32 = 32 ∨ (Rect.block (s := S64x8) S64x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S8x64.size a
  hwx0_8 : ∀ i : grid0.Coords, EltTy.bits .f32 = 32 ∨ (Rect.block (s := S8x64) S8x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S800000x64.size a
  hwx0_9 : ∀ i : grid0.Coords, EltTy.bits .bf16 = 32 ∨ (Rect.block (s := S800000x64) S4000x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x8.size a ≤ S800000x8.size a
  hwx0_10 : ∀ i : grid0.Coords, EltTy.bits .f32 = 32 ∨ (Rect.block (s := S800000x8) S4000x8.size (cc0_transform_10 i) (hinb0_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x8_S4000x8_1_0_0_1_n_n : DotDims S4000x64 S64x8 S4000x8 where
  lhsContracting := [1]
  rhsContracting := [0]
  lhsNonContracting := [0]
  rhsNonContracting := [1]
  lhsBatch := []
  rhsBatch := []
  wf := dot_S4000x64_S64x8_S4000x8_1_0_0_1_n_n_wf
def dot_S4000x8_S8x64_S4000x64_1_0_0_1_n_n : DotDims S4000x8 S8x64 S4000x64 where
  lhsContracting := [1]
  rhsContracting := [0]
  lhsNonContracting := [0]
  rhsNonContracting := [1]
  lhsBatch := []
  rhsBatch := []
  wf := dot_S4000x8_S8x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S50000x8_S8x64_S50000x64_1_0_0_1_n_n : DotDims S50000x8 S8x64 S50000x64 where
  lhsContracting := [1]
  rhsContracting := [0]
  lhsNonContracting := [0]
  rhsNonContracting := [1]
  lhsBatch := []
  rhsBatch := []
  wf := dot_S50000x8_S8x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S64x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst_0) S8x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18_0) S4000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18_1) S4000x8.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S2x800000 : Shape := ⟨2, ![2, 800000]⟩
abbrev S50000x8x8 : Shape := ⟨3, ![50000, 8, 8]⟩
abbrev S800000x8x8 : Shape := ⟨3, ![800000, 8, 8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩
abbrev S1x64 : Shape := ⟨2, ![1, 64]⟩
abbrev S50000x128 : Shape := ⟨2, ![50000, 128]⟩
abbrev S1x128 : Shape := ⟨2, ![1, 128]⟩

abbrev nBuf : Space → Nat
  | .hbm => 194
  | .vmem => 0
  | .smem => 0
  | _ => 0

abbrev hbmTy0_0 (i : Nat) : BufTy := match i % 128 with
  | 0 => ⟨S50000x64, .f32⟩
  | 1 => ⟨S800000x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64, .f32⟩
  | 8 => ⟨S64x128, .f32⟩
  | 9 => ⟨S128, .f32⟩
  | 10 => ⟨S128x64, .f32⟩
  | 11 => ⟨S64, .f32⟩
  | 12 => ⟨S64, .f32⟩
  | 13 => ⟨S64, .f32⟩
  | 14 => ⟨S64, .f32⟩
  | 15 => ⟨S64, .f32⟩
  | 16 => ⟨S2x800000, .i32⟩
  | 17 => ⟨S50000x64, .f32⟩
  | 18 => ⟨S50000x8x8, .f32⟩
  | 19 => ⟨S50000x64, .f32⟩
  | 20 => ⟨S50000x8x8, .f32⟩
  | 21 => ⟨S50000x64, .f32⟩
  | 22 => ⟨S50000x8x8, .f32⟩
  | 23 => ⟨S800000x64, .f32⟩
  | 24 => ⟨S800000x8x8, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x8x8, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x8x8, .f32⟩
  | 47 => ⟨S800000x8x8, .f32⟩
  | 48 => ⟨S_, .f32⟩
  | 49 => ⟨S800000x8x8, .f32⟩
  | 50 => ⟨S800000x8x8, .f32⟩
  | 51 => ⟨S800000x8x8, .f32⟩
  | 52 => ⟨S_, .f32⟩
  | 53 => ⟨S800000x8, .f32⟩
  | 54 => ⟨S800000x8x1, .f32⟩
  | 55 => ⟨S_, .f32⟩
  | 56 => ⟨S_, .f32⟩
  | 57 => ⟨S_, .f32⟩
  | 58 => ⟨S800000x8x1, .f32⟩
  | 59 => ⟨S800000x8x1, .f32⟩
  | 60 => ⟨S_, .f32⟩
  | 61 => ⟨S800000x8x1, .f32⟩
  | 62 => ⟨S800000x8x1, .f32⟩
  | 63 => ⟨S800000x8x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x8x8, .f32⟩
  | 73 => ⟨S800000x8x8, .f32⟩
  | 74 => ⟨S800000x8x8, .f32⟩
  | 75 => ⟨S_, .f32⟩
  | 76 => ⟨S50000x8x8, .f32⟩
  | 77 => ⟨S800000x1, .i32⟩
  | 78 => ⟨S50000x8x8, .f32⟩
  | 79 => ⟨S_, .f32⟩
  | 80 => ⟨S50000x8x1, .f32⟩
  | 81 => ⟨S800000x1, .i32⟩
  | 82 => ⟨S50000x8x1, .f32⟩
  | 83 => ⟨S_, .f32⟩
  | 84 => ⟨S50000x8x1, .f32⟩
  | 85 => ⟨S50000x8x1, .f32⟩
  | 86 => ⟨S50000x8x8, .f32⟩
  | 87 => ⟨S50000x8x8, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S50000x64, .f32⟩
  | 94 => ⟨S_, .f32⟩
  | 95 => ⟨S64, .f32⟩
  | 96 => ⟨S_, .f32⟩
  | 97 => ⟨S64, .f32⟩
  | 98 => ⟨S64, .f32⟩
  | 99 => ⟨S_, .i32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S50000x64, .f32⟩
  | 107 => ⟨S50000x64, .f32⟩
  | 108 => ⟨S50000x64, .f32⟩
  | 109 => ⟨S_, .f32⟩
  | 110 => ⟨S_, .f32⟩
  | 111 => ⟨S_, .f32⟩
  | 112 => ⟨S_, .f32⟩
  | 113 => ⟨S64, .f32⟩
  | 114 => ⟨S64, .f32⟩
  | 115 => ⟨S64, .f32⟩
  | 116 => ⟨S_, .f32⟩
  | 117 => ⟨S_, .i1⟩
  | 118 => ⟨S_, .f32⟩
  | 119 => ⟨S_, .f32⟩
  | 120 => ⟨S64, .f32⟩
  | 121 => ⟨S64, .f32⟩
  | 122 => ⟨S1x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x64, .f32⟩
  | 18 => ⟨S1x64, .f32⟩
  | 19 => ⟨S50000x64, .f32⟩
  | 20 => ⟨S50000x64, .f32⟩
  | 21 => ⟨S50000x64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S50000x64, .f32⟩
  | 35 => ⟨S50000x64, .f32⟩
  | 36 => ⟨S50000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S64, .f32⟩
  | 58 => ⟨S64, .f32⟩
  | 59 => ⟨S64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v32 : Ref sig .tc := ⟨.hbm, 62, rfl⟩
abbrev main_v33 : Ref sig .tc := ⟨.hbm, 63, rfl⟩
abbrev main_c_6 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_9 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_v61 : Ref sig .tc := ⟨.hbm, 98, rfl⟩
abbrev main_c_13 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_cst_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_cst_1 : Ref sig .tc := ⟨.hbm, 110, rfl⟩
abbrev main_call1_v8 : Ref sig .tc := ⟨.hbm, 111, rfl⟩
abbrev main_call1_cst_2 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_cst_3 : Ref sig .tc := ⟨.hbm, 116, rfl⟩
abbrev main_call1_v12 : Ref sig .tc := ⟨.hbm, 117, rfl⟩
abbrev main_call1_cst_4 : Ref sig .tc := ⟨.hbm, 118, rfl⟩
abbrev main_call1_call0_v0 : Ref sig .tc := ⟨.hbm, 119, rfl⟩
abbrev main_call1_call0_v1 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_14 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_call2_cst : Ref sig .tc := ⟨.hbm, 142, rfl⟩
abbrev main_call2_v0 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_cst_15 : Ref sig .tc := ⟨.hbm, 150, rfl⟩
abbrev main_v88 : Ref sig .tc := ⟨.hbm, 151, rfl⟩
abbrev main_cst_16 : Ref sig .tc := ⟨.hbm, 152, rfl⟩
abbrev main_v89 : Ref sig .tc := ⟨.hbm, 153, rfl⟩
abbrev main_v90 : Ref sig .tc := ⟨.hbm, 154, rfl⟩
abbrev main_c_17 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_v4 : Ref sig .tc := ⟨.hbm, 162, rfl⟩
abbrev main_call3_v5 : Ref sig .tc := ⟨.hbm, 163, rfl⟩
abbrev main_call3_v6 : Ref sig .tc := ⟨.hbm, 164, rfl⟩
abbrev main_call3_v7 : Ref sig .tc := ⟨.hbm, 165, rfl⟩
abbrev main_call3_cst_1 : Ref sig .tc := ⟨.hbm, 166, rfl⟩
abbrev main_call3_v8 : Ref sig .tc := ⟨.hbm, 167, rfl⟩
abbrev main_call3_cst_2 : Ref sig .tc := ⟨.hbm, 168, rfl⟩
abbrev main_call3_v9 : Ref sig .tc := ⟨.hbm, 169, rfl⟩
abbrev main_call3_v10 : Ref sig .tc := ⟨.hbm, 170, rfl⟩
abbrev main_call3_v11 : Ref sig .tc := ⟨.hbm, 171, rfl⟩
abbrev main_call3_cst_3 : Ref sig .tc := ⟨.hbm, 172, rfl⟩
abbrev main_call3_v12 : Ref sig .tc := ⟨.hbm, 173, rfl⟩
abbrev main_call3_cst_4 : Ref sig .tc := ⟨.hbm, 174, rfl⟩
abbrev main_call3_call0_v0 : Ref sig .tc := ⟨.hbm, 175, rfl⟩
abbrev main_call3_call0_v1 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_cst_18 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩

abbrev nD : Nat := 1
abbrev τ : Topo := Topo.v7x

variable {F : FTy → Type} [FloatOps F]

class Facts₀ : Prop where
  shapeCasts_S50000x64_S50000x8x8 : S50000x64.ShapeCasts S50000x8x8
  shapeCasts_S800000x64_S800000x8x8 : S800000x64.ShapeCasts S800000x8x8
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x8 : S_.BroadcastsInDim S800000x8x8 (![] : Fin 0 → Fin S800000x8x8.rank)
  reducesTo_S800000x8x8_S800000x8_d2 : S800000x8x8.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x8_0_1_2 : S800000x8x1.BroadcastsInDim S800000x8x8 (![0, 1, 2] : Fin 3 → Fin S800000x8x8.rank)
  bcast_S_S50000x8x8 : S_.BroadcastsInDim S50000x8x8 (![] : Fin 0 → Fin S50000x8x8.rank)
  bcast_S_S50000x8x1 : S_.BroadcastsInDim S50000x8x1 (![] : Fin 0 → Fin S50000x8x1.rank)
  bcast_S50000x8x1_S50000x8x8_0_1_2 : S50000x8x1.BroadcastsInDim S50000x8x8 (![0, 1, 2] : Fin 3 → Fin S50000x8x8.rank)
  shapeCasts_S50000x8x8_S50000x64 : S50000x8x8.ShapeCasts S50000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x8x8_S800000x1_S800000x8x8_12_0_n_n_0_1_188_wf : GatherDims.WF S50000x8x8 S800000x1 S800000x8x8 [1, 2] [0] [] [0] [] 1 ![1, 8, 8]
  scatter_S50000x8x8_S800000x1_S800000x8x8_12_0_0_1_wf : ScatterDims.WF S50000x8x8 S800000x1 S800000x8x8 [1, 2] [0] [0] 1
  scatter_S50000x8x1_S800000x1_S800000x8x1_12_0_0_1_wf : ScatterDims.WF S50000x8x1 S800000x1 S800000x8x1 [1, 2] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x8x8_S800000x1_S800000x8x8_12_0_n_n_0_1_188 : GatherDims S50000x8x8 S800000x1 S800000x8x8 where
  offsetDims := [1, 2]
  collapsedSliceDims := [0]
  operandBatchingDims := []
  startIndicesBatchingDims := []
  startIndexMap := [0]
  indexVectorDim := 1
  sliceSizes := ![1, 8, 8]
  wf := gather_S50000x8x8_S800000x1_S800000x8x8_12_0_n_n_0_1_188_wf
def scatter_S50000x8x8_S800000x1_S800000x8x8_12_0_0_1 : ScatterDims S50000x8x8 S800000x1 S800000x8x8 where
  updateWindowDims := [1, 2]
  insertedWindowDims := [0]
  scatterDimsToOperandDims := [0]
  indexVectorDim := 1
  wf := scatter_S50000x8x8_S800000x1_S800000x8x8_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.HostK.lean ====
/-
  The host side of `Kernel`'s frame: the program is host operations, one kernel region over a grid of 200 points,
  and then seven stretches of host operations. Here: the buffer contents the region is entered with (the fold of
  the operations before it over the launch memory), the fact that the operations before the region write no
  buffer below reference 17 and the operations after it write no buffer below reference 43 (so neither writes an
  argument array, and the later ones write no array a window of the region stages), and each window's block at a
  grid point read off the array the region finds.
-/
import proofs.«108813_j27779848470631_2_alg».proof.Proof.Gen.Kernel.Launch
import proofs.«108813_j27779848470631_2_alg».proof.Proof.Gen.Kernel.Skeleton
import proofs.«108813_j27779848470631_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the operations before it folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program around its region: the operations before it, the region, and the region continued by the seven
    later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## What the host operations write

Every operation writes exactly its own result buffer. The operations before the region write references 17 … 40,
the operations after it references 43 and up; the argument arrays are references 0 … 16 and the arrays the windows
stage are all below 43. -/

theorem pre_keeps (b : Ref sig .tc) (hb : b.idx.val < 17) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))

theorem keeps1 (b : Ref sig .tc) (hb : b.idx.val < 43) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_1 (b : Ref sig .tc) (hb : b.idx.val < 43) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_2 (b : Ref sig .tc) (hb : b.idx.val < 43) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_3 (b : Ref sig .tc) (hb : b.idx.val < 43) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_4 (b : Ref sig .tc) (hb : b.idx.val < 43) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_5 (b : Ref sig .tc) (hb : b.idx.val < 43) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_6 (b : Ref sig .tc) (hb : b.idx.val < 43) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))

/-- No operation after the region writes a buffer below reference 43. -/
theorem tail_keeps (b : Ref sig .tc) (hb : b.idx.val < 43) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl | rfl | rfl | rfl | rfl
  · exact (List.forall_iff_forall_mem.mp (keeps1 b hb)) op hop
  · exact (List.forall_iff_forall_mem.mp (keeps1_1 b hb)) op hop
  · exact (List.forall_iff_forall_mem.mp (keeps1_2 b hb)) op hop
  · exact (List.forall_iff_forall_mem.mp (keeps1_3 b hb)) op hop
  · exact (List.forall_iff_forall_mem.mp (keeps1_4 b hb)) op hop
  · exact (List.forall_iff_forall_mem.mp (keeps1_5 b hb)) op hop
  · exact (List.forall_iff_forall_mem.mp (keeps1_6 b hb)) op hop

/-- The same over the flattened list. -/
theorem tail_keeps_flat (b : Ref sig .tc) (hb : b.idx.val < 43) :
    ∀ op ∈ (tailOps : List (List (HloOp τ sig (Elt F)))).flatten, Proc.devRef .tc b ∉ op.writes := by
  intro op hop
  obtain ⟨ops, hops, hop'⟩ := List.mem_flatten.mp hop
  exact tail_keeps b hb ops hops op hop'

/-- The later operations touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Every array a window stages is a buffer below reference 43. -/
theorem arr_low : ∀ w : Fin 11, (Pipeline.arrRef spec0 w).idx.val < 43 := by decide

/-- And they write no array of the region. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps (Pipeline.arrRef spec0 w) (arr_low w) ops hops op hop

/-- A buffer below reference 17 is found by the region as launched. -/
theorem V_low (c : Dev nD) (b : Ref sig .tc) (hb : b.idx.val < 17) : V m c b = m ((c : Thread nD τ).loc b) :=
  StableHlo.after_of_forall_not_mem (b := Proc.devRef .tc b) _ _ (by
    simp only [List.flatten_cons, List.flatten_nil, List.append_nil]
    exact List.forall_iff_forall_mem.mp (pre_keeps b hb))

/-- A buffer below reference 43 that no window stages is, after the later operations, as the region was entered with it. -/
theorem W_low (dats : (p : Fin _) → (c : Dev nD) → Dat τ (Elt F) Unit ℕ (UR sig nD τ) ℕ (cfgs p) c) (c : Dev nD)
    (b : Ref sig .tc) (hb : b.idx.val < 43) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (tail_keeps_flat b hb),
    Pipeline.withArrays_of_ne _ c (V0 m c) _ b hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.BodyK.lean ====
/-
  The kernel body of `Kernel` on its eleven staging buffers. It loads the three edge blocks (edge features, gathered
  source rows, gathered destination rows), the four weight matrices and the two 0/1 grouping matrices whole, and
  stores two blocks whole: the messages and the per-head scores. Here: what each output buffer holds after the body
  as a function of the nine input buffers' contents, and the body's triple.
-/
import proofs.«108813_j27779848470631_2_alg».proof.Proof.HostK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a [4000, 64] block, of a [64, 64] matrix, of the [64, 8] and [8, 64] grouping matrices, of a [4000, 8] block. -/
abbrev rE : Rect S4000x64 := Rect.unit (s := S4000x64) ![0, 0] S4000x64.size inb_S4000x64_S4000x64_0_0
abbrev rW : Rect S64x64 := Rect.unit (s := S64x64) ![0, 0] S64x64.size inb_S64x64_S64x64_0_0
abbrev rG : Rect S64x8 := Rect.unit (s := S64x8) ![0, 0] S64x8.size inb_S64x8_S64x8_0_0
abbrev rX : Rect S8x64 := Rect.unit (s := S8x64) ![0, 0] S8x64.size inb_S8x64_S8x64_0_0
abbrev rS : Rect S4000x8 := Rect.unit (s := S4000x8) ![0, 0] S4000x8.size inb_S4000x8_S4000x8_0_0

/-- The per-head scores of a block: exp of the clamped head sums of K·Q·E·scale. -/
def scoreOf (x1 x2 x3 : Vec F S4000x64 .f32) (x4 x5 x7 : Vec F S64x64 .f32) (x8 : Vec F S64x8 .f32) : FVec F S4000x8 .f32 :=
  k0_pay4 (View.ld x2 rE) (View.ld x3 rE) (View.ld x1 rE) (View.ld x5 rW) (View.ld x4 rW) (View.ld x7 rW) (View.ld x8 rG)

/-- The messages of a block: V times the scores spread back over each head's eight slots. -/
def msgOf (x1 x2 x3 : Vec F S4000x64 .f32) (x4 x5 x6 x7 : Vec F S64x64 .f32) (x8 : Vec F S64x8 .f32) (x9 : Vec F S8x64 .f32) :
    FVec F S4000x64 .bf16 :=
  k0_pay1 (k0_pay3 (View.ld x2 rE) (View.ld x6 rW)) (scoreOf x1 x2 x3 x4 x5 x7 x8) (View.ld x9 rX) (constant S4000x64 .f32 0x00000000#32)

/-- The message buffer after the body: its one store, which covers it. -/
def out9 (x1 x2 x3 : Vec F S4000x64 .f32) (x4 x5 x6 x7 : Vec F S64x64 .f32) (x8 : Vec F S64x8 .f32) (x9 : Vec F S8x64 .f32) :
    Vec F S4000x64 .bf16 :=
  View.canon [⟨rE, msgOf x1 x2 x3 x4 x5 x6 x7 x8 x9⟩]
/-- The score buffer after the body. -/
def out10 (x1 x2 x3 : Vec F S4000x64 .f32) (x4 x5 x7 : Vec F S64x64 .f32) (x8 : Vec F S64x8 .f32) : Vec F S4000x8 .f32 :=
  View.canon [⟨rS, scoreOf x1 x2 x3 x4 x5 x7 x8⟩]

theorem cover9 (p0 : Vec F S4000x64 .bf16) (y : S4000x64.Idx) :
    ∃ pc ∈ ([⟨rE, p0⟩] : List (View.Piece (Elt F) S4000x64 .bf16)), y ∈ pc.1.set :=
  View.cover_of_tiled [⟨rE, p0⟩] S4000x64.size (by rfl) y
theorem cover10 (p0 : Vec F S4000x8 .f32) (y : S4000x8.Idx) :
    ∃ pc ∈ ([⟨rS, p0⟩] : List (View.Piece (Elt F) S4000x8 .f32)), y ∈ pc.1.set :=
  View.cover_of_tiled [⟨rS, p0⟩] S4000x8.size (by rfl) y

set_option maxHeartbeats 4000000 in
/-- The body on whole staging buffers, the nine inputs at read contents and the two outputs at anything, runs to the
    continuation holding the inputs as they were and the outputs at `out9` / `out10` of the inputs. -/
theorem sound_kernel (c : Dev nD) (E : Set ℕ) (i : grid0.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole) (arg8 : Memref sig .tc .vmem S64x8 .f32) (harg8 : arg8.IsWhole)
    (arg9 : Memref sig .tc .vmem S8x64 .f32) (harg9 : arg9.IsWhole) (arg10 : Memref sig .tc .vmem S4000x64 .bf16) (harg10 : arg10.IsWhole)
    (arg11 : Memref sig .tc .vmem S4000x8 .f32) (harg11 : arg11.IsWhole)
    (x1 x2 x3 : Vec F S4000x64 .f32) (x4 x5 x6 x7 : Vec F S64x64 .f32) (x8 : Vec F S64x8 .f32) (x9 : Vec F S8x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg10 fullShare (out9 x1 x2 x3 x4 x5 x6 x7 x8 x9)
            ∗ owns (c : Thread nD τ) arg11 fullShare (out10 x1 x2 x3 x4 x5 x7 x8)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10 arg11 harg11) K := by
  sl_unfold [cc0__edge_kernel]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, ⟨%d11, %f11, -, H11⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover9 _)
  iexists _; isplitr
  swap; · iexact H11
  ipureintro
  exact View.read_writes_eq_canon _ _ _ (cover10 _)

end Cert.Kernel.Hand

end
-- ==== Proof.FrameK.lean ====
/-
  The frame of `Kernel`: every weakly fair execution of the program terminates without a fault and leaves the seventeen
  argument arrays as launched. The region's proof data say that after the body at a grid point each input buffer
  still holds its block and the two output buffers hold the messages and scores of the point's blocks; the run is
  the library's frame run around a region followed by host operations, and an argument array ends as launched
  because it is either a staged input (kept by the region) or a buffer that neither the region nor any host
  operation writes.
-/
import proofs.«108813_j27779848470631_2_alg».proof.Proof.BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block at every point, fetched there or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input at its block and the outputs at the messages and
    scores of the point's blocks; the invariant the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
    | ⟨10, _⟩ => out10 (iblk m c 0 t) (iblk m c 1 t) (iblk m c 2 t) (iblk m c 3 t) (iblk m c 4 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out10 (iblk m c 0 t) (iblk m c 1 t) (iblk m c 2 t) (iblk m c 3 t) (iblk m c 4 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array a window stages ends at what the proof data compute and every
    other unscoped buffer at what the host operations after the region leave. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame's post from the run's: a staged input ends at its entry contents, any other argument is a buffer nothing writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans ((W_low m dats c main_arg0 (by decide) (by decide)).trans (V_low m c main_arg0 (by decide))),
      ((h c).1 0).trans (((dats 0 c).arrAt_in 0 rfl _).trans ((hA c 0).trans (V_low m c main_arg1 (by decide)))),
      ((h c).1 3).trans (((dats 0 c).arrAt_in 3 rfl _).trans ((hA c 3).trans (V_low m c main_arg2 (by decide)))),
      ((h c).1 4).trans (((dats 0 c).arrAt_in 4 rfl _).trans ((hA c 4).trans (V_low m c main_arg3 (by decide)))),
      ((h c).1 6).trans (((dats 0 c).arrAt_in 6 rfl _).trans ((hA c 6).trans (V_low m c main_arg4 (by decide)))),
      ((h c).1 5).trans (((dats 0 c).arrAt_in 5 rfl _).trans ((hA c 5).trans (V_low m c main_arg5 (by decide)))),
      ((h c).2 main_arg6 (Pipeline.mem_restRefs_of main_arg6 (by decide) (by decide))).trans ((W_low m dats c main_arg6 (by decide) (by decide)).trans (V_low m c main_arg6 (by decide))),
      ((h c).2 main_arg7 (Pipeline.mem_restRefs_of main_arg7 (by decide) (by decide))).trans ((W_low m dats c main_arg7 (by decide) (by decide)).trans (V_low m c main_arg7 (by decide))),
      ((h c).2 main_arg8 (Pipeline.mem_restRefs_of main_arg8 (by decide) (by decide))).trans ((W_low m dats c main_arg8 (by decide) (by decide)).trans (V_low m c main_arg8 (by decide))),
      ((h c).2 main_arg9 (Pipeline.mem_restRefs_of main_arg9 (by decide) (by decide))).trans ((W_low m dats c main_arg9 (by decide) (by decide)).trans (V_low m c main_arg9 (by decide))),
      ((h c).2 main_arg10 (Pipeline.mem_restRefs_of main_arg10 (by decide) (by decide))).trans ((W_low m dats c main_arg10 (by decide) (by decide)).trans (V_low m c main_arg10 (by decide))),
      ((h c).2 main_arg11 (Pipeline.mem_restRefs_of main_arg11 (by decide) (by decide))).trans ((W_low m dats c main_arg11 (by decide) (by decide)).trans (V_low m c main_arg11 (by decide))),
      ((h c).2 main_arg12 (Pipeline.mem_restRefs_of main_arg12 (by decide) (by decide))).trans ((W_low m dats c main_arg12 (by decide) (by decide)).trans (V_low m c main_arg12 (by decide))),
      ((h c).2 main_arg13 (Pipeline.mem_restRefs_of main_arg13 (by decide) (by decide))).trans ((W_low m dats c main_arg13 (by decide) (by decide)).trans (V_low m c main_arg13 (by decide))),
      ((h c).2 main_arg14 (Pipeline.mem_restRefs_of main_arg14 (by decide) (by decide))).trans ((W_low m dats c main_arg14 (by decide) (by decide)).trans (V_low m c main_arg14 (by decide))),
      ((h c).2 main_arg15 (Pipeline.mem_restRefs_of main_arg15 (by decide) (by decide))).trans ((W_low m dats c main_arg15 (by decide) (by decide)).trans (V_low m c main_arg15 (by decide))),
      ((h c).2 main_arg16 (Pipeline.mem_restRefs_of main_arg16 (by decide) (by decide))).trans ((W_low m dats c main_arg16 (by decide) (by decide)).trans (V_low m c main_arg16 (by decide)))⟩) h

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Hand

end
-- ==== Proof.HostKI.lean ====
/-
  The host side of `KernelIdeal`'s frame: the program is host operations, one kernel region over a grid of 200 points,
  and then seven stretches of host operations. Here: the buffer contents the region is entered with (the fold of
  the operations before it over the launch memory), the fact that the operations before the region write no
  buffer below reference 17 and the operations after it write no buffer below reference 43 (so neither writes an
  argument array, and the later ones write no array a window of the region stages), and each window's block at a
  grid point read off the array the region finds.
-/
import proofs.«108813_j27779848470631_2_alg».proof.Proof.Gen.KernelIdeal.Launch
import proofs.«108813_j27779848470631_2_alg».proof.Proof.Gen.KernelIdeal.Skeleton
import proofs.«108813_j27779848470631_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the operations before it folded over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program around its region: the operations before it, the region, and the region continued by the seven
    later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## What the host operations write

Every operation writes exactly its own result buffer. The operations before the region write references 17 … 40,
the operations after it references 43 and up; the argument arrays are references 0 … 16 and the arrays the windows
stage are all below 43. -/

theorem pre_keeps (b : Ref sig .tc) (hb : b.idx.val < 17) :
    (hostOps0 : List (HloOp τ sig (Elt F))).Forall fun op => Proc.devRef .tc b ∉ op.writes := by
  simp only [hostOps0, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))

theorem keeps1 (b : Ref sig .tc) (hb : b.idx.val < 43) :
    (hostOps1 : List (HloOp τ sig (Elt F))).Forall fun op => Proc.devRef .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_1 (b : Ref sig .tc) (hb : b.idx.val < 43) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_2 (b : Ref sig .tc) (hb : b.idx.val < 43) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_3 (b : Ref sig .tc) (hb : b.idx.val < 43) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_4 (b : Ref sig .tc) (hb : b.idx.val < 43) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_5 (b : Ref sig .tc) (hb : b.idx.val < 43) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))
theorem keeps1_6 (b : Ref sig .tc) (hb : b.idx.val < 43) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; exact absurd hb (by decide))

/-- No operation after the region writes a buffer below reference 43. -/
theorem tail_keeps (b : Ref sig .tc) (hb : b.idx.val < 43) :
    ∀ ops ∈ (tailOps : List (List (HloOp τ sig (Elt F)))), ∀ op ∈ ops, Proc.devRef .tc b ∉ op.writes := by
  intro ops hops op hop
  simp only [List.mem_cons, List.mem_nil_iff, or_false] at hops
  rcases hops with rfl | rfl | rfl | rfl | rfl | rfl | rfl
  · exact (List.forall_iff_forall_mem.mp (keeps1 b hb)) op hop
  · exact (List.forall_iff_forall_mem.mp (keeps1_1 b hb)) op hop
  · exact (List.forall_iff_forall_mem.mp (keeps1_2 b hb)) op hop
  · exact (List.forall_iff_forall_mem.mp (keeps1_3 b hb)) op hop
  · exact (List.forall_iff_forall_mem.mp (keeps1_4 b hb)) op hop
  · exact (List.forall_iff_forall_mem.mp (keeps1_5 b hb)) op hop
  · exact (List.forall_iff_forall_mem.mp (keeps1_6 b hb)) op hop

/-- The same over the flattened list. -/
theorem tail_keeps_flat (b : Ref sig .tc) (hb : b.idx.val < 43) :
    ∀ op ∈ (tailOps : List (List (HloOp τ sig (Elt F)))).flatten, Proc.devRef .tc b ∉ op.writes := by
  intro op hop
  obtain ⟨ops, hops, hop'⟩ := List.mem_flatten.mp hop
  exact tail_keeps b hb ops hops op hop'

/-- The later operations touch the region's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Every array a window stages is a buffer below reference 43. -/
theorem arr_low : ∀ w : Fin 11, (Pipeline.arrRef spec0 w).idx.val < 43 := by decide

/-- And they write no array of the region. -/
theorem sfx_keeps : ∀ ops ∈ (tailOps : List (List (HloOp τ sig (Elt F)))), ∀ op ∈ ops,
    ∀ w, Proc.devRef .tc (Pipeline.arrRef spec0 w) ∉ op.writes :=
  fun ops hops op hop w => tail_keeps (Pipeline.arrRef spec0 w) (arr_low w) ops hops op hop

/-- A buffer below reference 17 is found by the region as launched. -/
theorem V_low (c : Dev nD) (b : Ref sig .tc) (hb : b.idx.val < 17) : V m c b = m ((c : Thread nD τ).loc b) :=
  StableHlo.after_of_forall_not_mem (b := Proc.devRef .tc b) _ _ (by
    simp only [List.flatten_cons, List.flatten_nil, List.append_nil]
    exact List.forall_iff_forall_mem.mp (pre_keeps b hb))

/-- A buffer below reference 43 that no window stages is, after the later operations, as the region was entered with it. -/
theorem W_low (dats : (p : Fin _) → (c : Dev nD) → Dat τ (Elt F) Unit ℕ (UR sig nD τ) ℕ (cfgs p) c) (c : Dev nD)
    (b : Ref sig .tc) (hb : b.idx.val < 43) (hne : ∀ w, Pipeline.arrRef spec0 w ≠ b) :
    Pipeline.afterTail₀ cfgs dats 0 (V0 m) tailOps c b = V m c b := by
  unfold Pipeline.afterTail₀
  rw [StableHlo.after_of_forall_not_mem (b := Proc.devRef .tc b) _ _ (tail_keeps_flat b hb),
    Pipeline.withArrays_of_ne _ c (V0 m c) _ b hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.BodyKI.lean ====
/-
  The kernel body of `KernelIdeal` on its eleven staging buffers. It loads the three edge blocks (edge features, gathered
  source rows, gathered destination rows), the four weight matrices and the two 0/1 grouping matrices whole, and
  stores two blocks whole: the messages and the per-head scores. Here: what each output buffer holds after the body
  as a function of the nine input buffers' contents, and the body's triple.
-/
import proofs.«108813_j27779848470631_2_alg».proof.Proof.HostKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a [4000, 64] block, of a [64, 64] matrix, of the [64, 8] and [8, 64] grouping matrices, of a [4000, 8] block. -/
abbrev rE : Rect S4000x64 := Rect.unit (s := S4000x64) ![0, 0] S4000x64.size inb_S4000x64_S4000x64_0_0
abbrev rW : Rect S64x64 := Rect.unit (s := S64x64) ![0, 0] S64x64.size inb_S64x64_S64x64_0_0
abbrev rG : Rect S64x8 := Rect.unit (s := S64x8) ![0, 0] S64x8.size inb_S64x8_S64x8_0_0
abbrev rX : Rect S8x64 := Rect.unit (s := S8x64) ![0, 0] S8x64.size inb_S8x64_S8x64_0_0
abbrev rS : Rect S4000x8 := Rect.unit (s := S4000x8) ![0, 0] S4000x8.size inb_S4000x8_S4000x8_0_0

/-- The per-head scores of a block: exp of the clamped head sums of K·Q·E·scale. -/
def scoreOf (x1 x2 x3 : Vec F S4000x64 .f32) (x4 x5 x7 : Vec F S64x64 .f32) (x8 : Vec F S64x8 .f32) : FVec F S4000x8 .f32 :=
  k0_pay4 (View.ld x2 rE) (View.ld x3 rE) (View.ld x1 rE) (View.ld x5 rW) (View.ld x4 rW) (View.ld x7 rW) (View.ld x8 rG)

/-- The messages of a block: V times the scores spread back over each head's eight slots. -/
def msgOf (x1 x2 x3 : Vec F S4000x64 .f32) (x4 x5 x6 x7 : Vec F S64x64 .f32) (x8 : Vec F S64x8 .f32) (x9 : Vec F S8x64 .f32) :
    FVec F S4000x64 .bf16 :=
  k0_pay1 (k0_pay3 (View.ld x2 rE) (View.ld x6 rW)) (scoreOf x1 x2 x3 x4 x5 x7 x8) (View.ld x9 rX) (constant S4000x64 .f32 0x00000000#32)

/-- The message buffer after the body: its one store, which covers it. -/
def out9 (x1 x2 x3 : Vec F S4000x64 .f32) (x4 x5 x6 x7 : Vec F S64x64 .f32) (x8 : Vec F S64x8 .f32) (x9 : Vec F S8x64 .f32) :
    Vec F S4000x64 .bf16 :=
  View.canon [⟨rE, msgOf x1 x2 x3 x4 x5 x6 x7 x8 x9⟩]
/-- The score buffer after the body. -/
def out10 (x1 x2 x3 : Vec F S4000x64 .f32) (x4 x5 x7 : Vec F S64x64 .f32) (x8 : Vec F S64x8 .f32) : Vec F S4000x8 .f32 :=
  View.canon [⟨rS, scoreOf x1 x2 x3 x4 x5 x7 x8⟩]

theorem cover9 (p0 : Vec F S4000x64 .bf16) (y : S4000x64.Idx) :
    ∃ pc ∈ ([⟨rE, p0⟩] : List (View.Piece (Elt F) S4000x64 .bf16)), y ∈ pc.1.set :=
  View.cover_of_tiled [⟨rE, p0⟩] S4000x64.size (by rfl) y
theorem cover10 (p0 : Vec F S4000x8 .f32) (y : S4000x8.Idx) :
    ∃ pc ∈ ([⟨rS, p0⟩] : List (View.Piece (Elt F) S4000x8 .f32)), y ∈ pc.1.set :=
  View.cover_of_tiled [⟨rS, p0⟩] S4000x8.size (by rfl) y

set_option maxHeartbeats 4000000 in
/-- The body on whole staging buffers, the nine inputs at read contents and the two outputs at anything, runs to the
    continuation holding the inputs as they were and the outputs at `out9` / `out10` of the inputs. -/
theorem sound_kernel (c : Dev nD) (E : Set ℕ) (i : grid0.Coords)
    (arg1 : Memref sig .tc .vmem S4000x64 .f32) (harg1 : arg1.IsWhole) (arg2 : Memref sig .tc .vmem S4000x64 .f32) (harg2 : arg2.IsWhole)
    (arg3 : Memref sig .tc .vmem S4000x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole) (arg8 : Memref sig .tc .vmem S64x8 .f32) (harg8 : arg8.IsWhole)
    (arg9 : Memref sig .tc .vmem S8x64 .f32) (harg9 : arg9.IsWhole) (arg10 : Memref sig .tc .vmem S4000x64 .bf16) (harg10 : arg10.IsWhole)
    (arg11 : Memref sig .tc .vmem S4000x8 .f32) (harg11 : arg11.IsWhole)
    (x1 x2 x3 : Vec F S4000x64 .f32) (x4 x5 x6 x7 : Vec F S64x64 .f32) (x8 : Vec F S64x8 .f32) (x9 : Vec F S8x64 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg10 fullShare (out9 x1 x2 x3 x4 x5 x6 x7 x8 x9)
            ∗ owns (c : Thread nD τ) arg11 fullShare (out10 x1 x2 x3 x4 x5 x7 x8)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9 arg10 harg10 arg11 harg11) K := by
  sl_unfold [cc0__edge_kernel]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, ⟨%f9, %hf9, H9⟩, ⟨%d10, %f10, -, H10⟩, ⟨%d11, %f11, -, H11⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover9 _)
  iexists _; isplitr
  swap; · iexact H11
  ipureintro
  exact View.read_writes_eq_canon _ _ _ (cover10 _)

end Cert.KernelIdeal.Hand

end
-- ==== Proof.FrameKI.lean ====
/-
  The frame of `KernelIdeal`: every weakly fair execution of the program terminates without a fault and leaves the seventeen
  argument arrays as launched. The region's proof data say that after the body at a grid point each input buffer
  still holds its block and the two output buffers hold the messages and scores of the point's blocks; the run is
  the library's frame run around a region followed by host operations, and an argument array ends as launched
  because it is either a staged input (kept by the region) or a buffer that neither the region nor any host
  operation writes.
-/
import proofs.«108813_j27779848470631_2_alg».proof.Proof.BodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input's staging buffer holds its block at every point, fetched there or not -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input at its block and the outputs at the messages and
    scores of the point's blocks; the invariant the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t) (iblk m c 5 t) (iblk m c 6 t) (iblk m c 7 t) (iblk m c 8 t)
    | ⟨10, _⟩ => out10 (iblk m c 0 t) (iblk m c 1 t) (iblk m c 2 t) (iblk m c 3 t) (iblk m c 4 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out10 (iblk m c 0 t) (iblk m c 1 t) (iblk m c 2 t) (iblk m c 3 t) (iblk m c 4 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution terminates; every array a window stages ends at what the proof data compute and every
    other unscoped buffer at what the host operations after the region leave. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame's post from the run's: a staged input ends at its entry contents, any other argument is a buffer nothing writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans ((W_low m dats c main_arg0 (by decide) (by decide)).trans (V_low m c main_arg0 (by decide))),
      ((h c).1 0).trans (((dats 0 c).arrAt_in 0 rfl _).trans ((hA c 0).trans (V_low m c main_arg1 (by decide)))),
      ((h c).1 3).trans (((dats 0 c).arrAt_in 3 rfl _).trans ((hA c 3).trans (V_low m c main_arg2 (by decide)))),
      ((h c).1 4).trans (((dats 0 c).arrAt_in 4 rfl _).trans ((hA c 4).trans (V_low m c main_arg3 (by decide)))),
      ((h c).1 6).trans (((dats 0 c).arrAt_in 6 rfl _).trans ((hA c 6).trans (V_low m c main_arg4 (by decide)))),
      ((h c).1 5).trans (((dats 0 c).arrAt_in 5 rfl _).trans ((hA c 5).trans (V_low m c main_arg5 (by decide)))),
      ((h c).2 main_arg6 (Pipeline.mem_restRefs_of main_arg6 (by decide) (by decide))).trans ((W_low m dats c main_arg6 (by decide) (by decide)).trans (V_low m c main_arg6 (by decide))),
      ((h c).2 main_arg7 (Pipeline.mem_restRefs_of main_arg7 (by decide) (by decide))).trans ((W_low m dats c main_arg7 (by decide) (by decide)).trans (V_low m c main_arg7 (by decide))),
      ((h c).2 main_arg8 (Pipeline.mem_restRefs_of main_arg8 (by decide) (by decide))).trans ((W_low m dats c main_arg8 (by decide) (by decide)).trans (V_low m c main_arg8 (by decide))),
      ((h c).2 main_arg9 (Pipeline.mem_restRefs_of main_arg9 (by decide) (by decide))).trans ((W_low m dats c main_arg9 (by decide) (by decide)).trans (V_low m c main_arg9 (by decide))),
      ((h c).2 main_arg10 (Pipeline.mem_restRefs_of main_arg10 (by decide) (by decide))).trans ((W_low m dats c main_arg10 (by decide) (by decide)).trans (V_low m c main_arg10 (by decide))),
      ((h c).2 main_arg11 (Pipeline.mem_restRefs_of main_arg11 (by decide) (by decide))).trans ((W_low m dats c main_arg11 (by decide) (by decide)).trans (V_low m c main_arg11 (by decide))),
      ((h c).2 main_arg12 (Pipeline.mem_restRefs_of main_arg12 (by decide) (by decide))).trans ((W_low m dats c main_arg12 (by decide) (by decide)).trans (V_low m c main_arg12 (by decide))),
      ((h c).2 main_arg13 (Pipeline.mem_restRefs_of main_arg13 (by decide) (by decide))).trans ((W_low m dats c main_arg13 (by decide) (by decide)).trans (V_low m c main_arg13 (by decide))),
      ((h c).2 main_arg14 (Pipeline.mem_restRefs_of main_arg14 (by decide) (by decide))).trans ((W_low m dats c main_arg14 (by decide) (by decide)).trans (V_low m c main_arg14 (by decide))),
      ((h c).2 main_arg15 (Pipeline.mem_restRefs_of main_arg15 (by decide) (by decide))).trans ((W_low m dats c main_arg15 (by decide) (by decide)).trans (V_low m c main_arg15 (by decide))),
      ((h c).2 main_arg16 (Pipeline.mem_restRefs_of main_arg16 (by decide) (by decide))).trans ((W_low m dats c main_arg16 (by decide) (by decide)).trans (V_low m c main_arg16 (by decide)))⟩) h

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Hand

end
-- ==== Proof.KerBlocks.lean ====
/-
  How the region's windows cut their arrays. The grid has 200 points; the three edge inputs and the two outputs are
  cut into blocks of 4000 rows, point `t` taking rows 4000·t … 4000·t + 3999 (and all columns); the four weight
  matrices and the two grouping matrices are one block each, the same at every point. So an entry of an edge block is
  the array's entry 4000·t rows further down, and a resident block is the array itself.
-/
import proofs.«108813_j27779848470631_2_alg».proof.Proof.FrameKI
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem t_lt (t : Fin cfg0.N) : t.val < 200 := lt_of_lt_of_eq t.isLt (show cfg0.N = 200 from N_0)

/-- The printed index maps over the grid: the edge windows and the outputs sit at block (t, 0), the resident ones at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `r` of point `t`'s block is row 4000·t + r of the array. -/
def erow (t : Fin cfg0.N) (r : Fin 4000) : Fin 800000 := ⟨4000 * t.val + r.val, by have := t_lt t; omega⟩

theorem iblk0 (c : Dev nD) (t : Fin cfg0.N) (r : Fin 4000) (k : Fin 64) :
    iblk m c 0 t (ix2 r k) = V m c main_arg1 (ix2 (erow t r) k) := by
  show V m c main_arg1 (((cfg0.win 0).blk t).view.emb (ix2 r k)) = V m c main_arg1 (ix2 (erow t r) k)
  refine congrArg _ ?_
  obtain ⟨⟨e0, e1⟩, -⟩ := idx_facts t
  funext a; apply Fin.ext
  match a with
  | ⟨0, _⟩ => show win0_0.index t (0 : Fin 2) * 4000 + 1 * r.val = 4000 * t.val + r.val; omega
  | ⟨1, _⟩ => show win0_0.index t (1 : Fin 2) * 64 + 1 * k.val = k.val; omega

theorem iblk1 (c : Dev nD) (t : Fin cfg0.N) (r : Fin 4000) (k : Fin 64) :
    iblk m c 1 t (ix2 r k) = V m c main_v10 (ix2 (erow t r) k) := by
  show V m c main_v10 (((cfg0.win 1).blk t).view.emb (ix2 r k)) = V m c main_v10 (ix2 (erow t r) k)
  refine congrArg _ ?_
  obtain ⟨-, ⟨e0, e1⟩, -⟩ := idx_facts t
  funext a; apply Fin.ext
  match a with
  | ⟨0, _⟩ => show win0_1.index t (0 : Fin 2) * 4000 + 1 * r.val = 4000 * t.val + r.val; omega
  | ⟨1, _⟩ => show win0_1.index t (1 : Fin 2) * 64 + 1 * k.val = k.val; omega

theorem iblk2 (c : Dev nD) (t : Fin cfg0.N) (r : Fin 4000) (k : Fin 64) :
    iblk m c 2 t (ix2 r k) = V m c main_v17 (ix2 (erow t r) k) := by
  show V m c main_v17 (((cfg0.win 2).blk t).view.emb (ix2 r k)) = V m c main_v17 (ix2 (erow t r) k)
  refine congrArg _ ?_
  obtain ⟨-, -, ⟨e0, e1⟩, -⟩ := idx_facts t
  funext a; apply Fin.ext
  match a with
  | ⟨0, _⟩ => show win0_2.index t (0 : Fin 2) * 4000 + 1 * r.val = 4000 * t.val + r.val; omega
  | ⟨1, _⟩ => show win0_2.index t (1 : Fin 2) * 64 + 1 * k.val = k.val; omega

theorem iblk3 (c : Dev nD) (t : Fin cfg0.N) (k j : Fin 64) : iblk m c 3 t (ix2 k j) = V m c main_arg2 (ix2 k j) := by
  show V m c main_arg2 (((cfg0.win 3).blk t).view.emb (ix2 k j)) = V m c main_arg2 (ix2 k j)
  refine congrArg _ ?_
  obtain ⟨-, -, -, ⟨e0, e1⟩, -⟩ := idx_facts t
  funext a; apply Fin.ext
  match a with
  | ⟨0, _⟩ => show win0_3.index t (0 : Fin 2) * 64 + 1 * k.val = k.val; omega
  | ⟨1, _⟩ => show win0_3.index t (1 : Fin 2) * 64 + 1 * j.val = j.val; omega

theorem iblk4 (c : Dev nD) (t : Fin cfg0.N) (k j : Fin 64) : iblk m c 4 t (ix2 k j) = V m c main_arg3 (ix2 k j) := by
  show V m c main_arg3 (((cfg0.win 4).blk t).view.emb (ix2 k j)) = V m c main_arg3 (ix2 k j)
  refine congrArg _ ?_
  obtain ⟨-, -, -, -, ⟨e0, e1⟩, -⟩ := idx_facts t
  funext a; apply Fin.ext
  match a with
  | ⟨0, _⟩ => show win0_4.index t (0 : Fin 2) * 64 + 1 * k.val = k.val; omega
  | ⟨1, _⟩ => show win0_4.index t (1 : Fin 2) * 64 + 1 * j.val = j.val; omega

theorem iblk5 (c : Dev nD) (t : Fin cfg0.N) (k j : Fin 64) : iblk m c 5 t (ix2 k j) = V m c main_arg5 (ix2 k j) := by
  show V m c main_arg5 (((cfg0.win 5).blk t).view.emb (ix2 k j)) = V m c main_arg5 (ix2 k j)
  refine congrArg _ ?_
  obtain ⟨-, -, -, -, -, ⟨e0, e1⟩, -⟩ := idx_facts t
  funext a; apply Fin.ext
  match a with
  | ⟨0, _⟩ => show win0_5.index t (0 : Fin 2) * 64 + 1 * k.val = k.val; omega
  | ⟨1, _⟩ => show win0_5.index t (1 : Fin 2) * 64 + 1 * j.val = j.val; omega

theorem iblk6 (c : Dev nD) (t : Fin cfg0.N) (k j : Fin 64) : iblk m c 6 t (ix2 k j) = V m c main_arg4 (ix2 k j) := by
  show V m c main_arg4 (((cfg0.win 6).blk t).view.emb (ix2 k j)) = V m c main_arg4 (ix2 k j)
  refine congrArg _ ?_
  obtain ⟨-, -, -, -, -, -, ⟨e0, e1⟩, -⟩ := idx_facts t
  funext a; apply Fin.ext
  match a with
  | ⟨0, _⟩ => show win0_6.index t (0 : Fin 2) * 64 + 1 * k.val = k.val; omega
  | ⟨1, _⟩ => show win0_6.index t (1 : Fin 2) * 64 + 1 * j.val = j.val; omega

theorem iblk7 (c : Dev nD) (t : Fin cfg0.N) (j : Fin 64) (h : Fin 8) : iblk m c 7 t (ix2 j h) = V m c main_cst (ix2 j h) := by
  show V m c main_cst (((cfg0.win 7).blk t).view.emb (ix2 j h)) = V m c main_cst (ix2 j h)
  refine congrArg _ ?_
  obtain ⟨-, -, -, -, -, -, -, ⟨e0, e1⟩, -⟩ := idx_facts t
  funext a; apply Fin.ext
  match a with
  | ⟨0, _⟩ => show win0_7.index t (0 : Fin 2) * 64 + 1 * j.val = j.val; omega
  | ⟨1, _⟩ => show win0_7.index t (1 : Fin 2) * 8 + 1 * h.val = h.val; omega

theorem iblk8 (c : Dev nD) (t : Fin cfg0.N) (h : Fin 8) (j : Fin 64) : iblk m c 8 t (ix2 h j) = V m c main_cst_0 (ix2 h j) := by
  show V m c main_cst_0 (((cfg0.win 8).blk t).view.emb (ix2 h j)) = V m c main_cst_0 (ix2 h j)
  refine congrArg _ ?_
  obtain ⟨-, -, -, -, -, -, -, -, ⟨e0, e1⟩, -⟩ := idx_facts t
  funext a; apply Fin.ext
  match a with
  | ⟨0, _⟩ => show win0_8.index t (0 : Fin 2) * 8 + 1 * h.val = h.val; omega
  | ⟨1, _⟩ => show win0_8.index t (1 : Fin 2) * 64 + 1 * j.val = j.val; omega

end Cert.KernelIdeal.Hand

end
-- ==== Proof.PayKI.lean ====
/-
  The kernel body's arithmetic read at an index, at the extended reals. Each of the body's matrix products into a zero
  accumulator is, at an index, the sum over the contracted coordinate of the products of the operands' entries; the
  per-head score is the exponential of the clamped head sum of K·Q·E·scale, and the message is V times the scores
  spread back over each head's eight slots. A load of a whole block is the buffer's contents and the one whole-block
  store of each output covers it.
-/
import proofs.«108813_j27779848470631_2_alg».proof.Proof.BodyKI
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

namespace Cert.KernelIdeal.Pay

open Cert.KernelIdeal Cert.KernelIdeal.Gen Cert.KernelIdeal.Hand
open Idealize.ShloMosaic Idealize.ShloMosaic.ValueIdx
open scoped BigOperators

/-! ## A matrix product into the zero accumulator, read at an index -/

/-- [4000, 64] · [64, 64] at (r, j): the sum over the 64 contracted coordinates. -/
theorem mm_e_w_apply {φ₁ φ₂ : FTy} (prec : Option ContractPrecision) (A : FVec Ideal S4000x64 φ₁) (B : FVec Ideal S64x64 φ₂)
    (r : Fin 4000) (j : Fin 64) :
    matmul dot_S4000x64_S64x64_S4000x64_1_0_0_1_n_n prec A B (constant (F := Ideal) S4000x64 .f32 0x00000000#32) (ix2 r j)
      = ∑ k : Fin 64, A (ix2 r k) * B (ix2 k j) := by
  show FloatOps.matmul _ prec A B _ (ix2 r j) = _
  rw [Ideal.matmul_constant_zero_apply,
    ← Equiv.sum_comp (contrEquiv1 dot_S4000x64_S64x64_S4000x64_1_0_0_1_n_n 64 rfl rfl).symm]
  refine Finset.sum_congr rfl fun c _ => ?_
  have c2 := contrEquiv1_symm_val dot_S4000x64_S64x64_S4000x64_1_0_0_1_n_n 64 rfl rfl c
  have l2 : dot_S4000x64_S64x64_S4000x64_1_0_0_1_n_n.lhsIdx (ix2 r j) ((contrEquiv1 _ 64 rfl rfl).symm c) = ix2 r c := by
    funext ax; apply Fin.ext
    match ax with
    | ⟨0, _⟩ => simp [DotDims.lhsIdx, dot_S4000x64_S64x64_S4000x64_1_0_0_1_n_n]; rfl
    | ⟨1, _⟩ => simp [DotDims.lhsIdx, dot_S4000x64_S64x64_S4000x64_1_0_0_1_n_n]; exact c2
  have r2 : dot_S4000x64_S64x64_S4000x64_1_0_0_1_n_n.rhsIdx (ix2 r j) ((contrEquiv1 _ 64 rfl rfl).symm c) = ix2 c j := by
    funext ax; apply Fin.ext
    match ax with
    | ⟨0, _⟩ => simp [DotDims.rhsIdx, dot_S4000x64_S64x64_S4000x64_1_0_0_1_n_n]; exact c2
    | ⟨1, _⟩ => simp [DotDims.rhsIdx, dot_S4000x64_S64x64_S4000x64_1_0_0_1_n_n]; rfl
  rw [l2, r2]

/-- [4000, 64] · [64, 8] at (r, h): the sum over the 64 contracted coordinates. -/
theorem mm_e_g_apply {φ₁ φ₂ : FTy} (prec : Option ContractPrecision) (A : FVec Ideal S4000x64 φ₁) (B : FVec Ideal S64x8 φ₂)
    (r : Fin 4000) (j : Fin 8) :
    matmul dot_S4000x64_S64x8_S4000x8_1_0_0_1_n_n prec A B (constant (F := Ideal) S4000x8 .f32 0x00000000#32) (ix2 r j)
      = ∑ k : Fin 64, A (ix2 r k) * B (ix2 k j) := by
  show FloatOps.matmul _ prec A B _ (ix2 r j) = _
  rw [Ideal.matmul_constant_zero_apply,
    ← Equiv.sum_comp (contrEquiv1 dot_S4000x64_S64x8_S4000x8_1_0_0_1_n_n 64 rfl rfl).symm]
  refine Finset.sum_congr rfl fun c _ => ?_
  have c2 := contrEquiv1_symm_val dot_S4000x64_S64x8_S4000x8_1_0_0_1_n_n 64 rfl rfl c
  have l2 : dot_S4000x64_S64x8_S4000x8_1_0_0_1_n_n.lhsIdx (ix2 r j) ((contrEquiv1 _ 64 rfl rfl).symm c) = ix2 r c := by
    funext ax; apply Fin.ext
    match ax with
    | ⟨0, _⟩ => simp [DotDims.lhsIdx, dot_S4000x64_S64x8_S4000x8_1_0_0_1_n_n]; rfl
    | ⟨1, _⟩ => simp [DotDims.lhsIdx, dot_S4000x64_S64x8_S4000x8_1_0_0_1_n_n]; exact c2
  have r2 : dot_S4000x64_S64x8_S4000x8_1_0_0_1_n_n.rhsIdx (ix2 r j) ((contrEquiv1 _ 64 rfl rfl).symm c) = ix2 c j := by
    funext ax; apply Fin.ext
    match ax with
    | ⟨0, _⟩ => simp [DotDims.rhsIdx, dot_S4000x64_S64x8_S4000x8_1_0_0_1_n_n]; exact c2
    | ⟨1, _⟩ => simp [DotDims.rhsIdx, dot_S4000x64_S64x8_S4000x8_1_0_0_1_n_n]; rfl
  rw [l2, r2]

/-- [4000, 8] · [8, 64] at (r, j): the sum over the 8 contracted coordinates. -/
theorem mm_s_x_apply {φ₁ φ₂ : FTy} (prec : Option ContractPrecision) (A : FVec Ideal S4000x8 φ₁) (B : FVec Ideal S8x64 φ₂)
    (r : Fin 4000) (j : Fin 64) :
    matmul dot_S4000x8_S8x64_S4000x64_1_0_0_1_n_n prec A B (constant (F := Ideal) S4000x64 .f32 0x00000000#32) (ix2 r j)
      = ∑ k : Fin 8, A (ix2 r k) * B (ix2 k j) := by
  show FloatOps.matmul _ prec A B _ (ix2 r j) = _
  rw [Ideal.matmul_constant_zero_apply,
    ← Equiv.sum_comp (contrEquiv1 dot_S4000x8_S8x64_S4000x64_1_0_0_1_n_n 8 rfl rfl).symm]
  refine Finset.sum_congr rfl fun c _ => ?_
  have c2 := contrEquiv1_symm_val dot_S4000x8_S8x64_S4000x64_1_0_0_1_n_n 8 rfl rfl c
  have l2 : dot_S4000x8_S8x64_S4000x64_1_0_0_1_n_n.lhsIdx (ix2 r j) ((contrEquiv1 _ 8 rfl rfl).symm c) = ix2 r c := by
    funext ax; apply Fin.ext
    match ax with
    | ⟨0, _⟩ => simp [DotDims.lhsIdx, dot_S4000x8_S8x64_S4000x64_1_0_0_1_n_n]; rfl
    | ⟨1, _⟩ => simp [DotDims.lhsIdx, dot_S4000x8_S8x64_S4000x64_1_0_0_1_n_n]; exact c2
  have r2 : dot_S4000x8_S8x64_S4000x64_1_0_0_1_n_n.rhsIdx (ix2 r j) ((contrEquiv1 _ 8 rfl rfl).symm c) = ix2 c j := by
    funext ax; apply Fin.ext
    match ax with
    | ⟨0, _⟩ => simp [DotDims.rhsIdx, dot_S4000x8_S8x64_S4000x64_1_0_0_1_n_n]; exact c2
    | ⟨1, _⟩ => simp [DotDims.rhsIdx, dot_S4000x8_S8x64_S4000x64_1_0_0_1_n_n]; rfl
  rw [l2, r2]

/-- The exponential of a vector at an index is the exponential of the element. -/
theorem exp_apply {s : Shape} {φ : FTy} (a : FVec Ideal s φ) (i : s.Idx) : exp a i = Ideal.exp (a i) := rfl

/-- The offsets of a whole block are all zero. -/
theorem off_zero : (![0, 0] : Fin 2 → Nat) = fun _ => 0 := funext fun a => by fin_cases a <;> rfl

/-! ## The two output buffers after the body -/

/-- One store of the whole block leaves its payload: the message buffer holds the messages. -/
theorem out9_eq (x1 x2 x3 : Vec Ideal S4000x64 .f32) (x4 x5 x6 x7 : Vec Ideal S64x64 .f32) (x8 : Vec Ideal S64x8 .f32) (x9 : Vec Ideal S8x64 .f32) :
    out9 (F := Ideal) x1 x2 x3 x4 x5 x6 x7 x8 x9 = msgOf (F := Ideal) x1 x2 x3 x4 x5 x6 x7 x8 x9 := by
  unfold out9
  exact View.canon_unit_zero off_zero _ _

/-- The score buffer holds the scores. -/
theorem out10_eq (x1 x2 x3 : Vec Ideal S4000x64 .f32) (x4 x5 x7 : Vec Ideal S64x64 .f32) (x8 : Vec Ideal S64x8 .f32) :
    out10 (F := Ideal) x1 x2 x3 x4 x5 x7 x8 = scoreOf (F := Ideal) x1 x2 x3 x4 x5 x7 x8 := by
  unfold out10
  exact View.canon_unit_zero off_zero _ _

/-! ## The score and the message at an index -/

/-- The score of row r and head h: the exponential of the head sum, clamped to [-5, 5], of K·Q·E·scale against the
    group-sum matrix's column h, where K = x2·x5, Q = x3·x4, E = x1·x7 are sums over the 64 input features. -/
theorem score_apply (x1 x2 x3 : Vec Ideal S4000x64 .f32) (x4 x5 x7 : Vec Ideal S64x64 .f32) (x8 : Vec Ideal S64x8 .f32) (r : Fin 4000) (h : Fin 8) :
    scoreOf (F := Ideal) x1 x2 x3 x4 x5 x7 x8 (ix2 r h)
      = Ideal.exp (min (Ideal.ofBits .f32 0x40A00000#32) (max (Ideal.ofBits .f32 0xC0A00000#32)
          (∑ j : Fin 64, ((((∑ k : Fin 64, (x2 (ix2 r k) : EReal) * (x5 (ix2 k j) : EReal))
              * (∑ k : Fin 64, (x3 (ix2 r k) : EReal) * (x4 (ix2 k j) : EReal)))
              * (∑ k : Fin 64, (x1 (ix2 r k) : EReal) * (x7 (ix2 k j) : EReal)))
              * Ideal.ofBits .f32 0x3EB504F3#32) * (x8 (ix2 j h) : EReal)))) := by
  unfold scoreOf k0_pay4 k0_pay2
  simp only [View.ld_unit_zero (S := S4000x64) off_zero, View.ld_unit_zero (S := S64x64) off_zero,
    View.ld_unit_zero (S := S64x8) off_zero, shapeCast_self]
  rw [exp_apply, minimumf_apply, maximumf_apply, broadcast_apply, broadcast_apply, mm_e_g_apply]
  refine congrArg Ideal.exp (congrArg (min _) (congrArg (max _) (Finset.sum_congr rfl fun j _ => ?_)))
  rw [mulf_apply, mulf_apply, mulf_apply, broadcast_apply, mm_e_w_apply, mm_e_w_apply, mm_e_w_apply]
  rfl

/-- The message of row r at slot j: V = x2·x6 there, times the row's scores against the group-expand matrix's column j. -/
theorem msg_apply (x1 x2 x3 : Vec Ideal S4000x64 .f32) (x4 x5 x6 x7 : Vec Ideal S64x64 .f32) (x8 : Vec Ideal S64x8 .f32) (x9 : Vec Ideal S8x64 .f32) (r : Fin 4000) (j : Fin 64) :
    msgOf (F := Ideal) x1 x2 x3 x4 x5 x6 x7 x8 x9 (ix2 r j)
      = (∑ k : Fin 64, (x2 (ix2 r k) : EReal) * (x6 (ix2 k j) : EReal))
        * (∑ h : Fin 8, (scoreOf (F := Ideal) x1 x2 x3 x4 x5 x7 x8 (ix2 r h) : EReal) * (x9 (ix2 h j) : EReal)) := by
  unfold msgOf k0_pay1 k0_pay3 k0_pay2
  simp only [View.ld_unit_zero (S := S4000x64) off_zero, View.ld_unit_zero (S := S64x64) off_zero,
    View.ld_unit_zero (S := S8x64) off_zero, shapeCast_self]
  rw [truncf_apply, mulf_apply, mm_e_w_apply, mm_s_x_apply]
  rfl

end Cert.KernelIdeal.Pay

end
-- ==== Proof.Spec.lean ====
/-
  The attention arithmetic of one edge, on the extended reals, with no program in sight.
  An edge carries three rows of 64 numbers: its own features `a`, the features `s` of its source node and the
  features `t` of its destination node. With 64×64 matrices Wq, Wk, Wv, We,
    K = s·Wk,  Q = t·Wq,  V = s·Wv,  E = a·We            (rows of 64),
    p j = K j · Q j · E j · scale                          (64 numbers, in eight groups of eight),
    score h = exp (clamp (Σ_{d<8} p (8h + d)) to [-5, 5])  (one per head),
    msg j = V j · score (j / 8).
  A node then receives the sums of the messages and of the scores of the edges that point at it, and its attention
  output is the first sum divided, slot by slot, by the second plus 1e-6.
-/
import Idealize.ShloMosaic.PureOps.Ideal

noncomputable section

open scoped BigOperators

namespace Cert.Spec

open Idealize.ShloMosaic

/-- The scale 1/√8 as the single-precision number both programs carry. -/
def scale : EReal := Ideal.ofBits .f32 0x3EB504F3#32
/-- The clamp's bounds, −5 and 5. -/
def lo : EReal := Ideal.ofBits .f32 0xC0A00000#32
def hi : EReal := Ideal.ofBits .f32 0x40A00000#32
/-- The 1e-6 added to a node's score sum. -/
def eps : EReal := Ideal.ofBits .f32 0x358637BD#32

/-- A row of 64 times a 64×64 matrix, at column `j`. -/
def rowDot (a : Fin 64 → EReal) (W : Fin 64 → Fin 64 → EReal) (j : Fin 64) : EReal := ∑ k : Fin 64, a k * W k j

/-- K j · Q j · E j · scale. -/
def prod (a s t : Fin 64 → EReal) (Wq Wk We : Fin 64 → Fin 64 → EReal) (j : Fin 64) : EReal :=
  ((rowDot s Wk j * rowDot t Wq j) * rowDot a We j) * scale

/-- Slot `d` of head `h`. -/
def slot (h : Fin 8) (d : Fin 8) : Fin 64 := ⟨8 * h.val + d.val, by omega⟩
/-- The head of slot `j`. -/
def head (j : Fin 64) : Fin 8 := ⟨j.val / 8, by omega⟩

/-- The score of head `h`: exp of the head's sum clamped to [−5, 5]. -/
def score (a s t : Fin 64 → EReal) (Wq Wk We : Fin 64 → Fin 64 → EReal) (h : Fin 8) : EReal :=
  Ideal.exp (min hi (max lo (∑ d : Fin 8, prod a s t Wq Wk We (slot h d))))

/-- The message at slot `j`: V j times its head's score. -/
def msg (a s t : Fin 64 → EReal) (Wq Wk Wv We : Fin 64 → Fin 64 → EReal) (j : Fin 64) : EReal :=
  rowDot s Wv j * score a s t Wq Wk We (head j)

/-- The score of head `h` when the head's sum is taken by a 64×8 matrix `G` (the kernel multiplies by a 0/1 matrix). -/
def scoreG (a s t : Fin 64 → EReal) (Wq Wk We : Fin 64 → Fin 64 → EReal) (G : Fin 64 → Fin 8 → EReal) (h : Fin 8) : EReal :=
  Ideal.exp (min hi (max lo (∑ j : Fin 64, prod a s t Wq Wk We j * G j h)))

/-- The message at slot `j` when the scores are spread back over the slots by an 8×64 matrix `X`. -/
def msgG (a s t : Fin 64 → EReal) (Wq Wk Wv We : Fin 64 → Fin 64 → EReal) (G : Fin 64 → Fin 8 → EReal) (X : Fin 8 → Fin 64 → EReal)
    (j : Fin 64) : EReal :=
  rowDot s Wv j * ∑ h : Fin 8, scoreG a s t Wq Wk We G h * X h j

/-- The row a gather reads for a start index: the index read as a signed integer and clamped to 0 … 49999. -/
def clampRow (v : BitVec 32) : Fin 50000 := ⟨min v.toInt.toNat 49999, by omega⟩

/-- A scatter index hits node `n` when, read as a signed integer and NOT clamped, it is `n`; an index outside
    0 … 49999 hits no node. -/
def hits (v : BitVec 32) (n : Fin 50000) : Prop := v.toInt = (n.val : Int)

instance (v : BitVec 32) (n : Fin 50000) : Decidable (hits v n) := by unfold hits; infer_instance

/-- A node's attention output at slot `j`: over the edges that hit the node, the sum of the messages at `j` divided by the
    sum of the scores of `j`'s head plus 1e-6. `feat`, `xs`, `xt` give each edge's own row, its source node's row and its
    destination node's row. -/
def attn (feat xs xt : Fin 800000 → Fin 64 → EReal) (Wq Wk Wv We : Fin 64 → Fin 64 → EReal)
    (hit : Fin 800000 → Prop) [DecidablePred hit] (j : Fin 64) : EReal :=
  Ideal.div (∑ e ∈ Finset.univ.filter hit, msg (feat e) (xs e) (xt e) Wq Wk Wv We j)
    ((∑ e ∈ Finset.univ.filter hit, score (feat e) (xs e) (xt e) Wq Wk We (head j)) + eps)

theorem head_slot (h d : Fin 8) : head (slot h d) = h := by
  apply Fin.ext; simp only [head, slot]; omega

end Cert.Spec

end
-- ==== Proof.KerValue.lean ====
/-
  The two arrays the region writes, as whole-array functions on the extended reals. Point `t` of the grid writes back
  rows 4000·t … 4000·t + 3999 of the score array and of the message array, each row computed from the same row of the
  three edge inputs and from the resident matrices; the 200 points tile the 800000 rows. So after the region the score
  array holds, at (e, h), the score of edge `e` and head `h`, and the message array, at (e, j), the message of edge `e`
  at slot `j` — with the head sums and the spreading still written through the two grouping matrices the region was
  handed.
-/
import proofs.«108813_j27779848470631_2_alg».proof.Proof.KerBlocks
import proofs.«108813_j27779848470631_2_alg».proof.Proof.PayKI
import proofs.«108813_j27779848470631_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Row `e` of an [800000, 64] array. -/
def rowE (A : S800000x64.Idx → EReal) (e : Fin 800000) : Fin 64 → EReal := fun k => A (ix2 e k)
/-- A [64, 64], [64, 8], [8, 64] array by its two coordinates. -/
def mat64 (W : S64x64.Idx → EReal) : Fin 64 → Fin 64 → EReal := fun k j => W (ix2 k j)
def matG (G : S64x8.Idx → EReal) : Fin 64 → Fin 8 → EReal := fun j h => G (ix2 j h)
def matX (X : S8x64.Idx → EReal) : Fin 8 → Fin 64 → EReal := fun h j => X (ix2 h j)

/-- The scores of all edges. -/
def scoreArr (A As At : S800000x64.Idx → EReal) (Wq Wk We : S64x64.Idx → EReal) (G : S64x8.Idx → EReal) : S800000x8.Idx → EReal :=
  fun i => Cert.Spec.scoreG (rowE A ⟨(i 0).val, idx2_lt0 i⟩) (rowE As ⟨(i 0).val, idx2_lt0 i⟩) (rowE At ⟨(i 0).val, idx2_lt0 i⟩)
    (mat64 Wq) (mat64 Wk) (mat64 We) (matG G) ⟨(i 1).val, idx2_lt1 i⟩

/-- The messages of all edges. -/
def msgArr (A As At : S800000x64.Idx → EReal) (Wq Wk Wv We : S64x64.Idx → EReal) (G : S64x8.Idx → EReal) (X : S8x64.Idx → EReal) :
    S800000x64.Idx → EReal :=
  fun i => Cert.Spec.msgG (rowE A ⟨(i 0).val, idx2_lt0 i⟩) (rowE As ⟨(i 0).val, idx2_lt0 i⟩) (rowE At ⟨(i 0).val, idx2_lt0 i⟩)
    (mat64 Wq) (mat64 Wk) (mat64 Wv) (mat64 We) (matG G) (matX X) ⟨(i 1).val, idx2_lt1 i⟩

/-- The score of row `r` of point `t`'s blocks is the score of edge 4000·t + r. -/
theorem score_blk (c : Dev nD) (t : Fin cfg0.N) (r : Fin 4000) (h : Fin 8) :
    scoreOf (F := Ideal) (iblk m c 0 t) (iblk m c 1 t) (iblk m c 2 t) (iblk m c 3 t) (iblk m c 4 t) (iblk m c 6 t) (iblk m c 7 t) (ix2 r h)
      = scoreArr (V m c main_arg1) (V m c main_v10) (V m c main_v17) (V m c main_arg2) (V m c main_arg3) (V m c main_arg4) (V m c main_cst)
          (ix2 (erow t r) h) := by
  rw [Cert.KernelIdeal.Pay.score_apply]
  simp only [iblk0, iblk1, iblk2, iblk3, iblk4, iblk6, iblk7]
  rfl

/-- The same for the messages. -/
theorem msg_blk (c : Dev nD) (t : Fin cfg0.N) (r : Fin 4000) (j : Fin 64) :
    msgOf (F := Ideal) (iblk m c 0 t) (iblk m c 1 t) (iblk m c 2 t) (iblk m c 3 t) (iblk m c 4 t) (iblk m c 5 t) (iblk m c 6 t) (iblk m c 7 t)
        (iblk m c 8 t) (ix2 r j)
      = msgArr (V m c main_arg1) (V m c main_v10) (V m c main_v17) (V m c main_arg2) (V m c main_arg3) (V m c main_arg5) (V m c main_arg4)
          (V m c main_cst) (V m c main_cst_0) (ix2 (erow t r) j) := by
  rw [Cert.KernelIdeal.Pay.msg_apply]
  simp only [score_blk, iblk1, iblk5, iblk8]
  rfl

end Cert.KernelIdeal.Hand

end
-- ==== Proof.KerFinal.lean ====
/-
  From the per-point write-backs to the whole arrays: what a point writes back of an output window is that point's
  4000 rows of one function of the whole input arrays; the 200 points' blocks tile the 800000 rows; so after the region
  each output array IS that function.
-/
import proofs.«108813_j27779848470631_2_alg».proof.Proof.KerValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Entry (r, ·) of point `t`'s block of window 10 sits at row 4000·t + r of the array. -/
theorem emb10 (t : Fin cfg0.N) (r : Fin 4000) (q : Fin 8) : ((cfg0.win 10).blk t).view.emb (ix2 r q) = ix2 (erow t r) q := by
  obtain ⟨-, -, -, -, -, -, -, -, -, -, ⟨e0, e1⟩⟩ := idx_facts t
  funext a; apply Fin.ext
  match a with
  | ⟨0, _⟩ => show win0_10.index t (0 : Fin 2) * 4000 + 1 * r.val = 4000 * t.val + r.val; omega
  | ⟨1, _⟩ => show win0_10.index t (1 : Fin 2) * 8 + 1 * q.val = q.val; omega

/-- A block-shaped array that agrees with `G` row by row is `G` read through point `t`'s block of window 10. -/
theorem read10_of (G : S800000x8.Idx → EReal) (f : S4000x8.Idx → EReal) (t : Fin cfg0.N)
    (hf : ∀ (r : Fin 4000) (q : Fin 8), f (ix2 r q) = G (ix2 (erow t r) q)) :
    f = ((cfg0.win 10).blk t).view.read (Elt Ideal) G := by
  funext y
  obtain ⟨r, q, rfl⟩ : ∃ (r : Fin 4000) (q : Fin 8), y = ix2 r q := ⟨y 0, y 1, eq_ix2 y⟩
  show f (ix2 r q) = G (((cfg0.win 10).blk t).view.emb (ix2 r q))
  rw [emb10]
  exact hf r q

/-- What point `t` writes back of window 10 is its block of the whole-array function. -/
theorem flushed10_eq (c : Dev nD) (t : Fin cfg0.N) :
    (dats m 0 c).flushed 10 t = ((cfg0.win 10).blk t).view.read (Elt Ideal) (scoreArr (V m c main_arg1) (V m c main_v10) (V m c main_v17) (V m c main_arg2) (V m c main_arg3) (V m c main_arg4) (V m c main_cst)) := by
  show (cfg0.win 10).cut (grid0.coords t) ((dats m 0 c).after 10 t) = _
  rw [after0_10, Cert.KernelIdeal.Pay.out10_eq]
  exact read10_of (scoreArr (V m c main_arg1) (V m c main_v10) (V m c main_v17) (V m c main_arg2) (V m c main_arg3) (V m c main_arg4) (V m c main_cst)) _ t (fun r q => score_blk m c t r q)

/-- Every row of the array is in some point's block. -/
theorem tile10 (i : S800000x8.Idx) : ∃ t : Fin cfg0.N, (cfg0.win 10).flush t = true ∧ i ∈ ((cfg0.win 10).blk t).view.set := by
  have h0 : (i 0).val < 800000 := idx2_lt0 i
  have h1 : (i 1).val < 8 := idx2_lt1 i
  have hN : cfg0.N = 200 := N_0
  obtain ⟨t, ht⟩ : ∃ t : Fin cfg0.N, t.val = (i 0).val / 4000 := ⟨⟨(i 0).val / 4000, by rw [hN]; omega⟩, rfl⟩
  refine ⟨t, flush0_10 t, ?_⟩
  show i ∈ ((View.whole main_v18_1).slice (win0_10.rect t)).set
  rw [View.set_slice_whole, Rect.mem_set_unit]
  obtain ⟨-, -, -, -, -, -, -, -, -, -, ⟨e0, e1⟩⟩ := idx_facts t
  intro a
  match a with
  | ⟨0, _⟩ => show win0_10.index t (0 : Fin 2) * 4000 ≤ (i 0).val ∧ (i 0).val < win0_10.index t (0 : Fin 2) * 4000 + 4000; omega
  | ⟨1, _⟩ => show win0_10.index t (1 : Fin 2) * 8 ≤ (i 1).val ∧ (i 1).val < win0_10.index t (1 : Fin 2) * 8 + 8; omega

/-- The array after the region. -/
theorem final10 (c : Dev nD) : (dats m 0 c).arrAt 10 cfg0.N = scoreArr (V m c main_arg1) (V m c main_v10) (V m c main_v17) (V m c main_arg2) (V m c main_arg3) (V m c main_arg4) (V m c main_cst) :=
  (dats m 0 c).arrAt_eq_of_cover 10 (scoreArr (V m c main_arg1) (V m c main_v10) (V m c main_v17) (V m c main_arg2) (V m c main_arg3) (V m c main_arg4) (V m c main_cst)) (fun t _ => flushed10_eq m c t) tile10

/-- Entry (r, ·) of point `t`'s block of window 9 sits at row 4000·t + r of the array. -/
theorem emb9 (t : Fin cfg0.N) (r : Fin 4000) (q : Fin 64) : ((cfg0.win 9).blk t).view.emb (ix2 r q) = ix2 (erow t r) q := by
  obtain ⟨-, -, -, -, -, -, -, -, -, ⟨e0, e1⟩, -⟩ := idx_facts t
  funext a; apply Fin.ext
  match a with
  | ⟨0, _⟩ => show win0_9.index t (0 : Fin 2) * 4000 + 1 * r.val = 4000 * t.val + r.val; omega
  | ⟨1, _⟩ => show win0_9.index t (1 : Fin 2) * 64 + 1 * q.val = q.val; omega

/-- A block-shaped array that agrees with `G` row by row is `G` read through point `t`'s block of window 9. -/
theorem read9_of (G : S800000x64.Idx → EReal) (f : S4000x64.Idx → EReal) (t : Fin cfg0.N)
    (hf : ∀ (r : Fin 4000) (q : Fin 64), f (ix2 r q) = G (ix2 (erow t r) q)) :
    f = ((cfg0.win 9).blk t).view.read (Elt Ideal) G := by
  funext y
  obtain ⟨r, q, rfl⟩ : ∃ (r : Fin 4000) (q : Fin 64), y = ix2 r q := ⟨y 0, y 1, eq_ix2 y⟩
  show f (ix2 r q) = G (((cfg0.win 9).blk t).view.emb (ix2 r q))
  rw [emb9]
  exact hf r q

/-- What point `t` writes back of window 9 is its block of the whole-array function. -/
theorem flushed9_eq (c : Dev nD) (t : Fin cfg0.N) :
    (dats m 0 c).flushed 9 t = ((cfg0.win 9).blk t).view.read (Elt Ideal) (msgArr (V m c main_arg1) (V m c main_v10) (V m c main_v17) (V m c main_arg2) (V m c main_arg3) (V m c main_arg5) (V m c main_arg4) (V m c main_cst) (V m c main_cst_0)) := by
  show (cfg0.win 9).cut (grid0.coords t) ((dats m 0 c).after 9 t) = _
  rw [after0_9, Cert.KernelIdeal.Pay.out9_eq]
  exact read9_of (msgArr (V m c main_arg1) (V m c main_v10) (V m c main_v17) (V m c main_arg2) (V m c main_arg3) (V m c main_arg5) (V m c main_arg4) (V m c main_cst) (V m c main_cst_0)) _ t (fun r q => msg_blk m c t r q)

/-- Every row of the array is in some point's block. -/
theorem tile9 (i : S800000x64.Idx) : ∃ t : Fin cfg0.N, (cfg0.win 9).flush t = true ∧ i ∈ ((cfg0.win 9).blk t).view.set := by
  have h0 : (i 0).val < 800000 := idx2_lt0 i
  have h1 : (i 1).val < 64 := idx2_lt1 i
  have hN : cfg0.N = 200 := N_0
  obtain ⟨t, ht⟩ : ∃ t : Fin cfg0.N, t.val = (i 0).val / 4000 := ⟨⟨(i 0).val / 4000, by rw [hN]; omega⟩, rfl⟩
  refine ⟨t, flush0_9 t, ?_⟩
  show i ∈ ((View.whole main_v18_0).slice (win0_9.rect t)).set
  rw [View.set_slice_whole, Rect.mem_set_unit]
  obtain ⟨-, -, -, -, -, -, -, -, -, ⟨e0, e1⟩, -⟩ := idx_facts t
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 64 ≤ (i 1).val ∧ (i 1).val < win0_9.index t (1 : Fin 2) * 64 + 64; omega

/-- The array after the region. -/
theorem final9 (c : Dev nD) : (dats m 0 c).arrAt 9 cfg0.N = msgArr (V m c main_arg1) (V m c main_v10) (V m c main_v17) (V m c main_arg2) (V m c main_arg3) (V m c main_arg5) (V m c main_arg4) (V m c main_cst) (V m c main_cst_0) :=
  (dats m 0 c).arrAt_eq_of_cover 9 (msgArr (V m c main_arg1) (V m c main_v10) (V m c main_v17) (V m c main_arg2) (V m c main_arg3) (V m c main_arg5) (V m c main_arg4) (V m c main_cst) (V m c main_cst_0)) (fun t _ => flushed9_eq m c t) tile9

end Cert.KernelIdeal.Hand

end
-- ==== Proof.IdxNorm.lean ====
/-
  The two index arrays both programs cut out of the [2, 800000] edge index: row 0 (sources) and row 1 (destinations) as
  flat arrays of 800000 signed 32-bit integers; the NumPy wrap of a negative index (add 50000 to it); and a flat array
  laid out as one column, the shape a gather or a scatter reads its start indices in.
-/
import Idealize.ShloMosaic.PureOps

noncomputable section

namespace Cert.IdxNorm

open Idealize.ShloMosaic

abbrev S_ : Shape := ⟨0, ![]⟩
abbrev S2xE : Shape := ⟨2, ![2, 800000]⟩
abbrev S1xE : Shape := ⟨2, ![1, 800000]⟩
abbrev SE : Shape := ⟨1, ![800000]⟩
abbrev SEx1 : Shape := ⟨2, ![800000, 1]⟩

theorem sl0 : S2xE.Slices ![0, 0] S1xE := by decide
theorem sl1 : S2xE.Slices ![1, 0] S1xE := by decide
theorem flat : S1xE.ShapeCasts SE := by decide
theorem b0 : S_.BroadcastsInDim SE (![] : Fin 0 → Fin SE.rank) := by decide
theorem bcol : SE.BroadcastsInDim SEx1 (![0] : Fin 1 → Fin SEx1.rank) := by decide

/-- Row 0 of the edge index, flat: the source node of each edge. -/
def srcRaw (ei : IVec S2xE 32) : IVec SE 32 := shapeCast SE (extractStridedSlice S1xE ![0, 0] ei sl0) flat
/-- Row 1, flat: the destination node of each edge. -/
def dstRaw (ei : IVec S2xE 32) : IVec SE 32 := shapeCast SE (extractStridedSlice S1xE ![1, 0] ei sl1) flat

/-- A negative index counts from the end: v < 0 ↦ v + 50000. -/
def wrap (v : IVec SE 32) : IVec SE 32 :=
  select (cmpi .slt v (broadcastInDim SE ![] b0 (constantI S_ 32 0#32))) (addi v (broadcastInDim SE ![] b0 (constantI S_ 32 50000#32))) v

/-- A flat array as one column. -/
def col (v : IVec SE 32) : IVec SEx1 32 := broadcastInDim SEx1 ![0] bcol v

end Cert.IdxNorm

end
-- ==== Proof.KerPre.lean ====
/-
  What the region finds in the buffers the host operations before it wrote: the two gathered row arrays (the node
  features at each edge's wrapped, clamped source and destination index), the flat destination indices the later
  scatters read, and the two 0/1 grouping matrices as their literal tables.
-/
import proofs.«108813_j27779848470631_2_alg».proof.Proof.HostKI
import proofs.«108813_j27779848470631_2_alg».proof.Proof.IdxNorm
import Idealize.ShloMosaic.Lib.StableHlo.Run

set_option maxRecDepth 16384

noncomputable section

namespace Cert.KernelIdeal.Hand

open Cert.KernelIdeal Cert.KernelIdeal.Gen Cert.IdxNorm
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-- The gathered source rows. -/
theorem V_v10 (c : Dev nD) : V m c main_v10
    = Host.gather gather_S50000x64_S800000x1_S800000x64_1_0_n_n_0_1_164 (m ((c : Thread nD τ).loc main_arg0))
        (col (wrap (srcRaw (m ((c : Thread nD τ).loc main_arg16))))) := by
  show StableHlo.after hostOps0 (fun b => m (c, b)) (Proc.devRef .tc main_v10) = _
  after_results_simp
  rfl

/-- The gathered destination rows. -/
theorem V_v17 (c : Dev nD) : V m c main_v17
    = Host.gather gather_S50000x64_S800000x1_S800000x64_1_0_n_n_0_1_164 (m ((c : Thread nD τ).loc main_arg0))
        (col (wrap (dstRaw (m ((c : Thread nD τ).loc main_arg16))))) := by
  show StableHlo.after hostOps0 (fun b => m (c, b)) (Proc.devRef .tc main_v17) = _
  after_results_simp
  rfl

/-- The flat destination indices. -/
theorem V_v3 (c : Dev nD) : V m c main_v3 = dstRaw (m ((c : Thread nD τ).loc main_arg16)) := by
  show StableHlo.after hostOps0 (fun b => m (c, b)) (Proc.devRef .tc main_v3) = _
  after_results_simp
  rfl

/-- The group-sum matrix, as its table of words. -/
theorem V_cst (c : Dev nD) : V m c main_cst = (fun i => FloatOps.ofBits .f32 (lit0 (S64x8.rowMajor i)) : FVec F S64x8 .f32) := by
  show StableHlo.after hostOps0 (fun b => m (c, b)) (Proc.devRef .tc main_cst) = _
  after_results_simp
  rfl

/-- The group-expand matrix, as its table of words. -/
theorem V_cst_0 (c : Dev nD) : V m c main_cst_0 = (fun i => FloatOps.ofBits .f32 (lit1 (S8x64.rowMajor i)) : FVec F S8x64 .f32) := by
  show StableHlo.after hostOps0 (fun b => m (c, b)) (Proc.devRef .tc main_cst_0) = _
  after_results_simp
  rfl

end Cert.KernelIdeal.Hand

end
-- ==== Proof.KerAttnDef.lean ====
/-
  The kernel program's attention output from the two arrays its region wrote, as one function. After the region the
  host scatter-adds the message rows and the score rows into their destination nodes, spreads each node's eight score
  sums over the 64 slots by the 0/1 expand matrix, adds 1e-6 and divides.
-/
import proofs.«108813_j27779848470631_2_alg».proof.Proof.HostKI
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.ValueIdx

/-- Operations %19 … %29 of the program as one function of the message array, the score array, the flat destination
    indices and the expand matrix. -/
def hattnK {F : FTy → Type} [FloatOps F] (msg : FVec F S800000x64 .bf16) (score : FVec F S800000x8 .f32) (dst : IVec S800000 32)
    (mexp : FVec F S8x64 .f32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst) (extf .f32 msg bitsLt_bf16_f32))
    (addf
      (Host.dotGeneral dot_S50000x8_S8x64_S50000x64_1_0_0_1_n_n none
        (Host.scatterAdd scatter_S50000x8_S800000x1_S800000x8_1_0_0_1
          (broadcastInDim S50000x8 ![] bcast_S_S50000x8 (constant S_ .f32 0x00000000#32))
          (broadcastInDim S800000x1 ![0] bcast_S800000_S800000x1_0 dst) score)
        mexp)
      (broadcastInDim S50000x64 ![] bcast_S_S50000x64 (constant S_ .f32 0x358637BD#32)))

end Cert.KernelIdeal.Hand

end
-- ==== Proof.KerAttnDot.lean ====
/-
  The host's product of a [50000, 8] array with an [8, 64] matrix, read at an index on the extended reals: the sum over
  the eight contracted coordinates.
-/
import proofs.«108813_j27779848470631_2_alg».proof.Proof.HostKI
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

theorem dot_z_x_apply (A : FVec Ideal S50000x8 .f32) (B : FVec Ideal S8x64 .f32) (n : Fin 50000) (j : Fin 64) :
    Host.dotGeneral dot_S50000x8_S8x64_S50000x64_1_0_0_1_n_n none A B (ix2 n j) = ∑ h : Fin 8, A (ix2 n h) * B (ix2 h j) := by
  show FloatOps.dotGeneral _ none _ A B (ix2 n j) = _
  rw [Ideal.dotGeneral_apply,
    ← Equiv.sum_comp (contrEquiv1 dot_S50000x8_S8x64_S50000x64_1_0_0_1_n_n 8 rfl rfl).symm]
  refine Finset.sum_congr rfl fun c _ => ?_
  have c2 := contrEquiv1_symm_val dot_S50000x8_S8x64_S50000x64_1_0_0_1_n_n 8 rfl rfl c
  have l2 : dot_S50000x8_S8x64_S50000x64_1_0_0_1_n_n.lhsIdx (ix2 n j) ((contrEquiv1 _ 8 rfl rfl).symm c) = ix2 n c := by
    funext ax; apply Fin.ext
    match ax with
    | ⟨0, _⟩ => simp [DotDims.lhsIdx, dot_S50000x8_S8x64_S50000x64_1_0_0_1_n_n]; rfl
    | ⟨1, _⟩ => simp [DotDims.lhsIdx, dot_S50000x8_S8x64_S50000x64_1_0_0_1_n_n]; exact c2
  have r2 : dot_S50000x8_S8x64_S50000x64_1_0_0_1_n_n.rhsIdx (ix2 n j) ((contrEquiv1 _ 8 rfl rfl).symm c) = ix2 c j := by
    funext ax; apply Fin.ext
    match ax with
    | ⟨0, _⟩ => simp [DotDims.rhsIdx, dot_S50000x8_S8x64_S50000x64_1_0_0_1_n_n]; exact c2
    | ⟨1, _⟩ => simp [DotDims.rhsIdx, dot_S50000x8_S8x64_S50000x64_1_0_0_1_n_n]; rfl
  rw [l2, r2]

end Cert.KernelIdeal.Hand

end
-- ==== Proof.IdxOpsK.lean ====
/-
  The kernel program's row gather and its two accumulating scatters, read at one index.

  The gather reads row `clampRow (idx e)` of its operand: the start index is read as a signed integer and clamped
  into 0 … 49999, the column is copied. A scatter's update row `e` lands on row `n` exactly when its index, read as a
  signed integer and not clamped, is `n`; an index outside 0 … 49999 lands nowhere. So the scatter at `(n, j)` is the
  operand there plus the sum over the edges `e` that hit `n` of column `j` of update row `e`.
-/
import proofs.«108813_j27779848470631_2_alg».proof.Proof.Gen.KernelIdeal
import proofs.«108813_j27779848470631_2_alg».proof.Proof.Spec
import Idealize.ShloMosaic.Lib.ValueIdx
import Idealize.ShloMosaic.PureOps.Ideal.Laws

noncomputable section

open scoped BigOperators

namespace Cert.IdxOps

open Idealize.ShloMosaic Idealize.ShloMosaic.ValueIdx
open Cert.KernelIdeal (S50000x64 S800000x1 S800000x64 S50000x8 S800000x8)

/-- The row gather at `(e, k)`: column `k` of the operand's row `clampRow (idx e)`. -/
theorem gatherK_apply {α : Type} (x : S50000x64.Idx → α) (idx : IVec S800000x1 32)
    (e : Fin 800000) (k : Fin 64) :
    Host.gather Cert.KernelIdeal.gather_S50000x64_S800000x1_S800000x64_1_0_n_n_0_1_164 x idx (ix2 e k)
      = x (ix2 (Cert.Spec.clampRow (idx (ix2 e (0 : Fin 1)))) k) := by
  unfold Host.gather
  congr 1
  funext a
  refine Fin.ext ?_
  let D := Cert.KernelIdeal.gather_S50000x64_S800000x1_S800000x64_1_0_n_n_0_1_164
  match a with
  | ⟨0, h0⟩ =>
    show D.start (ix2 e k) idx 0 + D.batchCoord (ix2 e k) 0 + D.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 e k) ⟨List.idxOf (0 : Fin 2) D.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show D.start (ix2 e k) idx 1 + D.batchCoord (ix2 e k) 1 + D.offCoord (ix2 e k) 1 = _
    rw [GatherDims.batchCoord_eq_zero _ _ _ List.not_mem_nil]
    unfold GatherDims.start
    rw [dif_neg (show (1 : Fin 2) ∉ D.startIndexMap from by decide)]
    unfold GatherDims.offCoord
    rw [dif_pos (show (1 : Fin 2) ∈ D.sKept from by decide)]
    simp only [Nat.add_zero, Nat.zero_add]
    rfl

/-- A scatter's update lands on operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have h1 := congrArg (fun f => ((f a).val : Int)) hf
      have h2 := (h a).1
      simp only at h1
      rw [← h1]
      exact (Int.toNat_of_nonneg h2).symm
    · intro hall
      funext a
      refine Fin.ext ?_
      show (d.start j idx a + (d.window j a : Int)).toNat = (i a).val
      rw [hall a]
      exact Int.toNat_natCast _
  · rename_i h
    constructor
    · intro hf; exact absurd hf (by simp)
    · intro hall
      exfalso
      apply h
      intro a
      rw [hall a]
      exact ⟨Int.natCast_nonneg _, by exact_mod_cast (i a).isLt⟩

section K64
private abbrev DK64 := Cert.KernelIdeal.scatter_S50000x64_S800000x1_S800000x64_1_0_0_1

theorem scatterK64_start0 (idx : IVec S800000x1 32) (e : Fin 800000) (j' : Fin 64) :
    DK64.start (ix2 e j') idx 0 = (idx (ix2 e (0 : Fin 1))).toInt := by
  unfold ScatterDims.start
  rw [dif_pos (show (0 : Fin 2) ∈ DK64.scatterDimsToOperandDims from List.mem_singleton.mpr rfl)]
  have hsi : DK64.siIdx (ix2 e j') ⟨List.idxOf (0 : Fin 2) DK64.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterK64_start1 (idx : IVec S800000x1 32) (e : Fin 800000) (j' : Fin 64) :
    DK64.start (ix2 e j') idx 1 = 0 := by
  unfold ScatterDims.start
  rw [dif_neg (show (1 : Fin 2) ∉ DK64.scatterDimsToOperandDims from by decide)]

theorem scatterK64_window0 (e : Fin 800000) (j' : Fin 64) : DK64.window (ix2 e j') 0 = 0 := by
  unfold ScatterDims.window
  rw [dif_neg (show (0 : Fin 2) ∉ DK64.sKept from by decide)]

theorem scatterK64_window1 (e : Fin 800000) (j' : Fin 64) : DK64.window (ix2 e j') 1 = j'.val := by
  unfold ScatterDims.window
  rw [dif_pos (show (1 : Fin 2) ∈ DK64.sKept from by decide)]
  rfl

/-- Update `(e, j')` lands on `(n, j)` exactly when edge `e`'s index, read signed, is `n`, and the columns agree. -/
theorem scatterK64_lands (idx : IVec S800000x1 32) (e : Fin 800000) (j' : Fin 64) (n : Fin 50000) (j : Fin 64) :
    DK64.resultIdx? (ix2 e j') idx = some (ix2 n j) ↔ Cert.Spec.hits (idx (ix2 e (0 : Fin 1))) n ∧ j' = j := by
  rw [resultIdx?_eq_some_iff, Fin.forall_fin_two, scatterK64_start0, scatterK64_start1, scatterK64_window0,
    scatterK64_window1]
  unfold Cert.Spec.hits
  show _ + ((0 : Nat) : Int) = ((n.val : Nat) : Int) ∧ (0 : Int) + ((j'.val : Nat) : Int) = ((j.val : Nat) : Int) ↔ _
  constructor
  · rintro ⟨h0, h1⟩
    exact ⟨by omega, Fin.ext (by omega)⟩
  · rintro ⟨h0, h1⟩
    subst h1
    exact ⟨by omega, by omega⟩

/-- The accumulating scatter at `(n, j)`: the operand there plus column `j` of every update row whose index is `n`. -/
theorem scatterK64_apply (x0 : S50000x64.Idx → EReal) (idx : IVec S800000x1 32) (u : S800000x64.Idx → EReal)
    (n : Fin 50000) (j : Fin 64) :
    Ideal.hostScatterAdd Cert.KernelIdeal.scatter_S50000x64_S800000x1_S800000x64_1_0_0_1 x0 idx u (ix2 n j)
      = x0 (ix2 n j) + ∑ e ∈ Finset.univ.filter (fun e : Fin 800000 => Cert.Spec.hits (idx (ix2 e (0 : Fin 1))) n),
          u (ix2 e j) := by
  unfold Ideal.hostScatterAdd
  refine congrArg (fun t => x0 (ix2 n j) + t) ?_
  rw [Finset.sum_filter, sum_idx2, Finset.sum_filter]
  refine Finset.sum_congr rfl (fun e _ => ?_)
  rw [Finset.sum_congr rfl (fun j' _ => if_congr (scatterK64_lands idx e j' n j) rfl rfl)]
  by_cases hh : Cert.Spec.hits (idx (ix2 e (0 : Fin 1))) n
  · simp only [hh, true_and, if_true]
    rw [Finset.sum_ite_eq' Finset.univ j (fun j' => u (ix2 e j'))]
    simp only [Finset.mem_univ, if_true]
  · simp only [hh, false_and, if_false]
    exact Finset.sum_const_zero
end K64

section K8
private abbrev DK8 := Cert.KernelIdeal.scatter_S50000x8_S800000x1_S800000x8_1_0_0_1

theorem scatterK8_start0 (idx : IVec S800000x1 32) (e : Fin 800000) (j' : Fin 8) :
    DK8.start (ix2 e j') idx 0 = (idx (ix2 e (0 : Fin 1))).toInt := by
  unfold ScatterDims.start
  rw [dif_pos (show (0 : Fin 2) ∈ DK8.scatterDimsToOperandDims from List.mem_singleton.mpr rfl)]
  have hsi : DK8.siIdx (ix2 e j') ⟨List.idxOf (0 : Fin 2) DK8.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterK8_start1 (idx : IVec S800000x1 32) (e : Fin 800000) (j' : Fin 8) :
    DK8.start (ix2 e j') idx 1 = 0 := by
  unfold ScatterDims.start
  rw [dif_neg (show (1 : Fin 2) ∉ DK8.scatterDimsToOperandDims from by decide)]

theorem scatterK8_window0 (e : Fin 800000) (j' : Fin 8) : DK8.window (ix2 e j') 0 = 0 := by
  unfold ScatterDims.window
  rw [dif_neg (show (0 : Fin 2) ∉ DK8.sKept from by decide)]

theorem scatterK8_window1 (e : Fin 800000) (j' : Fin 8) : DK8.window (ix2 e j') 1 = j'.val := by
  unfold ScatterDims.window
  rw [dif_pos (show (1 : Fin 2) ∈ DK8.sKept from by decide)]
  rfl

/-- Update `(e, j')` lands on `(n, j)` exactly when edge `e`'s index, read signed, is `n`, and the columns agree. -/
theorem scatterK8_lands (idx : IVec S800000x1 32) (e : Fin 800000) (j' : Fin 8) (n : Fin 50000) (j : Fin 8) :
    DK8.resultIdx? (ix2 e j') idx = some (ix2 n j) ↔ Cert.Spec.hits (idx (ix2 e (0 : Fin 1))) n ∧ j' = j := by
  rw [resultIdx?_eq_some_iff, Fin.forall_fin_two, scatterK8_start0, scatterK8_start1, scatterK8_window0,
    scatterK8_window1]
  unfold Cert.Spec.hits
  show _ + ((0 : Nat) : Int) = ((n.val : Nat) : Int) ∧ (0 : Int) + ((j'.val : Nat) : Int) = ((j.val : Nat) : Int) ↔ _
  constructor
  · rintro ⟨h0, h1⟩
    exact ⟨by omega, Fin.ext (by omega)⟩
  · rintro ⟨h0, h1⟩
    subst h1
    exact ⟨by omega, by omega⟩

/-- The accumulating scatter at `(n, j)`: the operand there plus column `j` of every update row whose index is `n`. -/
theorem scatterK8_apply (x0 : S50000x8.Idx → EReal) (idx : IVec S800000x1 32) (u : S800000x8.Idx → EReal)
    (n : Fin 50000) (j : Fin 8) :
    Ideal.hostScatterAdd Cert.KernelIdeal.scatter_S50000x8_S800000x1_S800000x8_1_0_0_1 x0 idx u (ix2 n j)
      = x0 (ix2 n j) + ∑ e ∈ Finset.univ.filter (fun e : Fin 800000 => Cert.Spec.hits (idx (ix2 e (0 : Fin 1))) n),
          u (ix2 e j) := by
  unfold Ideal.hostScatterAdd
  refine congrArg (fun t => x0 (ix2 n j) + t) ?_
  rw [Finset.sum_filter, sum_idx2, Finset.sum_filter]
  refine Finset.sum_congr rfl (fun e _ => ?_)
  rw [Finset.sum_congr rfl (fun j' _ => if_congr (scatterK8_lands idx e j' n j) rfl rfl)]
  by_cases hh : Cert.Spec.hits (idx (ix2 e (0 : Fin 1))) n
  · simp only [hh, true_and, if_true]
    rw [Finset.sum_ite_eq' Finset.univ j (fun j' => u (ix2 e j'))]
    simp only [Finset.mem_univ, if_true]
  · simp only [hh, false_and, if_false]
    exact Finset.sum_const_zero
end K8

end Cert.IdxOps

end
-- ==== Proof.KerAttnApply.lean ====
/-
  The kernel program's attention output at node n and slot j: the sum over the edges that hit n of the messages at j,
  divided by (the sum over heads h of the node's score sum at h times the expand matrix at (h, j)) plus 1e-6.
-/
import proofs.«108813_j27779848470631_2_alg».proof.Proof.KerAttnDef
import proofs.«108813_j27779848470631_2_alg».proof.Proof.KerAttnDot
import proofs.«108813_j27779848470631_2_alg».proof.Proof.IdxOpsK
import proofs.«108813_j27779848470631_2_alg».proof.Proof.Spec
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The zero array a scatter-add starts from reads 0 everywhere, and the 1e-6 array reads 1e-6. -/
theorem zero64_apply (n : Fin 50000) (j : Fin 64) :
    (broadcastInDim S50000x64 ![] bcast_S_S50000x64 (constant (F := Ideal) S_ .f32 0x00000000#32)) (ix2 n j) = 0 :=
  Ideal.ofBits_zero_f32
theorem zero8_apply (n : Fin 50000) (h : Fin 8) :
    (broadcastInDim S50000x8 ![] bcast_S_S50000x8 (constant (F := Ideal) S_ .f32 0x00000000#32)) (ix2 n h) = 0 :=
  Ideal.ofBits_zero_f32
theorem eps_apply (n : Fin 50000) (j : Fin 64) :
    (broadcastInDim S50000x64 ![] bcast_S_S50000x64 (constant (F := Ideal) S_ .f32 0x358637BD#32)) (ix2 n j) = Cert.Spec.eps :=
  rfl

/-- The two scatter-adds at an index, over any operand, index column and updates. -/
theorem scat64 (x0 : FVec Ideal S50000x64 .f32) (c : IVec S800000x1 32) (u : FVec Ideal S800000x64 .f32) (n : Fin 50000) (j : Fin 64) :
    Host.scatterAdd scatter_S50000x64_S800000x1_S800000x64_1_0_0_1 x0 c u (ix2 n j)
      = x0 (ix2 n j) + ∑ e ∈ Finset.univ.filter (fun e : Fin 800000 => Cert.Spec.hits (c (ix2 e (0 : Fin 1))) n), u (ix2 e j) :=
  Cert.IdxOps.scatterK64_apply x0 c u n j
theorem scat8 (x0 : FVec Ideal S50000x8 .f32) (c : IVec S800000x1 32) (u : FVec Ideal S800000x8 .f32) (n : Fin 50000) (h : Fin 8) :
    Host.scatterAdd scatter_S50000x8_S800000x1_S800000x8_1_0_0_1 x0 c u (ix2 n h)
      = x0 (ix2 n h) + ∑ e ∈ Finset.univ.filter (fun e : Fin 800000 => Cert.Spec.hits (c (ix2 e (0 : Fin 1))) n), u (ix2 e h) :=
  Cert.IdxOps.scatterK8_apply x0 c u n h

/-- The scattered messages at (n, j). -/
theorem num_apply (msg : FVec Ideal S800000x64 .bf16) (dst : IVec S800000 32) (n : Fin 50000) (j : Fin 64) :
    Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 dst) (extf .f32 msg bitsLt_bf16_f32) (ix2 n j)
      = ∑ e ∈ Finset.univ.filter (fun e : Fin 800000 => Cert.Spec.hits ((broadcastInDim S800000x1 ![0] bcast_S800000_S800000x1_0 dst) (ix2 e (0 : Fin 1))) n), msg (ix2 e j) := by
  rw [scat64, zero64_apply, zero_add]
  simp only [extf_apply]

/-- The scattered scores at (n, h). -/
theorem den_apply (score : FVec Ideal S800000x8 .f32) (dst : IVec S800000 32) (n : Fin 50000) (h : Fin 8) :
    Host.scatterAdd scatter_S50000x8_S800000x1_S800000x8_1_0_0_1
        (broadcastInDim S50000x8 ![] bcast_S_S50000x8 (constant (F := Ideal) S_ .f32 0x00000000#32))
        (broadcastInDim S800000x1 ![0] bcast_S800000_S800000x1_0 dst) score (ix2 n h)
      = ∑ e ∈ Finset.univ.filter (fun e : Fin 800000 => Cert.Spec.hits ((broadcastInDim S800000x1 ![0] bcast_S800000_S800000x1_0 dst) (ix2 e (0 : Fin 1))) n), score (ix2 e h) := by
  rw [scat8, zero8_apply, zero_add]

/-- The host's quotient at an index. -/
theorem hdiv_apply (a b : FVec Ideal S50000x64 .f32) (i : S50000x64.Idx) : Host.divf a b i = Ideal.div (a i) (b i) := rfl

/-- The attention output at node n, slot j. -/
theorem hattnK_apply (msg : FVec Ideal S800000x64 .bf16) (score : FVec Ideal S800000x8 .f32) (dst : IVec S800000 32)
    (mexp : FVec Ideal S8x64 .f32) (n : Fin 50000) (j : Fin 64) :
    hattnK (F := Ideal) msg score dst mexp (ix2 n j)
      = Ideal.div (∑ e ∈ Finset.univ.filter (fun e : Fin 800000 => Cert.Spec.hits ((broadcastInDim S800000x1 ![0] bcast_S800000_S800000x1_0 dst) (ix2 e (0 : Fin 1))) n), msg (ix2 e j))
          ((∑ h : Fin 8, (∑ e ∈ Finset.univ.filter (fun e : Fin 800000 => Cert.Spec.hits ((broadcastInDim S800000x1 ![0] bcast_S800000_S800000x1_0 dst) (ix2 e (0 : Fin 1))) n), score (ix2 e h)) * mexp (ix2 h j)) + Cert.Spec.eps) := by
  unfold hattnK
  rw [hdiv_apply, addf_apply, num_apply, dot_z_x_apply, eps_apply]
  have hsum : (∑ h : Fin 8, Host.scatterAdd scatter_S50000x8_S800000x1_S800000x8_1_0_0_1
        (broadcastInDim S50000x8 ![] bcast_S_S50000x8 (constant (F := Ideal) S_ .f32 0x00000000#32))
        (broadcastInDim S800000x1 ![0] bcast_S800000_S800000x1_0 dst) score (ix2 n h) * mexp (ix2 h j))
      = ∑ h : Fin 8, (∑ e ∈ Finset.univ.filter (fun e : Fin 800000 => Cert.Spec.hits ((broadcastInDim S800000x1 ![0] bcast_S800000_S800000x1_0 dst) (ix2 e (0 : Fin 1))) n), score (ix2 e h)) * mexp (ix2 h j) :=
    Finset.sum_congr rfl (fun h _ => by rw [den_apply])
  rw [hsum]

end Cert.KernelIdeal.Hand

end
-- ==== Proof.PayKI_B.lean ====
/-
  The two 0/1 grouping tables of the program, and what a sum against them is. The [64, 8] group-sum table has a one at
  (j, h) exactly when slot j belongs to head h, that is j / 8 = h, and the [8, 64] group-expand table is its transpose.
  A sum over the 64 slots against a column of the first is the sum over that head's eight slots; a sum over the 8 heads
  against a column of the second picks the slot's own head.
-/
import proofs.«108813_j27779848470631_2_alg».proof.KernelIdeal
import Idealize.ShloMosaic.Lib.ValueIdx
import Idealize.ShloMosaic.PureOps.Ideal.Laws
import Idealize.ShloMosaic.Lib.IdealHost

set_option maxRecDepth 16384

noncomputable section

namespace Cert.KernelIdeal.Pay

open Cert.KernelIdeal
open Idealize.ShloMosaic Idealize.ShloMosaic.ValueIdx
open scoped BigOperators

/-! ## Sums against a 0/1 grouping column, on the extended reals -/

/-- A sum over the 64 slots against the indicator of head h's slots is the sum over that head's eight slots. -/
theorem sum_group (p : Fin 64 → EReal) (h : Fin 8) :
    ∑ j : Fin 64, p j * (if j.val / 8 = h.val then (1 : EReal) else 0) = ∑ d : Fin 8, p ⟨8 * h.val + d.val, by omega⟩ := by
  have e : ∀ j : Fin 64, p j * (if j.val / 8 = h.val then (1 : EReal) else 0) = if j.val / 8 = h.val then p j else 0 := by
    intro j
    by_cases c : j.val / 8 = h.val
    · rw [if_pos c, if_pos c, mul_one]
    · rw [if_neg c, if_neg c, mul_zero]
  simp only [e]
  rw [← Finset.sum_filter]
  symm
  refine Finset.sum_nbij' (fun d : Fin 8 => (⟨8 * h.val + d.val, by omega⟩ : Fin 64))
    (fun j : Fin 64 => (⟨j.val % 8, Nat.mod_lt _ (by decide)⟩ : Fin 8)) ?_ ?_ ?_ ?_ ?_
  · intro d _
    refine Finset.mem_filter.mpr ⟨Finset.mem_univ _, ?_⟩
    show (8 * h.val + d.val) / 8 = h.val
    omega
  · intro j _; exact Finset.mem_univ _
  · intro d _
    refine Fin.ext ?_
    show (8 * h.val + d.val) % 8 = d.val
    omega
  · intro j hj
    have c : j.val / 8 = h.val := (Finset.mem_filter.mp hj).2
    refine Fin.ext ?_
    show 8 * h.val + j.val % 8 = j.val
    omega
  · intro d _; rfl

/-- A sum over the 8 heads against the indicator of slot j's head is the term of that head. -/
theorem sum_expand (s : Fin 8 → EReal) (j : Fin 64) :
    ∑ h : Fin 8, s h * (if j.val / 8 = h.val then (1 : EReal) else 0) = s ⟨j.val / 8, by omega⟩ := by
  have e : ∀ h : Fin 8, s h * (if j.val / 8 = h.val then (1 : EReal) else 0)
      = if h = (⟨j.val / 8, by omega⟩ : Fin 8) then s h else 0 := by
    intro h
    by_cases c : j.val / 8 = h.val
    · rw [if_pos c, if_pos (Fin.ext c.symm), mul_one]
    · rw [if_neg c, if_neg (fun e => c (by rw [e])), mul_zero]
  simp only [e]
  rw [Finset.sum_ite_eq' Finset.univ _ s, if_pos (Finset.mem_univ _)]

/-! ## The two tables -/

/-- The 512 words of the group-sum table, row-major over [64, 8]: the pattern of one where the slot's head is the
    column, the pattern of zero elsewhere. -/
theorem lit0_bits : ∀ i : Fin 512, lit0 i = if i.val / 8 / 8 = i.val % 8 then 0x3F800000#32 else 0x00000000#32 := by
  decide +kernel

/-- The 512 words of the group-expand table, row-major over [8, 64]: the transpose. -/
theorem lit1_bits : ∀ i : Fin 512, lit1 i = if i.val % 64 / 8 = i.val / 64 then 0x3F800000#32 else 0x00000000#32 := by
  decide +kernel

/-- The group-sum table at (j, h), at the extended reals: one when slot j is in head h, else zero. -/
theorem group_tbl (j : Fin 64) (h : Fin 8) :
    FloatOps.ofBits (F := Ideal) .f32 (lit0 (S64x8.rowMajor (ix2 j h))) = if j.val / 8 = h.val then (1 : EReal) else 0 := by
  have hv : (S64x8.rowMajor (ix2 j h)).val = j.val * 8 + h.val := Shape.rowMajor_val_two (ix2 j h)
  generalize S64x8.rowMajor (ix2 j h) = i at hv ⊢
  rw [Ideal.ofBits_def, lit0_bits i]
  have h1 : (j.val * 8 + h.val) / 8 = j.val := by omega
  have h2 : (j.val * 8 + h.val) % 8 = h.val := by omega
  have hc : (i.val / 8 / 8 = i.val % 8) ↔ (j.val / 8 = h.val) := by rw [hv, h1, h2]
  by_cases c : j.val / 8 = h.val
  · rw [if_pos (hc.mpr c), if_pos c, Ideal.ofBits_one_f32]
  · rw [if_neg (fun e => c (hc.mp e)), if_neg c, Ideal.ofBits_zero_f32]

/-- The group-expand table at (h, j), at the extended reals: one when slot j is in head h, else zero. -/
theorem expand_tbl (h : Fin 8) (j : Fin 64) :
    FloatOps.ofBits (F := Ideal) .f32 (lit1 (S8x64.rowMajor (ix2 h j))) = if j.val / 8 = h.val then (1 : EReal) else 0 := by
  have hv : (S8x64.rowMajor (ix2 h j)).val = h.val * 64 + j.val := Shape.rowMajor_val_two (ix2 h j)
  generalize S8x64.rowMajor (ix2 h j) = i at hv ⊢
  rw [Ideal.ofBits_def, lit1_bits i]
  have h1 : (h.val * 64 + j.val) % 64 = j.val := by omega
  have h2 : (h.val * 64 + j.val) / 64 = h.val := by omega
  have hc : (i.val % 64 / 8 = i.val / 64) ↔ (j.val / 8 = h.val) := by rw [hv, h1, h2]
  by_cases c : j.val / 8 = h.val
  · rw [if_pos (hc.mpr c), if_pos c, Ideal.ofBits_one_f32]
  · rw [if_neg (fun e => c (hc.mp e)), if_neg c, Ideal.ofBits_zero_f32]

end Cert.KernelIdeal.Pay

end
-- ==== Proof.SpecTbl.lean ====
/-
  The two grouping matrices do what they are for. With G j h = 1 when slot j belongs to head h and 0 otherwise, the sum
  Σ_j p j · G j h is the sum of p over head h's eight slots; with X h j the transposed table, Σ_h s h · X h j is s at
  the head of slot j. So the scores and messages written through the matrices are the plain ones.
-/
import proofs.«108813_j27779848470631_2_alg».proof.Proof.Spec
import proofs.«108813_j27779848470631_2_alg».proof.Proof.PayKI_B

noncomputable section

open scoped BigOperators

namespace Cert.Spec

/-- Slot j belongs to head h. -/
def gtbl : Fin 64 → Fin 8 → EReal := fun j h => if j.val / 8 = h.val then 1 else 0
/-- The same table, transposed. -/
def xtbl : Fin 8 → Fin 64 → EReal := fun h j => if j.val / 8 = h.val then 1 else 0

theorem scoreG_tbl (a s t : Fin 64 → EReal) (Wq Wk We : Fin 64 → Fin 64 → EReal) (h : Fin 8) :
    scoreG a s t Wq Wk We gtbl h = score a s t Wq Wk We h := by
  unfold scoreG score gtbl
  rw [Cert.KernelIdeal.Pay.sum_group (fun j => prod a s t Wq Wk We j) h]
  rfl

theorem msgG_tbl (a s t : Fin 64 → EReal) (Wq Wk Wv We : Fin 64 → Fin 64 → EReal) (j : Fin 64) :
    msgG a s t Wq Wk Wv We gtbl xtbl j = msg a s t Wq Wk Wv We j := by
  unfold msgG msg xtbl
  simp only [scoreG_tbl]
  rw [Cert.KernelIdeal.Pay.sum_expand (fun h => score a s t Wq Wk We h) j]
  rfl

end Cert.Spec

end
-- ==== Proof.AttnArr.lean ====
/-
  The attention output of the whole layer as one array, in the terms both programs share: the node features, the edge
  features, the four projections and the edge index. Edge e's source row is the node features at its wrapped, clamped
  source index, its destination row likewise, and it contributes to the node its raw destination index hits.
-/
import proofs.«108813_j27779848470631_2_alg».proof.Proof.Spec
import proofs.«108813_j27779848470631_2_alg».proof.Proof.IdxNorm
import Idealize.ShloMosaic.Lib.ValueIdx

noncomputable section

open scoped BigOperators

namespace Cert.AttnArr

open Idealize.ShloMosaic Idealize.ShloMosaic.ValueIdx Cert.IdxNorm

abbrev SNx64 : Shape := ⟨2, ![50000, 64]⟩
abbrev SEx64 : Shape := ⟨2, ![800000, 64]⟩
abbrev S64x64 : Shape := ⟨2, ![64, 64]⟩

/-- Each edge's own feature row. -/
def feat (ea : SEx64.Idx → EReal) : Fin 800000 → Fin 64 → EReal := fun e k => ea (ix2 e k)
/-- Each edge's node row: the node features at the clamped start index its column entry gives. -/
def nodeRows (x : SNx64.Idx → EReal) (c : IVec SEx1 32) : Fin 800000 → Fin 64 → EReal :=
  fun e k => x (ix2 (Cert.Spec.clampRow (c (ix2 e (0 : Fin 1)))) k)
/-- A 64×64 array by its coordinates. -/
def mat (W : S64x64.Idx → EReal) : Fin 64 → Fin 64 → EReal := fun k j => W (ix2 k j)
/-- The edges whose column entry hits node n. -/
abbrev hit (c : IVec SEx1 32) (n : Fin 50000) : Fin 800000 → Prop := fun e => Cert.Spec.hits (c (ix2 e (0 : Fin 1))) n

/-- The attention array. -/
def attnArr (x : SNx64.Idx → EReal) (ea : SEx64.Idx → EReal) (Wq Wk We Wv : S64x64.Idx → EReal) (ei : IVec S2xE 32) :
    SNx64.Idx → EReal := fun i =>
  Cert.Spec.attn (feat ea) (nodeRows x (col (wrap (srcRaw ei)))) (nodeRows x (col (wrap (dstRaw ei))))
    (mat Wq) (mat Wk) (mat Wv) (mat We) (hit (col (dstRaw ei)) ⟨(i 0).val, idx2_lt0 i⟩) ⟨(i 1).val, idx2_lt1 i⟩

end Cert.AttnArr

end
-- ==== Proof.AttnArrApply.lean ====
/-
  The attention array at node n and slot j, unfolded once: the sum of the messages at j over the edges that hit n, divided
  by the sum of their scores for j's head plus 1e-6.
-/
import proofs.«108813_j27779848470631_2_alg».proof.Proof.AttnArr

noncomputable section

open scoped BigOperators

namespace Cert.AttnArr

open Idealize.ShloMosaic Idealize.ShloMosaic.ValueIdx Cert.IdxNorm

theorem attnArr_apply (x : SNx64.Idx → EReal) (ea : SEx64.Idx → EReal) (Wq Wk We Wv : S64x64.Idx → EReal) (ei : IVec S2xE 32)
    (n : Fin 50000) (j : Fin 64) :
    attnArr x ea Wq Wk We Wv ei (ix2 n j)
      = Ideal.div (∑ e ∈ Finset.univ.filter (hit (col (dstRaw ei)) n),
            Cert.Spec.msg (feat ea e) (nodeRows x (col (wrap (srcRaw ei))) e) (nodeRows x (col (wrap (dstRaw ei))) e) (mat Wq) (mat Wk) (mat Wv) (mat We) j)
          ((∑ e ∈ Finset.univ.filter (hit (col (dstRaw ei)) n),
            Cert.Spec.score (feat ea e) (nodeRows x (col (wrap (srcRaw ei))) e) (nodeRows x (col (wrap (dstRaw ei))) e) (mat Wq) (mat Wk) (mat We)
              (Cert.Spec.head j)) + Cert.Spec.eps) := rfl

end Cert.AttnArr

end
-- ==== Proof.KerArr.lean ====
/-
  The kernel program's attention output, in the terms both programs share. The region's two arrays hold each edge's
  scores and messages computed from its own feature row and from the node rows the host gathered for its source and
  destination; the two grouping matrices are the 0/1 tables, so the head sums and the spreading are the plain ones; the
  scatters add an edge into the node its raw destination index hits. Together: at node n and slot j, the sum of the
  messages over the edges that hit n divided by the sum of their scores for j's head plus 1e-6.
-/
import proofs.«108813_j27779848470631_2_alg».proof.Proof.KerValue
import proofs.«108813_j27779848470631_2_alg».proof.Proof.KerPre
import proofs.«108813_j27779848470631_2_alg».proof.Proof.KerAttnApply
import proofs.«108813_j27779848470631_2_alg».proof.Proof.SpecTbl
import proofs.«108813_j27779848470631_2_alg».proof.Proof.AttnArr
import proofs.«108813_j27779848470631_2_alg».proof.Proof.AttnArrApply
import proofs.«108813_j27779848470631_2_alg».proof.Proof.IdxOpsK
import proofs.«108813_j27779848470631_2_alg».proof.Proof.PayKI_B

set_option maxRecDepth 16384

noncomputable section

open scoped BigOperators

namespace Cert.KernelIdeal.Hand

open Cert.KernelIdeal Cert.KernelIdeal.Gen Cert.IdxNorm
open Cert.AttnArr (feat nodeRows mat hit attnArr)
open Idealize.ShloMosaic Idealize.ShloMosaic.TcCoe Idealize.ShloMosaic.ValueIdx
open Idealize.SL Idealize.SL.Sem

variable (m : (ℓ : Loc nD τ sig) → Buf (Elt Ideal) ℓ)

/-! ## The rows and matrices the region reads, in terms of the launch arrays -/

theorem rowE_ea (c : Dev nD) (e : Fin 800000) : rowE (V m c main_arg1) e = feat (m ((c : Thread nD τ).loc main_arg1)) e := by
  unfold rowE feat
  rw [V_low m c main_arg1 (by decide)]

theorem rowE_src (c : Dev nD) (e : Fin 800000) : rowE (V m c main_v10) e = nodeRows (m ((c : Thread nD τ).loc main_arg0)) (col (wrap (srcRaw (m ((c : Thread nD τ).loc main_arg16))))) e := by
  unfold rowE nodeRows
  rw [V_v10]
  funext k
  exact Cert.IdxOps.gatherK_apply _ _ e k

theorem rowE_dst (c : Dev nD) (e : Fin 800000) : rowE (V m c main_v17) e = nodeRows (m ((c : Thread nD τ).loc main_arg0)) (col (wrap (dstRaw (m ((c : Thread nD τ).loc main_arg16))))) e := by
  unfold rowE nodeRows
  rw [V_v17]
  funext k
  exact Cert.IdxOps.gatherK_apply _ _ e k

theorem mat64_q (c : Dev nD) : mat64 (V m c main_arg2) = mat (m ((c : Thread nD τ).loc main_arg2)) := by unfold mat64 mat; rw [V_low m c main_arg2 (by decide)]
theorem mat64_k (c : Dev nD) : mat64 (V m c main_arg3) = mat (m ((c : Thread nD τ).loc main_arg3)) := by unfold mat64 mat; rw [V_low m c main_arg3 (by decide)]
theorem mat64_e (c : Dev nD) : mat64 (V m c main_arg4) = mat (m ((c : Thread nD τ).loc main_arg4)) := by unfold mat64 mat; rw [V_low m c main_arg4 (by decide)]
theorem mat64_v (c : Dev nD) : mat64 (V m c main_arg5) = mat (m ((c : Thread nD τ).loc main_arg5)) := by unfold mat64 mat; rw [V_low m c main_arg5 (by decide)]

theorem matG_cst (c : Dev nD) : matG (V m c main_cst) = Cert.Spec.gtbl := by
  funext j h
  unfold matG
  rw [V_cst]
  exact Cert.KernelIdeal.Pay.group_tbl j h

theorem matX_cst (c : Dev nD) : matX (V m c main_cst_0) = Cert.Spec.xtbl := by
  funext h j
  unfold matX
  rw [V_cst_0]
  exact Cert.KernelIdeal.Pay.expand_tbl h j

/-! ## The region's two arrays at an index -/

theorem scoreArr_apply (c : Dev nD) (e : Fin 800000) (h : Fin 8) :
    scoreArr (V m c main_arg1) (V m c main_v10) (V m c main_v17) (V m c main_arg2) (V m c main_arg3) (V m c main_arg4) (V m c main_cst) (ix2 e h)
      = Cert.Spec.score (feat (m ((c : Thread nD τ).loc main_arg1)) e) (nodeRows (m ((c : Thread nD τ).loc main_arg0)) (col (wrap (srcRaw (m ((c : Thread nD τ).loc main_arg16))))) e) (nodeRows (m ((c : Thread nD τ).loc main_arg0)) (col (wrap (dstRaw (m ((c : Thread nD τ).loc main_arg16))))) e) (mat (m ((c : Thread nD τ).loc main_arg2))) (mat (m ((c : Thread nD τ).loc main_arg3))) (mat (m ((c : Thread nD τ).loc main_arg4))) h := by
  show Cert.Spec.scoreG (rowE (V m c main_arg1) e) (rowE (V m c main_v10) e) (rowE (V m c main_v17) e) (mat64 (V m c main_arg2))
    (mat64 (V m c main_arg3)) (mat64 (V m c main_arg4)) (matG (V m c main_cst)) h = _
  rw [rowE_ea, rowE_src, rowE_dst, mat64_q, mat64_k, mat64_e, matG_cst, Cert.Spec.scoreG_tbl]

theorem msgArr_apply (c : Dev nD) (e : Fin 800000) (j : Fin 64) :
    msgArr (V m c main_arg1) (V m c main_v10) (V m c main_v17) (V m c main_arg2) (V m c main_arg3) (V m c main_arg5) (V m c main_arg4) (V m c main_cst) (V m c main_cst_0) (ix2 e j)
      = Cert.Spec.msg (feat (m ((c : Thread nD τ).loc main_arg1)) e) (nodeRows (m ((c : Thread nD τ).loc main_arg0)) (col (wrap (srcRaw (m ((c : Thread nD τ).loc main_arg16))))) e) (nodeRows (m ((c : Thread nD τ).loc main_arg0)) (col (wrap (dstRaw (m ((c : Thread nD τ).loc main_arg16))))) e) (mat (m ((c : Thread nD τ).loc main_arg2))) (mat (m ((c : Thread nD τ).loc main_arg3))) (mat (m ((c : Thread nD τ).loc main_arg5))) (mat (m ((c : Thread nD τ).loc main_arg4))) j := by
  show Cert.Spec.msgG (rowE (V m c main_arg1) e) (rowE (V m c main_v10) e) (rowE (V m c main_v17) e) (mat64 (V m c main_arg2))
    (mat64 (V m c main_arg3)) (mat64 (V m c main_arg5)) (mat64 (V m c main_arg4)) (matG (V m c main_cst)) (matX (V m c main_cst_0)) j = _
  rw [rowE_ea, rowE_src, rowE_dst, mat64_q, mat64_k, mat64_v, mat64_e, matG_cst, matX_cst, Cert.Spec.msgG_tbl]

/-! ## The attention output -/

/-- The edges a scatter's index column sends to node n, as the shared predicate. -/
theorem filt_eq (d : IVec S800000 32) (n : Fin 50000) :
    Finset.univ.filter (fun e : Fin 800000 => Cert.Spec.hits ((broadcastInDim S800000x1 ![0] bcast_S800000_S800000x1_0 d) (ix2 e (0 : Fin 1))) n) = Finset.univ.filter (hit (col d) n) := by
  ext e
  simp only [Finset.mem_filter, Finset.mem_univ, true_and]
  exact Iff.rfl

theorem kerAttn_apply (c : Dev nD) (n : Fin 50000) (j : Fin 64) :
    hattnK (F := Ideal) (msgArr (V m c main_arg1) (V m c main_v10) (V m c main_v17) (V m c main_arg2) (V m c main_arg3) (V m c main_arg5) (V m c main_arg4) (V m c main_cst) (V m c main_cst_0)) (scoreArr (V m c main_arg1) (V m c main_v10) (V m c main_v17) (V m c main_arg2) (V m c main_arg3) (V m c main_arg4) (V m c main_cst)) (V m c main_v3) (V m c main_cst_0) (ix2 n j)
      = attnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg16)) (ix2 n j) := by
  rw [hattnK_apply, V_v3, filt_eq, Cert.AttnArr.attnArr_apply]
  have h1 : (∑ e ∈ Finset.univ.filter (hit (col (dstRaw (m ((c : Thread nD τ).loc main_arg16)))) n), msgArr (V m c main_arg1) (V m c main_v10) (V m c main_v17) (V m c main_arg2) (V m c main_arg3) (V m c main_arg5) (V m c main_arg4) (V m c main_cst) (V m c main_cst_0) (ix2 e j))
      = ∑ e ∈ Finset.univ.filter (hit (col (dstRaw (m ((c : Thread nD τ).loc main_arg16)))) n), Cert.Spec.msg (feat (m ((c : Thread nD τ).loc main_arg1)) e) (nodeRows (m ((c : Thread nD τ).loc main_arg0)) (col (wrap (srcRaw (m ((c : Thread nD τ).loc main_arg16))))) e) (nodeRows (m ((c : Thread nD τ).loc main_arg0)) (col (wrap (dstRaw (m ((c : Thread nD τ).loc main_arg16))))) e) (mat (m ((c : Thread nD τ).loc main_arg2))) (mat (m ((c : Thread nD τ).loc main_arg3))) (mat (m ((c : Thread nD τ).loc main_arg5))) (mat (m ((c : Thread nD τ).loc main_arg4))) j :=
    Finset.sum_congr rfl (fun e _ => msgArr_apply m c e j)
  have hx : ∀ h : Fin 8, (V m c main_cst_0 : S8x64.Idx → EReal) (ix2 h j) = (if j.val / 8 = h.val then (1 : EReal) else 0) :=
    fun h => congrFun (congrFun (matX_cst m c) h) j
  have h2 : (∑ h : Fin 8, (∑ e ∈ Finset.univ.filter (hit (col (dstRaw (m ((c : Thread nD τ).loc main_arg16)))) n), scoreArr (V m c main_arg1) (V m c main_v10) (V m c main_v17) (V m c main_arg2) (V m c main_arg3) (V m c main_arg4) (V m c main_cst) (ix2 e h)) * (V m c main_cst_0 : S8x64.Idx → EReal) (ix2 h j))
      = ∑ e ∈ Finset.univ.filter (hit (col (dstRaw (m ((c : Thread nD τ).loc main_arg16)))) n), Cert.Spec.score (feat (m ((c : Thread nD τ).loc main_arg1)) e) (nodeRows (m ((c : Thread nD τ).loc main_arg0)) (col (wrap (srcRaw (m ((c : Thread nD τ).loc main_arg16))))) e) (nodeRows (m ((c : Thread nD τ).loc main_arg0)) (col (wrap (dstRaw (m ((c : Thread nD τ).loc main_arg16))))) e) (mat (m ((c : Thread nD τ).loc main_arg2))) (mat (m ((c : Thread nD τ).loc main_arg3))) (mat (m ((c : Thread nD τ).loc main_arg4))) (Cert.Spec.head j) := by
    have h3 : ∀ h : Fin 8, (∑ e ∈ Finset.univ.filter (hit (col (dstRaw (m ((c : Thread nD τ).loc main_arg16)))) n), scoreArr (V m c main_arg1) (V m c main_v10) (V m c main_v17) (V m c main_arg2) (V m c main_arg3) (V m c main_arg4) (V m c main_cst) (ix2 e h)) * (V m c main_cst_0 : S8x64.Idx → EReal) (ix2 h j)
        = (fun h : Fin 8 => ∑ e ∈ Finset.univ.filter (hit (col (dstRaw (m ((c : Thread nD τ).loc main_arg16)))) n), Cert.Spec.score (feat (m ((c : Thread nD τ).loc main_arg1)) e) (nodeRows (m ((c : Thread nD τ).loc main_arg0)) (col (wrap (srcRaw (m ((c : Thread nD τ).loc main_arg16))))) e) (nodeRows (m ((c : Thread nD τ).loc main_arg0)) (col (wrap (dstRaw (m ((c : Thread nD τ).loc main_arg16))))) e) (mat (m ((c : Thread nD τ).loc main_arg2))) (mat (m ((c : Thread nD τ).loc main_arg3))) (mat (m ((c : Thread nD τ).loc main_arg4))) h) h * (if j.val / 8 = h.val then (1 : EReal) else 0) := fun h => by
      rw [hx h, Finset.sum_congr rfl (fun e _ => scoreArr_apply m c e h)]
    rw [Finset.sum_congr rfl (fun h _ => h3 h), Cert.KernelIdeal.Pay.sum_expand]
    rfl
  rw [h1, h2]

end Cert.KernelIdeal.Hand

end
-- ==== Proof.Tail.lean ====
/-
  The part of the layer that comes after attention, as functions of whole arrays, at any float instance:
  the output projection with its bias and the first residual, the batch normalisation over the 50000 nodes
  (column mean, biased column variance, scale, shift), the two-layer feed-forward block with a rectifier and the
  second residual, and their composition. Both programs apply exactly these operations to the attention output,
  so the comparison of the two programs never has to open them.
-/
import Idealize.ShloMosaic.PureOps

noncomputable section

namespace Cert.Tail

open Idealize.ShloMosaic

abbrev S_ : Shape := ⟨0, ![]⟩
abbrev S64 : Shape := ⟨1, ![64]⟩
abbrev S128 : Shape := ⟨1, ![128]⟩
abbrev S1x64 : Shape := ⟨2, ![1, 64]⟩
abbrev S1x128 : Shape := ⟨2, ![1, 128]⟩
abbrev S64x64 : Shape := ⟨2, ![64, 64]⟩
abbrev S64x128 : Shape := ⟨2, ![64, 128]⟩
abbrev S128x64 : Shape := ⟨2, ![128, 64]⟩
abbrev SNx64 : Shape := ⟨2, ![50000, 64]⟩
abbrev SNx128 : Shape := ⟨2, ![50000, 128]⟩

theorem b0_64 : S_.BroadcastsInDim S64 (![] : Fin 0 → Fin S64.rank) := by decide
theorem b0_1x64 : S_.BroadcastsInDim S1x64 (![] : Fin 0 → Fin S1x64.rank) := by decide
theorem b0_Nx128 : S_.BroadcastsInDim SNx128 (![] : Fin 0 → Fin SNx128.rank) := by decide
theorem b64_1x64 : S64.BroadcastsInDim S1x64 (![1] : Fin 1 → Fin S1x64.rank) := by decide
theorem b1x64_Nx64 : S1x64.BroadcastsInDim SNx64 (![0, 1] : Fin 2 → Fin SNx64.rank) := by decide
theorem b128_1x128 : S128.BroadcastsInDim S1x128 (![1] : Fin 1 → Fin S1x128.rank) := by decide
theorem b1x128_Nx128 : S1x128.BroadcastsInDim SNx128 (![0, 1] : Fin 2 → Fin SNx128.rank) := by decide
theorem red0 : SNx64.ReducesTo [0] S64 := by decide
theorem hS_ : 0 < S_.numel := by decide

/-- A product of a [50000, 64] array with a [64, 64] matrix, contracting the 64. -/
def dotO : DotDims SNx64 S64x64 SNx64 where
  lhsContracting := [1]
  rhsContracting := [0]
  lhsNonContracting := [0]
  rhsNonContracting := [1]
  lhsBatch := []
  rhsBatch := []
/-- [50000, 64] by [64, 128]. -/
def dotF1 : DotDims SNx64 S64x128 SNx128 where
  lhsContracting := [1]
  rhsContracting := [0]
  lhsNonContracting := [0]
  rhsNonContracting := [1]
  lhsBatch := []
  rhsBatch := []
/-- [50000, 128] by [128, 64]. -/
def dotF2 : DotDims SNx128 S128x64 SNx64 where
  lhsContracting := [1]
  rhsContracting := [0]
  lhsNonContracting := [0]
  rhsNonContracting := [1]
  lhsBatch := []
  rhsBatch := []

variable {F : FTy → Type} [FloatOps F]

/-- A vector of 64 entries laid under every one of the 50000 rows. -/
def rows64 (v : FVec F S64 .f32) : FVec F SNx64 .f32 :=
  broadcastInDim SNx64 ![0, 1] b1x64_Nx64 (broadcastInDim S1x64 ![1] b64_1x64 v)
/-- The same for 128 entries. -/
def rows128 (v : FVec F S128 .f32) : FVec F SNx128 .f32 :=
  broadcastInDim SNx128 ![0, 1] b1x128_Nx128 (broadcastInDim S1x128 ![1] b128_1x128 v)

/-- x + (attention · O_w + O_b). -/
def proj (x hattn : FVec F SNx64 .f32) (Ow : FVec F S64x64 .f32) (Ob : FVec F S64 .f32) : FVec F SNx64 .f32 :=
  addf x (addf (Host.dotGeneral dotO none hattn Ow) (rows64 Ob))

/-- The column mean: the sum over the 50000 rows divided by 50000. -/
def colMean (h : FVec F SNx64 .f32) : FVec F S64 .f32 :=
  Host.divf (Host.reduceAdd h (constant S_ .f32 0x00000000#32) red0 hS_) (broadcastInDim S64 ![] b0_64 (constant S_ .f32 0x47435000#32))

/-- The rows with the column mean (kept as a one-row array) subtracted. -/
def centred (h : FVec F SNx64 .f32) : FVec F SNx64 .f32 :=
  subf h (broadcastInDim SNx64 ![0, 1] b1x64_Nx64
    (Host.divf (broadcastInDim S1x64 ![1] b64_1x64 (Host.reduceAdd h (constant S_ .f32 0x00000000#32) red0 hS_))
      (broadcastInDim S1x64 ![] b0_1x64 (constant S_ .f32 0x47435000#32))))

/-- 50000 minus the degrees-of-freedom correction, which is zero here. -/
def count : FVec F S_ .f32 :=
  subf (constant S_ .f32 0x47435000#32) (sitofp .f32 (constantI S_ 32 0#32))

/-- The biased column variance: the sum of squared centred entries over the count, where the count is positive. -/
def colVar (h : FVec F SNx64 .f32) : FVec F S64 .f32 :=
  select (broadcastInDim S64 ![] b0_64 (cmpf .ogt (count (F := F)) (constant S_ .f32 0x00000000#32)))
    (Host.divf (Host.reduceAdd (mulf (centred h) (centred h)) (constant S_ .f32 0x00000000#32) red0 hS_) (broadcastInDim S64 ![] b0_64 count))
    (broadcastInDim S64 ![] b0_64 (id (constant S_ .f32 0x7FC00000#32)))

/-- g · (h − mean) · rsqrt(var + 1e-5) + b, column by column, for a given mean and variance. -/
def bnCore (h : FVec F SNx64 .f32) (mean var g b : FVec F S64 .f32) : FVec F SNx64 .f32 :=
  addf (mulf (mulf (rows64 g) (subf h (rows64 mean)))
      (rows64 (Host.rsqrt (addf var (broadcastInDim S64 ![] b0_64 (constant S_ .f32 0x3727C5AC#32))))))
    (rows64 b)

/-- The batch normalisation: `bnCore` at the column mean and the biased column variance. -/
def bn (h : FVec F SNx64 .f32) (g b : FVec F S64 .f32) : FVec F SNx64 .f32 :=
  bnCore h (colMean h) (colVar h) g b

/-- The first layer of the feed-forward block before the rectifier: h · f1_w + f1_b. -/
def ffnPre (h : FVec F SNx64 .f32) (f1w : FVec F S64x128 .f32) (f1b : FVec F S128 .f32) : FVec F SNx128 .f32 :=
  addf (Host.dotGeneral dotF1 none h f1w) (rows128 f1b)

/-- The rectifier. -/
def relu (a : FVec F SNx128 .f32) : FVec F SNx128 .f32 :=
  maximumf a (broadcastInDim SNx128 ![] b0_Nx128 (constant S_ .f32 0x00000000#32))

/-- The second layer and the residual, from the rectified first layer. -/
def ffnPost (h : FVec F SNx64 .f32) (a : FVec F SNx128 .f32) (f2w : FVec F S128x64 .f32) (f2b : FVec F S64 .f32) : FVec F SNx64 .f32 :=
  addf h (addf (Host.dotGeneral dotF2 none a f2w) (rows64 f2b))

/-- h + (max(h · f1_w + f1_b, 0) · f2_w + f2_b). -/
def ffn (h : FVec F SNx64 .f32) (f1w : FVec F S64x128 .f32) (f1b : FVec F S128 .f32) (f2w : FVec F S128x64 .f32)
    (f2b : FVec F S64 .f32) : FVec F SNx64 .f32 :=
  ffnPost h (relu (ffnPre h f1w f1b)) f2w f2b

/-- Everything after attention. -/
def tail (x hattn : FVec F SNx64 .f32) (Ow : FVec F S64x64 .f32) (Ob : FVec F S64 .f32) (f1w : FVec F S64x128 .f32)
    (f1b : FVec F S128 .f32) (f2w : FVec F S128x64 .f32) (f2b g1 b1 g2 b2 : FVec F S64 .f32) : FVec F SNx64 .f32 :=
  bn (ffn (bn (proj x hattn Ow Ob) g1 b1) f1w f1b f2w f2b) g2 b2

end Cert.Tail

end
-- ==== Proof.KerTail.lean ====
/-
  The host operations that follow the kernel region, read as one function of the region's two results.
  The first stretch turns the per-edge messages and scores into the per-node attention output (two scatter-adds
  over the destination index, the expansion of the eight per-head sums to the 64 columns, a division) and
  applies the output projection with the first residual; the remaining stretches are the two batch
  normalisations and the feed-forward block. Each stretch is read buffer by buffer over an arbitrary
  valuation, and the seven are then composed along the concatenation.
-/
import proofs.«108813_j27779848470631_2_alg».proof.Proof.HostKI
import proofs.«108813_j27779848470631_2_alg».proof.Proof.Tail
import proofs.«108813_j27779848470631_2_alg».proof.Proof.KerAttnDef
import Idealize.ShloMosaic.Lib.StableHlo.Run

set_option maxRecDepth 16384

noncomputable section

namespace Cert.KernelIdeal.KerTail

open Cert.KernelIdeal Cert.KernelIdeal.Gen Cert.KernelIdeal.Hand
open Idealize.ShloMosaic Idealize.ShloMosaic.TcCoe Idealize.ShloMosaic.StableHlo

variable {F : FTy → Type} [FloatOps F]

/-! ## Buffers the later operations never write

No operation after the region writes a buffer below reference 43 (the arguments, the destination index, the
expansion matrix and the region's two results are all there). -/

theorem low1 (W : Valuation τ sig (Elt F)) (b : Ref sig .tc) (hb : b.idx.val < 43) :
    after hostOps1 W (Proc.devRef .tc b) = W (Proc.devRef .tc b) :=
  after_of_forall_not_mem _ _ (List.forall_iff_forall_mem.mp (keeps1 b hb))
theorem low1_1 (W : Valuation τ sig (Elt F)) (b : Ref sig .tc) (hb : b.idx.val < 43) :
    after hostOps1_1 W (Proc.devRef .tc b) = W (Proc.devRef .tc b) :=
  after_of_forall_not_mem _ _ (List.forall_iff_forall_mem.mp (keeps1_1 b hb))
theorem low1_2 (W : Valuation τ sig (Elt F)) (b : Ref sig .tc) (hb : b.idx.val < 43) :
    after hostOps1_2 W (Proc.devRef .tc b) = W (Proc.devRef .tc b) :=
  after_of_forall_not_mem _ _ (List.forall_iff_forall_mem.mp (keeps1_2 b hb))
theorem low1_3 (W : Valuation τ sig (Elt F)) (b : Ref sig .tc) (hb : b.idx.val < 43) :
    after hostOps1_3 W (Proc.devRef .tc b) = W (Proc.devRef .tc b) :=
  after_of_forall_not_mem _ _ (List.forall_iff_forall_mem.mp (keeps1_3 b hb))
theorem low1_4 (W : Valuation τ sig (Elt F)) (b : Ref sig .tc) (hb : b.idx.val < 43) :
    after hostOps1_4 W (Proc.devRef .tc b) = W (Proc.devRef .tc b) :=
  after_of_forall_not_mem _ _ (List.forall_iff_forall_mem.mp (keeps1_4 b hb))
theorem low1_5 (W : Valuation τ sig (Elt F)) (b : Ref sig .tc) (hb : b.idx.val < 43) :
    after hostOps1_5 W (Proc.devRef .tc b) = W (Proc.devRef .tc b) :=
  after_of_forall_not_mem _ _ (List.forall_iff_forall_mem.mp (keeps1_5 b hb))

/-! ## The first stretch: attention output, output projection with the residual, its column mean -/

set_option maxHeartbeats 2000000 in
theorem s1_v34 (W : Valuation τ sig (Elt F)) :
    after hostOps1 W (Proc.devRef .tc main_v34)
      = Cert.Tail.proj (W (Proc.devRef .tc main_arg0)) (hattnK (W (Proc.devRef .tc main_v18_0)) (W (Proc.devRef .tc main_v18_1)) (W (Proc.devRef .tc main_v3)) (W (Proc.devRef .tc main_cst_0))) (W (Proc.devRef .tc main_arg6)) (W (Proc.devRef .tc main_arg7)) := by
  dsimp only [hostOps1]
  after_results_simp
  rfl

set_option maxHeartbeats 2000000 in
theorem s1_v37 (W : Valuation τ sig (Elt F)) :
    after hostOps1 W (Proc.devRef .tc main_v37)
      = Cert.Tail.colMean (Cert.Tail.proj (W (Proc.devRef .tc main_arg0)) (hattnK (W (Proc.devRef .tc main_v18_0)) (W (Proc.devRef .tc main_v18_1)) (W (Proc.devRef .tc main_v3)) (W (Proc.devRef .tc main_cst_0))) (W (Proc.devRef .tc main_arg6)) (W (Proc.devRef .tc main_arg7))) := by
  dsimp only [hostOps1]
  after_results_simp
  rfl

set_option maxHeartbeats 2000000 in
theorem s1_c9 (W : Valuation τ sig (Elt F)) :
    after hostOps1 W (Proc.devRef .tc main_c_9) = constantI S_ 32 0#32 := by
  dsimp only [hostOps1]
  after_results_simp

/-! ## The second stretch: the biased column variance of the projection output -/

set_option maxHeartbeats 2000000 in
theorem s2_v38 (W : Valuation τ sig (Elt F)) (hc : W (Proc.devRef .tc main_c_9) = constantI S_ 32 0#32) :
    after hostOps1_1 W (Proc.devRef .tc main_v38) = Cert.Tail.colVar (W (Proc.devRef .tc main_v34)) := by
  dsimp only [hostOps1_1]
  after_results_simp
  simp only [TRef.ofBuf, TRef.toBuf, cast_eq, hc]
  rfl

set_option maxHeartbeats 2000000 in
theorem s2_v34 (W : Valuation τ sig (Elt F)) :
    after hostOps1_1 W (Proc.devRef .tc main_v34) = W (Proc.devRef .tc main_v34) := by
  dsimp only [hostOps1_1]
  after_results_simp

set_option maxHeartbeats 2000000 in
theorem s2_v37 (W : Valuation τ sig (Elt F)) :
    after hostOps1_1 W (Proc.devRef .tc main_v37) = W (Proc.devRef .tc main_v37) := by
  dsimp only [hostOps1_1]
  after_results_simp

/-! ## The third stretch: the first normalisation and the first feed-forward layer before the rectifier -/

set_option maxHeartbeats 2000000 in
theorem s3_v53 (W : Valuation τ sig (Elt F)) :
    after hostOps1_2 W (Proc.devRef .tc main_v53)
      = Cert.Tail.bnCore (W (Proc.devRef .tc main_v34)) (W (Proc.devRef .tc main_v37)) (W (Proc.devRef .tc main_v38)) (W (Proc.devRef .tc main_arg12)) (W (Proc.devRef .tc main_arg13)) := by
  dsimp only [hostOps1_2]
  after_results_simp
  rfl

set_option maxHeartbeats 2000000 in
theorem s3_v57 (W : Valuation τ sig (Elt F)) :
    after hostOps1_2 W (Proc.devRef .tc main_v57)
      = Cert.Tail.ffnPre (Cert.Tail.bnCore (W (Proc.devRef .tc main_v34)) (W (Proc.devRef .tc main_v37)) (W (Proc.devRef .tc main_v38)) (W (Proc.devRef .tc main_arg12)) (W (Proc.devRef .tc main_arg13)))
          (W (Proc.devRef .tc main_arg8)) (W (Proc.devRef .tc main_arg9)) := by
  dsimp only [hostOps1_2]
  after_results_simp
  rfl

/-! ## The fourth stretch: the rectifier -/

set_option maxHeartbeats 2000000 in
theorem s4_v58 (W : Valuation τ sig (Elt F)) :
    after hostOps1_3 W (Proc.devRef .tc main_v58) = Cert.Tail.relu (W (Proc.devRef .tc main_v57)) := by
  dsimp only [hostOps1_3]
  after_results_simp
  simp only [TRef.ofBuf, TRef.toBuf, cast_eq]
  rfl

set_option maxHeartbeats 2000000 in
theorem s4_v53 (W : Valuation τ sig (Elt F)) :
    after hostOps1_3 W (Proc.devRef .tc main_v53) = W (Proc.devRef .tc main_v53) := by
  dsimp only [hostOps1_3]
  after_results_simp

/-! ## The fifth stretch: the second feed-forward layer with the residual, its column mean -/

set_option maxHeartbeats 2000000 in
theorem s5_v63 (W : Valuation τ sig (Elt F)) :
    after hostOps1_4 W (Proc.devRef .tc main_v63)
      = Cert.Tail.ffnPost (W (Proc.devRef .tc main_v53)) (W (Proc.devRef .tc main_v58)) (W (Proc.devRef .tc main_arg10)) (W (Proc.devRef .tc main_arg11)) := by
  dsimp only [hostOps1_4]
  after_results_simp
  rfl

set_option maxHeartbeats 2000000 in
theorem s5_v66 (W : Valuation τ sig (Elt F)) :
    after hostOps1_4 W (Proc.devRef .tc main_v66)
      = Cert.Tail.colMean (Cert.Tail.ffnPost (W (Proc.devRef .tc main_v53)) (W (Proc.devRef .tc main_v58)) (W (Proc.devRef .tc main_arg10)) (W (Proc.devRef .tc main_arg11))) := by
  dsimp only [hostOps1_4]
  after_results_simp
  rfl

set_option maxHeartbeats 2000000 in
theorem s5_c13 (W : Valuation τ sig (Elt F)) :
    after hostOps1_4 W (Proc.devRef .tc main_c_13) = constantI S_ 32 0#32 := by
  dsimp only [hostOps1_4]
  after_results_simp

/-! ## The sixth stretch: the biased column variance of the feed-forward output -/

set_option maxHeartbeats 2000000 in
theorem s6_v67 (W : Valuation τ sig (Elt F)) (hc : W (Proc.devRef .tc main_c_13) = constantI S_ 32 0#32) :
    after hostOps1_5 W (Proc.devRef .tc main_v67) = Cert.Tail.colVar (W (Proc.devRef .tc main_v63)) := by
  dsimp only [hostOps1_5]
  after_results_simp
  simp only [TRef.ofBuf, TRef.toBuf, cast_eq, hc]
  rfl

set_option maxHeartbeats 2000000 in
theorem s6_v63 (W : Valuation τ sig (Elt F)) :
    after hostOps1_5 W (Proc.devRef .tc main_v63) = W (Proc.devRef .tc main_v63) := by
  dsimp only [hostOps1_5]
  after_results_simp

set_option maxHeartbeats 2000000 in
theorem s6_v66 (W : Valuation τ sig (Elt F)) :
    after hostOps1_5 W (Proc.devRef .tc main_v66) = W (Proc.devRef .tc main_v66) := by
  dsimp only [hostOps1_5]
  after_results_simp

/-! ## The seventh stretch: the second normalisation -/

set_option maxHeartbeats 2000000 in
theorem s7_v82 (W : Valuation τ sig (Elt F)) :
    after hostOps1_6 W (Proc.devRef .tc main_v82)
      = Cert.Tail.bnCore (W (Proc.devRef .tc main_v63)) (W (Proc.devRef .tc main_v66)) (W (Proc.devRef .tc main_v67)) (W (Proc.devRef .tc main_arg14)) (W (Proc.devRef .tc main_arg15)) := by
  dsimp only [hostOps1_6]
  after_results_simp
  rfl

/-! ## The seven stretches one after the other

The contents after each prefix of the stretches, in terms of the contents the first stretch starts from. -/

/-- The output projection with the first residual, of the attention output of the region's results. -/
abbrev projW (W : Valuation τ sig (Elt F)) : FVec F S50000x64 .f32 :=
  Cert.Tail.proj (W (Proc.devRef .tc main_arg0)) (hattnK (W (Proc.devRef .tc main_v18_0)) (W (Proc.devRef .tc main_v18_1)) (W (Proc.devRef .tc main_v3)) (W (Proc.devRef .tc main_cst_0))) (W (Proc.devRef .tc main_arg6)) (W (Proc.devRef .tc main_arg7))
/-- Its batch normalisation. -/
abbrev bn1W (W : Valuation τ sig (Elt F)) : FVec F S50000x64 .f32 :=
  Cert.Tail.bn (projW W) (W (Proc.devRef .tc main_arg12)) (W (Proc.devRef .tc main_arg13))
/-- The feed-forward block with the second residual on that. -/
abbrev ffnW (W : Valuation τ sig (Elt F)) : FVec F S50000x64 .f32 :=
  Cert.Tail.ffn (bn1W W) (W (Proc.devRef .tc main_arg8)) (W (Proc.devRef .tc main_arg9)) (W (Proc.devRef .tc main_arg10)) (W (Proc.devRef .tc main_arg11))

theorem lowTo2 (W : Valuation τ sig (Elt F)) (b : Ref sig .tc) (hb : b.idx.val < 43) : (after hostOps1_1 (after hostOps1 W)) (Proc.devRef .tc b) = W (Proc.devRef .tc b) := by
  rw [low1_1 _ b hb, low1 _ b hb]
theorem lowTo4 (W : Valuation τ sig (Elt F)) (b : Ref sig .tc) (hb : b.idx.val < 43) : (after hostOps1_3 (after hostOps1_2 (after hostOps1_1 (after hostOps1 W)))) (Proc.devRef .tc b) = W (Proc.devRef .tc b) := by
  rw [low1_3 _ b hb, low1_2 _ b hb, lowTo2 W b hb]
theorem lowTo6 (W : Valuation τ sig (Elt F)) (b : Ref sig .tc) (hb : b.idx.val < 43) : (after hostOps1_5 (after hostOps1_4 (after hostOps1_3 (after hostOps1_2 (after hostOps1_1 (after hostOps1 W)))))) (Proc.devRef .tc b) = W (Proc.devRef .tc b) := by
  rw [low1_5 _ b hb, low1_4 _ b hb, lowTo4 W b hb]

theorem c2_v34 (W : Valuation τ sig (Elt F)) : (after hostOps1_1 (after hostOps1 W)) (Proc.devRef .tc main_v34) = projW W := by
  rw [s2_v34, s1_v34]
theorem c2_v37 (W : Valuation τ sig (Elt F)) : (after hostOps1_1 (after hostOps1 W)) (Proc.devRef .tc main_v37) = Cert.Tail.colMean (projW W) := by
  rw [s2_v37, s1_v37]
theorem c2_v38 (W : Valuation τ sig (Elt F)) : (after hostOps1_1 (after hostOps1 W)) (Proc.devRef .tc main_v38) = Cert.Tail.colVar (projW W) := by
  rw [s2_v38 (after hostOps1 W) (s1_c9 W), s1_v34]

theorem c3_v53 (W : Valuation τ sig (Elt F)) : (after hostOps1_2 (after hostOps1_1 (after hostOps1 W))) (Proc.devRef .tc main_v53) = bn1W W := by
  rw [s3_v53, c2_v34, c2_v37, c2_v38, lowTo2 W main_arg12 (by decide), lowTo2 W main_arg13 (by decide)]
  rfl
theorem c3_v57 (W : Valuation τ sig (Elt F)) : (after hostOps1_2 (after hostOps1_1 (after hostOps1 W))) (Proc.devRef .tc main_v57) = Cert.Tail.ffnPre (bn1W W) (W (Proc.devRef .tc main_arg8)) (W (Proc.devRef .tc main_arg9)) := by
  rw [s3_v57, c2_v34, c2_v37, c2_v38, lowTo2 W main_arg12 (by decide), lowTo2 W main_arg13 (by decide),
    lowTo2 W main_arg8 (by decide), lowTo2 W main_arg9 (by decide)]
  rfl

theorem c4_v53 (W : Valuation τ sig (Elt F)) : (after hostOps1_3 (after hostOps1_2 (after hostOps1_1 (after hostOps1 W)))) (Proc.devRef .tc main_v53) = bn1W W := by
  rw [s4_v53, c3_v53]
theorem c4_v58 (W : Valuation τ sig (Elt F)) : (after hostOps1_3 (after hostOps1_2 (after hostOps1_1 (after hostOps1 W)))) (Proc.devRef .tc main_v58) = Cert.Tail.relu (Cert.Tail.ffnPre (bn1W W) (W (Proc.devRef .tc main_arg8)) (W (Proc.devRef .tc main_arg9))) := by
  rw [s4_v58, c3_v57]

theorem c5_v63 (W : Valuation τ sig (Elt F)) : (after hostOps1_4 (after hostOps1_3 (after hostOps1_2 (after hostOps1_1 (after hostOps1 W))))) (Proc.devRef .tc main_v63) = ffnW W := by
  rw [s5_v63, c4_v53, c4_v58, lowTo4 W main_arg10 (by decide), lowTo4 W main_arg11 (by decide)]
  rfl
theorem c5_v66 (W : Valuation τ sig (Elt F)) : (after hostOps1_4 (after hostOps1_3 (after hostOps1_2 (after hostOps1_1 (after hostOps1 W))))) (Proc.devRef .tc main_v66) = Cert.Tail.colMean (ffnW W) := by
  rw [s5_v66, c4_v53, c4_v58, lowTo4 W main_arg10 (by decide), lowTo4 W main_arg11 (by decide)]
  rfl

theorem c6_v63 (W : Valuation τ sig (Elt F)) : (after hostOps1_5 (after hostOps1_4 (after hostOps1_3 (after hostOps1_2 (after hostOps1_1 (after hostOps1 W)))))) (Proc.devRef .tc main_v63) = ffnW W := by
  rw [s6_v63, c5_v63]
theorem c6_v66 (W : Valuation τ sig (Elt F)) : (after hostOps1_5 (after hostOps1_4 (after hostOps1_3 (after hostOps1_2 (after hostOps1_1 (after hostOps1 W)))))) (Proc.devRef .tc main_v66) = Cert.Tail.colMean (ffnW W) := by
  rw [s6_v66, c5_v66]
theorem c6_v67 (W : Valuation τ sig (Elt F)) : (after hostOps1_5 (after hostOps1_4 (after hostOps1_3 (after hostOps1_2 (after hostOps1_1 (after hostOps1 W)))))) (Proc.devRef .tc main_v67) = Cert.Tail.colVar (ffnW W) := by
  rw [s6_v67 (after hostOps1_4 (after hostOps1_3 (after hostOps1_2 (after hostOps1_1 (after hostOps1 W))))) (s5_c13 (after hostOps1_3 (after hostOps1_2 (after hostOps1_1 (after hostOps1 W))))), c5_v63]

/-- The seven stretches run in order are the seventh after the sixth after … after the first. -/
theorem tail_split (W : Valuation τ sig (Elt F)) : after (tailOps (F := F)).flatten W = (after hostOps1_6 (after hostOps1_5 (after hostOps1_4 (after hostOps1_3 (after hostOps1_2 (after hostOps1_1 (after hostOps1 W))))))) := by
  simp only [tailOps, List.flatten_cons, List.flatten_nil, List.append_nil, after_append]

/-- What the host operations after the region leave in the program's result buffer: everything after attention,
    applied to the node features and to the attention output computed from the region's two results. -/
theorem ktail_eq (W : Valuation τ sig (Elt F)) :
    after (tailOps (F := F)).flatten W (Proc.devRef .tc main_v82)
      = Cert.Tail.tail (W (Proc.devRef .tc main_arg0)) (hattnK (W (Proc.devRef .tc main_v18_0)) (W (Proc.devRef .tc main_v18_1)) (W (Proc.devRef .tc main_v3)) (W (Proc.devRef .tc main_cst_0)))
          (W (Proc.devRef .tc main_arg6)) (W (Proc.devRef .tc main_arg7)) (W (Proc.devRef .tc main_arg8)) (W (Proc.devRef .tc main_arg9)) (W (Proc.devRef .tc main_arg10)) (W (Proc.devRef .tc main_arg11))
          (W (Proc.devRef .tc main_arg12)) (W (Proc.devRef .tc main_arg13)) (W (Proc.devRef .tc main_arg14)) (W (Proc.devRef .tc main_arg15)) := by
  rw [tail_split, s7_v82, c6_v63, c6_v66, c6_v67, lowTo6 W main_arg14 (by decide), lowTo6 W main_arg15 (by decide)]
  rfl

end Cert.KernelIdeal.KerTail

end
-- ==== Proof.KerRun.lean ====
/-
  The kernel program's run, with its result named. After the region the message and score arrays hold the whole-array
  functions of the launch arrays; the host operations after the region turn them into the attention output and apply the
  rest of the layer. So every weakly fair execution ends with the result buffer at the rest of the layer applied to the
  shared attention array, and with the seventeen argument arrays as launched.
-/
import proofs.«108813_j27779848470631_2_alg».proof.Proof.KerFinal
import proofs.«108813_j27779848470631_2_alg».proof.Proof.KerArr
import proofs.«108813_j27779848470631_2_alg».proof.Proof.KerTail

set_option maxRecDepth 16384

noncomputable section

namespace Cert.KernelIdeal.Hand

open Cert.KernelIdeal Cert.KernelIdeal.Gen
open Cert.AttnArr (attnArr)
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What the host operations after the region start from: the region's arrays as the proof data leave them, every other
    buffer as the region was entered with it. -/
abbrev Wc (c : Dev nD) : Valuation τ sig (Elt Ideal) :=
  Pipeline.withArrays spec0 c (V0 m c) fun w => (dats m 0 c).arrAt w cfg0.N

theorem Wc_low (c : Dev nD) (b : Ref sig .tc) (hb : b.idx.val < 17) (hne : ∀ w, Pipeline.arrRef spec0 w ≠ b) :
    Wc m c (Proc.devRef .tc b) = m ((c : Thread nD τ).loc b) :=
  (Pipeline.withArrays_of_ne spec0 c (V0 m c) _ b hne).trans (V_low m c b hb)

theorem Wc_v3 (c : Dev nD) : Wc m c (Proc.devRef .tc main_v3) = V m c main_v3 :=
  Pipeline.withArrays_of_ne spec0 c (V0 m c) _ main_v3 (by decide)

theorem Wc_msg (c : Dev nD) : Wc m c (Proc.devRef .tc main_v18_0) = msgArr (V m c main_arg1) (V m c main_v10) (V m c main_v17) (V m c main_arg2) (V m c main_arg3) (V m c main_arg5) (V m c main_arg4) (V m c main_cst) (V m c main_cst_0) :=
  (Pipeline.withArrays_arr spec0 launch0.win.arr_inj c (V0 m c) _ 9).trans (final9 m c)

theorem Wc_score (c : Dev nD) : Wc m c (Proc.devRef .tc main_v18_1) = scoreArr (V m c main_arg1) (V m c main_v10) (V m c main_v17) (V m c main_arg2) (V m c main_arg3) (V m c main_arg4) (V m c main_cst) :=
  (Pipeline.withArrays_arr spec0 launch0.win.arr_inj c (V0 m c) _ 10).trans (final10 m c)

theorem Wc_xtbl (c : Dev nD) : Wc m c (Proc.devRef .tc main_cst_0) = V m c main_cst_0 :=
  (Pipeline.withArrays_arr spec0 launch0.win.arr_inj c (V0 m c) _ 8).trans (((dats m 0 c).arrAt_in 8 rfl _).trans (A_eq m c 8))

/-- The attention output the host computes from the region's arrays is the shared attention array. -/
theorem kerAttn_eq (c : Dev nD) :
    hattnK (F := Ideal) (msgArr (V m c main_arg1) (V m c main_v10) (V m c main_v17) (V m c main_arg2) (V m c main_arg3) (V m c main_arg5) (V m c main_arg4) (V m c main_cst) (V m c main_cst_0)) (scoreArr (V m c main_arg1) (V m c main_v10) (V m c main_v17) (V m c main_arg2) (V m c main_arg3) (V m c main_arg4) (V m c main_cst)) (V m c main_v3) (V m c main_cst_0)
      = attnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg16)) := by
  funext i
  obtain ⟨n, j, rfl⟩ : ∃ (n : Fin 50000) (j : Fin 64), i = ix2 n j := ⟨i 0, i 1, eq_ix2 i⟩
  exact kerAttn_apply m c n j

/-- The result buffer after the later host operations. -/
theorem ker_value (c : Dev nD) : Pipeline.afterTail₀ cfgs (dats m) 0 (V0 m) tailOps c main_v82
    = Cert.Tail.tail (F := Ideal) (m ((c : Thread nD τ).loc main_arg0)) (attnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg16))) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold Pipeline.afterTail₀
  show StableHlo.after (tailOps (F := Ideal)).flatten (Wc m c) (Proc.devRef .tc main_v82) = _
  rw [Cert.KernelIdeal.KerTail.ktail_eq (Wc m c), Wc_msg, Wc_score, Wc_v3, Wc_xtbl, kerAttn_eq,
    Wc_low m c main_arg0 (by decide) (by decide), Wc_low m c main_arg6 (by decide) (by decide),
    Wc_low m c main_arg7 (by decide) (by decide), Wc_low m c main_arg8 (by decide) (by decide),
    Wc_low m c main_arg9 (by decide) (by decide), Wc_low m c main_arg10 (by decide) (by decide),
    Wc_low m c main_arg11 (by decide) (by decide), Wc_low m c main_arg12 (by decide) (by decide),
    Wc_low m c main_arg13 (by decide) (by decide), Wc_low m c main_arg14 (by decide) (by decide),
    Wc_low m c main_arg15 (by decide) (by decide)]

/-- The run, read. -/
theorem run_value : θ_run defs (onTc (τ := τ) (main (F := Ideal))) ⟨m, fun _ => 0, ρ⟩ (fun r => ∀ c : Dev nD,
      r.2.mem ((c.tc : Thread nD τ).loc main_v82) = Cert.Tail.tail (F := Ideal) (m ((c.tc : Thread nD τ).loc main_arg0)) (attnArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg16))) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v82 (Pipeline.mem_restRefs_of main_v82 (by decide) (by decide))).trans (ker_value m c),
      ((h c).2 main_arg0 (Pipeline.mem_restRefs_of main_arg0 (by decide) (by decide))).trans ((W_low m (dats m) c main_arg0 (by decide) (by decide)).trans (V_low m c main_arg0 (by decide))),
      ((h c).1 0).trans ((((dats m) 0 c).arrAt_in 0 rfl _).trans ((A_eq m c 0).trans (V_low m c main_arg1 (by decide)))),
      ((h c).1 3).trans ((((dats m) 0 c).arrAt_in 3 rfl _).trans ((A_eq m c 3).trans (V_low m c main_arg2 (by decide)))),
      ((h c).1 4).trans ((((dats m) 0 c).arrAt_in 4 rfl _).trans ((A_eq m c 4).trans (V_low m c main_arg3 (by decide)))),
      ((h c).1 6).trans ((((dats m) 0 c).arrAt_in 6 rfl _).trans ((A_eq m c 6).trans (V_low m c main_arg4 (by decide)))),
      ((h c).1 5).trans ((((dats m) 0 c).arrAt_in 5 rfl _).trans ((A_eq m c 5).trans (V_low m c main_arg5 (by decide)))),
      ((h c).2 main_arg6 (Pipeline.mem_restRefs_of main_arg6 (by decide) (by decide))).trans ((W_low m (dats m) c main_arg6 (by decide) (by decide)).trans (V_low m c main_arg6 (by decide))),
      ((h c).2 main_arg7 (Pipeline.mem_restRefs_of main_arg7 (by decide) (by decide))).trans ((W_low m (dats m) c main_arg7 (by decide) (by decide)).trans (V_low m c main_arg7 (by decide))),
      ((h c).2 main_arg8 (Pipeline.mem_restRefs_of main_arg8 (by decide) (by decide))).trans ((W_low m (dats m) c main_arg8 (by decide) (by decide)).trans (V_low m c main_arg8 (by decide))),
      ((h c).2 main_arg9 (Pipeline.mem_restRefs_of main_arg9 (by decide) (by decide))).trans ((W_low m (dats m) c main_arg9 (by decide) (by decide)).trans (V_low m c main_arg9 (by decide))),
      ((h c).2 main_arg10 (Pipeline.mem_restRefs_of main_arg10 (by decide) (by decide))).trans ((W_low m (dats m) c main_arg10 (by decide) (by decide)).trans (V_low m c main_arg10 (by decide))),
      ((h c).2 main_arg11 (Pipeline.mem_restRefs_of main_arg11 (by decide) (by decide))).trans ((W_low m (dats m) c main_arg11 (by decide) (by decide)).trans (V_low m c main_arg11 (by decide))),
      ((h c).2 main_arg12 (Pipeline.mem_restRefs_of main_arg12 (by decide) (by decide))).trans ((W_low m (dats m) c main_arg12 (by decide) (by decide)).trans (V_low m c main_arg12 (by decide))),
      ((h c).2 main_arg13 (Pipeline.mem_restRefs_of main_arg13 (by decide) (by decide))).trans ((W_low m (dats m) c main_arg13 (by decide) (by decide)).trans (V_low m c main_arg13 (by decide))),
      ((h c).2 main_arg14 (Pipeline.mem_restRefs_of main_arg14 (by decide) (by decide))).trans ((W_low m (dats m) c main_arg14 (by decide) (by decide)).trans (V_low m c main_arg14 (by decide))),
      ((h c).2 main_arg15 (Pipeline.mem_restRefs_of main_arg15 (by decide) (by decide))).trans ((W_low m (dats m) c main_arg15 (by decide) (by decide)).trans (V_low m c main_arg15 (by decide))),
      ((h c).2 main_arg16 (Pipeline.mem_restRefs_of main_arg16 (by decide) (by decide))).trans ((W_low m (dats m) c main_arg16 (by decide) (by decide)).trans (V_low m c main_arg16 (by decide)))⟩) (run_main m ρ)

end Cert.KernelIdeal.Hand

end
-- ==== Proof.RefRun.lean ====
/- The reference program's run. @main of the reference is a straight line of host tensor operations: its own, and at
   each call of a module-local function that function's operations over the buffers the call names. Here the line is
   written out as a list, in execution order, cut into stretches (one per call, and one cut after the operation that
   merges the attention heads back into 64 channels); @main is shown equal to the sequence of that list; the run of a
   sequence then gives, for every buffer, its final contents as the fold of the operations' results over the launch
   contents. No operation writes an argument buffer, so the arguments end as they began: the frame. -/
import proofs.«108813_j27779848470631_2_alg».proof.Defs
import proofs.«108813_j27779848470631_2_alg».proof.Proof.Gen.ReferenceIdeal
import proofs.«108813_j27779848470631_2_alg».proof.Proof.Gen.Pre_finite_inputs
import Idealize.ShloMosaic.Lib.StableHlo.Run
import Idealize.ShloMosaic.Lib.Pipeline.Regions
import Idealize.ShloMosaic.Lib.Pipeline.Frame

noncomputable section

namespace Cert.ReferenceIdeal.RefRun

open Cert.ReferenceIdeal Idealize.ShloMosaic Idealize.ShloMosaic.TcCoe Idealize.SL.Sem
open Cert.ReferenceIdeal.Facts₀

variable {F : FTy → Type} [FloatOps F] [hReferenceIdeal : Cert.ReferenceIdeal.Facts]

/-! ## The operations, in execution order -/

/-- The four input projections q, k, v (of the node features) and e (of the edge features) split into 8 heads of 8, the two index rows of the edge list with negative entries wrapped by the node count, the per-edge gathers of k and q, and the per-edge, per-head score: the product k·q·(1/√8)·e summed over the head's 8 channels; last the two clipping bounds −5 and 5. (40 operations.) -/
abbrev opsScore : List (HloOp τ sig (Elt F)) :=
  [ StableHlo.binary main_arg0 main_arg2 main_v0 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.reshape main_v0 main_v1 rfl shapeCasts_S50000x64_S50000x8x8,
    StableHlo.binary main_arg0 main_arg3 main_v2 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.reshape main_v2 main_v3 rfl shapeCasts_S50000x64_S50000x8x8,
    StableHlo.binary main_arg0 main_arg5 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.reshape main_v4 main_v5 rfl shapeCasts_S50000x64_S50000x8x8,
    StableHlo.binary main_arg1 main_arg4 main_v6 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.reshape main_v6 main_v7 rfl shapeCasts_S800000x64_S800000x8x8,
    StableHlo.unary main_arg16 main_v8 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v8 main_v9 rfl shapeCasts_S1x800000_S800000,
    StableHlo.unary main_arg16 main_v10 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v10 main_v11 rfl shapeCasts_S1x800000_S800000,
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v9 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v14 (broadcastInDim S800000 ![] bcast_S_S800000 : (⟨S_, .i32⟩ : BufTy).Contents (Elt F) → (⟨S800000, .i32⟩ : BufTy).Contents (Elt F)),
    StableHlo.binary main_v9 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v9 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_v3 main_v17 main_v18 ((fun x i => Host.gather gather_S50000x8x8_S800000x1_S800000x8x8_12_0_n_n_0_1_188 x i) : (⟨S50000x8x8, .f32⟩ : BufTy).Contents (Elt F) → (⟨S800000x1, .i32⟩ : BufTy).Contents (Elt F) → (⟨S800000x8x8, .f32⟩ : BufTy).Contents (Elt F)),
    StableHlo.nullary main_c_1 (constantI S_ 32 0#32),
    StableHlo.unary main_c_1 main_v19 (broadcastInDim S800000 ![] bcast_S_S800000 : (⟨S_, .i32⟩ : BufTy).Contents (Elt F) → (⟨S800000, .i32⟩ : BufTy).Contents (Elt F)),
    StableHlo.binary main_v11 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v21 (broadcastInDim S800000 ![] bcast_S_S800000 : (⟨S_, .i32⟩ : BufTy).Contents (Elt F) → (⟨S800000, .i32⟩ : BufTy).Contents (Elt F)),
    StableHlo.binary main_v11 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v11 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v1 main_v24 main_v25 ((fun x i => Host.gather gather_S50000x8x8_S800000x1_S800000x8x8_12_0_n_n_0_1_188 x i) : (⟨S50000x8x8, .f32⟩ : BufTy).Contents (Elt F) → (⟨S800000x1, .i32⟩ : BufTy).Contents (Elt F) → (⟨S800000x8x8, .f32⟩ : BufTy).Contents (Elt F)),
    StableHlo.binary main_v18 main_v25 main_v26 (mulf : (⟨S800000x8x8, .f32⟩ : BufTy).Contents (Elt F) → (⟨S800000x8x8, .f32⟩ : BufTy).Contents (Elt F) → (⟨S800000x8x8, .f32⟩ : BufTy).Contents (Elt F)),
    StableHlo.nullary main_cst (constant S_ .f32 0x3EB504F3#32),
    StableHlo.unary main_cst main_v27 (broadcastInDim S800000x8x8 ![] bcast_S_S800000x8x8 : (⟨S_, .f32⟩ : BufTy).Contents (Elt F) → (⟨S800000x8x8, .f32⟩ : BufTy).Contents (Elt F)),
    StableHlo.binary main_v26 main_v27 main_v28 (mulf : (⟨S800000x8x8, .f32⟩ : BufTy).Contents (Elt F) → (⟨S800000x8x8, .f32⟩ : BufTy).Contents (Elt F) → (⟨S800000x8x8, .f32⟩ : BufTy).Contents (Elt F)),
    StableHlo.binary main_v28 main_v7 main_v29 (mulf : (⟨S800000x8x8, .f32⟩ : BufTy).Contents (Elt F) → (⟨S800000x8x8, .f32⟩ : BufTy).Contents (Elt F) → (⟨S800000x8x8, .f32⟩ : BufTy).Contents (Elt F)),
    StableHlo.nullary main_cst_3 (constant S_ .f32 0x00000000#32),
    StableHlo.binary main_v29 main_cst_3 main_v30 ((fun x v => Host.reduceAdd x v reducesTo_S800000x8x8_S800000x8_d2 h_S_) : (⟨S800000x8x8, .f32⟩ : BufTy).Contents (Elt F) → (⟨S_, .f32⟩ : BufTy).Contents (Elt F) → (⟨S800000x8, .f32⟩ : BufTy).Contents (Elt F)),
    StableHlo.unary main_v30 main_v31 (broadcastInDim S800000x8x1 ![0, 1] bcast_S800000x8_S800000x8x1_0_1 : (⟨S800000x8, .f32⟩ : BufTy).Contents (Elt F) → (⟨S800000x8x1, .f32⟩ : BufTy).Contents (Elt F)),
    StableHlo.nullary main_cst_4 (constant S_ .f32 0xC0A00000#32),
    StableHlo.nullary main_cst_5 (constant S_ .f32 0x40A00000#32) ]

/-- The score clipped to [−5, 5]: min(5, max(−5, s)), each bound broadcast over edges and heads. (6 operations.) -/
abbrev opsClip : List (HloOp τ sig (Elt F)) :=
  [ StableHlo.TRef.unary (.of main_cst_4 : StableHlo.TRef sig ⟨S_, .f32⟩) main_call0.v0 id,
    StableHlo.TRef.unary main_call0.v0 main_call0.v1 (broadcastInDim S800000x8x1 ![] bcast_S_S800000x8x1),
    StableHlo.TRef.binary main_call0.v1 (.of main_v31 : StableHlo.TRef sig ⟨S800000x8x1, .f32⟩) main_call0.v2 maximumf,
    StableHlo.TRef.unary (.of main_cst_5 : StableHlo.TRef sig ⟨S_, .f32⟩) main_call0.v3 id,
    StableHlo.TRef.unary main_call0.v3 main_call0.v4 (broadcastInDim S800000x8x1 ![] bcast_S_S800000x8x1),
    StableHlo.TRef.binary main_call0.v4 main_call0.v2 main_call0.v5 minimumf ]

/-- The exponential of the clipped score; the source row wrapped and v gathered along it; the weighted messages v·exp(s); the zero accumulator and the scatter-add of the messages by target node; the zero accumulator and the index column of the weights' scatter-add. (19 operations.) -/
abbrev opsMsg : List (HloOp τ sig (Elt F)) :=
  [ StableHlo.unary main_v32 main_v33 (Host.exp : (⟨S800000x8x1, .f32⟩ : BufTy).Contents (Elt F) → (⟨S800000x8x1, .f32⟩ : BufTy).Contents (Elt F)),
    StableHlo.nullary main_c_6 (constantI S_ 32 0#32),
    StableHlo.unary main_c_6 main_v34 (broadcastInDim S800000 ![] bcast_S_S800000 : (⟨S_, .i32⟩ : BufTy).Contents (Elt F) → (⟨S800000, .i32⟩ : BufTy).Contents (Elt F)),
    StableHlo.binary main_v9 main_v34 main_v35 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v36 (broadcastInDim S800000 ![] bcast_S_S800000 : (⟨S_, .i32⟩ : BufTy).Contents (Elt F) → (⟨S800000, .i32⟩ : BufTy).Contents (Elt F)),
    StableHlo.binary main_v9 main_v36 main_v37 (addi : (⟨S800000, .i32⟩ : BufTy).Contents (Elt F) → (⟨S800000, .i32⟩ : BufTy).Contents (Elt F) → (⟨S800000, .i32⟩ : BufTy).Contents (Elt F)),
    StableHlo.ternary main_v35 main_v37 main_v9 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v38 main_v39 (broadcastInDim S800000x1 ![0] bcast_S800000_S800000x1_0 : (⟨S800000, .i32⟩ : BufTy).Contents (Elt F) → (⟨S800000x1, .i32⟩ : BufTy).Contents (Elt F)),
    StableHlo.binary main_v5 main_v39 main_v40 ((fun x i => Host.gather gather_S50000x8x8_S800000x1_S800000x8x8_12_0_n_n_0_1_188 x i) : (⟨S50000x8x8, .f32⟩ : BufTy).Contents (Elt F) → (⟨S800000x1, .i32⟩ : BufTy).Contents (Elt F) → (⟨S800000x8x8, .f32⟩ : BufTy).Contents (Elt F)),
    StableHlo.unary main_v33 main_v41 (broadcastInDim S800000x8x8 ![0, 1, 2] bcast_S800000x8x1_S800000x8x8_0_1_2 : (⟨S800000x8x1, .f32⟩ : BufTy).Contents (Elt F) → (⟨S800000x8x8, .f32⟩ : BufTy).Contents (Elt F)),
    StableHlo.binary main_v40 main_v41 main_v42 (mulf : (⟨S800000x8x8, .f32⟩ : BufTy).Contents (Elt F) → (⟨S800000x8x8, .f32⟩ : BufTy).Contents (Elt F) → (⟨S800000x8x8, .f32⟩ : BufTy).Contents (Elt F)),
    StableHlo.nullary main_cst_8 (constant S_ .f32 0x00000000#32),
    StableHlo.unary main_cst_8 main_v43 (broadcastInDim S50000x8x8 ![] bcast_S_S50000x8x8 : (⟨S_, .f32⟩ : BufTy).Contents (Elt F) → (⟨S50000x8x8, .f32⟩ : BufTy).Contents (Elt F)),
    StableHlo.unary main_v11 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x8x8_S800000x1_S800000x8x8_12_0_0_1 x i u) : (⟨S50000x8x8, .f32⟩ : BufTy).Contents (Elt F) → (⟨S800000x1, .i32⟩ : BufTy).Contents (Elt F) → (⟨S800000x8x8, .f32⟩ : BufTy).Contents (Elt F) → (⟨S50000x8x8, .f32⟩ : BufTy).Contents (Elt F)),
    StableHlo.nullary main_cst_9 (constant S_ .f32 0x00000000#32),
    StableHlo.unary main_cst_9 main_v46 (broadcastInDim S50000x8x1 ![] bcast_S_S50000x8x1 : (⟨S_, .f32⟩ : BufTy).Contents (Elt F) → (⟨S50000x8x1, .f32⟩ : BufTy).Contents (Elt F)),
    StableHlo.unary main_v11 main_v47 (broadcastInDim S800000x1 ![0] bcast_S800000_S800000x1_0 : (⟨S800000, .i32⟩ : BufTy).Contents (Elt F) → (⟨S800000x1, .i32⟩ : BufTy).Contents (Elt F)) ]

/-- The scatter-add of the weights by target node, plus 1e-6, broadcast over the head's channels; the quotient messages / weights; the heads merged back to 64 channels. (7 operations.) -/
abbrev opsNorm : List (HloOp τ sig (Elt F)) :=
  [ StableHlo.ternary main_v46 main_v47 main_v33 main_v48 ((fun x i u => Host.scatterAdd scatter_S50000x8x1_S800000x1_S800000x8x1_12_0_0_1 x i u) : (⟨S50000x8x1, .f32⟩ : BufTy).Contents (Elt F) → (⟨S800000x1, .i32⟩ : BufTy).Contents (Elt F) → (⟨S800000x8x1, .f32⟩ : BufTy).Contents (Elt F) → (⟨S50000x8x1, .f32⟩ : BufTy).Contents (Elt F)),
    StableHlo.nullary main_cst_10 (constant S_ .f32 0x358637BD#32),
    StableHlo.unary main_cst_10 main_v49 (broadcastInDim S50000x8x1 ![] bcast_S_S50000x8x1 : (⟨S_, .f32⟩ : BufTy).Contents (Elt F) → (⟨S50000x8x1, .f32⟩ : BufTy).Contents (Elt F)),
    StableHlo.binary main_v48 main_v49 main_v50 (addf : (⟨S50000x8x1, .f32⟩ : BufTy).Contents (Elt F) → (⟨S50000x8x1, .f32⟩ : BufTy).Contents (Elt F) → (⟨S50000x8x1, .f32⟩ : BufTy).Contents (Elt F)),
    StableHlo.unary main_v50 main_v51 (broadcastInDim S50000x8x8 ![0, 1, 2] bcast_S50000x8x1_S50000x8x8_0_1_2 : (⟨S50000x8x1, .f32⟩ : BufTy).Contents (Elt F) → (⟨S50000x8x8, .f32⟩ : BufTy).Contents (Elt F)),
    StableHlo.binary main_v45 main_v51 main_v52 (Host.divf : (⟨S50000x8x8, .f32⟩ : BufTy).Contents (Elt F) → (⟨S50000x8x8, .f32⟩ : BufTy).Contents (Elt F) → (⟨S50000x8x8, .f32⟩ : BufTy).Contents (Elt F)),
    StableHlo.reshape main_v52 main_v53 rfl shapeCasts_S50000x8x8_S50000x64 ]

/-- The output projection with its bias, the first residual sum h₁ = x + attn·Wo + bo, and its per-channel mean over the 50000 nodes (sum divided by 50000). (11 operations.) -/
abbrev opsOut : List (HloOp τ sig (Elt F)) :=
  [ StableHlo.binary main_v53 main_arg6 main_v54 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg7 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v54 main_v56 main_v57 (addf : (⟨S50000x64, .f32⟩ : BufTy).Contents (Elt F) → (⟨S50000x64, .f32⟩ : BufTy).Contents (Elt F) → (⟨S50000x64, .f32⟩ : BufTy).Contents (Elt F)),
    StableHlo.binary main_arg0 main_v57 main_v58 (addf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x00000000#32),
    StableHlo.binary main_v58 main_cst_11 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_12 (constant S_ .f32 0x47435000#32),
    StableHlo.unary main_cst_12 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32) ]

/-- The per-channel variance of h₁: the mean again, the squared deviations summed and divided by 50000 − 0, selected against NaN by the sign of that divisor. (22 operations.) -/
abbrev opsVar1 : List (HloOp τ sig (Elt F)) :=
  [ StableHlo.TRef.nullary main_call1.cst (constant S_ .f32 0x00000000#32),
    StableHlo.TRef.binary (.of main_v58 : StableHlo.TRef sig ⟨S50000x64, .f32⟩) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v58 : StableHlo.TRef sig ⟨S50000x64, .f32⟩) main_call1.v4 main_call1.v5 subf,
    StableHlo.TRef.binary main_call1.v5 main_call1.v5 main_call1.v6 mulf,
    StableHlo.TRef.unary (.of main_c_13 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

/-- The first normalisation: γ₁·(h₁ − mean)·rsqrt(var + 1e-5) + β₁ = h₂; then the first dense layer h₂·W₁ + b₁. (20 operations.) -/
abbrev opsLn1 : List (HloOp τ sig (Elt F)) :=
  [ StableHlo.unary main_v61 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v58 main_v64 main_v65 (subf : (⟨S50000x64, .f32⟩ : BufTy).Contents (Elt F) → (⟨S50000x64, .f32⟩ : BufTy).Contents (Elt F) → (⟨S50000x64, .f32⟩ : BufTy).Contents (Elt F)),
    StableHlo.unary main_arg12 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S50000x64 ![0, 1] bcast_S1x64_S50000x64_0_1 : (⟨S1x64, .f32⟩ : BufTy).Contents (Elt F) → (⟨S50000x64, .f32⟩ : BufTy).Contents (Elt F)),
    StableHlo.binary main_v67 main_v65 main_v68 (mulf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x3727C5AC#32),
    StableHlo.unary main_cst_14 main_v69 (broadcastInDim S64 ![] bcast_S_S64 : (⟨S_, .f32⟩ : BufTy).Contents (Elt F) → (⟨S64, .f32⟩ : BufTy).Contents (Elt F)),
    StableHlo.binary main_v62 main_v69 main_v70 (addf : (⟨S64, .f32⟩ : BufTy).Contents (Elt F) → (⟨S64, .f32⟩ : BufTy).Contents (Elt F) → (⟨S64, .f32⟩ : BufTy).Contents (Elt F)),
    StableHlo.unary main_v70 main_v71 (Host.rsqrt : (⟨S64, .f32⟩ : BufTy).Contents (Elt F) → (⟨S64, .f32⟩ : BufTy).Contents (Elt F)),
    StableHlo.unary main_v71 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S50000x64 ![0, 1] bcast_S1x64_S50000x64_0_1 : (⟨S1x64, .f32⟩ : BufTy).Contents (Elt F) → (⟨S50000x64, .f32⟩ : BufTy).Contents (Elt F)),
    StableHlo.binary main_v68 main_v73 main_v74 (mulf : (⟨S50000x64, .f32⟩ : BufTy).Contents (Elt F) → (⟨S50000x64, .f32⟩ : BufTy).Contents (Elt F) → (⟨S50000x64, .f32⟩ : BufTy).Contents (Elt F)),
    StableHlo.unary main_arg13 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S50000x64 ![0, 1] bcast_S1x64_S50000x64_0_1 : (⟨S1x64, .f32⟩ : BufTy).Contents (Elt F) → (⟨S50000x64, .f32⟩ : BufTy).Contents (Elt F)),
    StableHlo.binary main_v74 main_v76 main_v77 (addf : (⟨S50000x64, .f32⟩ : BufTy).Contents (Elt F) → (⟨S50000x64, .f32⟩ : BufTy).Contents (Elt F) → (⟨S50000x64, .f32⟩ : BufTy).Contents (Elt F)),
    StableHlo.binary main_v77 main_arg8 main_v78 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v80 main_v81 (addf : (⟨S50000x128, .f32⟩ : BufTy).Contents (Elt F) → (⟨S50000x128, .f32⟩ : BufTy).Contents (Elt F) → (⟨S50000x128, .f32⟩ : BufTy).Contents (Elt F)) ]

/-- max(·, 0) of the first dense layer. (3 operations.) -/
abbrev opsRelu : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v81 : StableHlo.TRef sig ⟨S50000x128, .f32⟩) main_call2.v0 main_call2.v1 maximumf ]

/-- The second dense layer with its bias, the second residual sum h₃ = h₂ + relu(…)·W₂ + b₂, and its per-channel mean. (11 operations.) -/
abbrev opsFfn : List (HloOp τ sig (Elt F)) :=
  [ StableHlo.binary main_v82 main_arg10 main_v83 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S50000x64 ![0, 1] bcast_S1x64_S50000x64_0_1 : (⟨S1x64, .f32⟩ : BufTy).Contents (Elt F) → (⟨S50000x64, .f32⟩ : BufTy).Contents (Elt F)),
    StableHlo.binary main_v83 main_v85 main_v86 (addf : (⟨S50000x64, .f32⟩ : BufTy).Contents (Elt F) → (⟨S50000x64, .f32⟩ : BufTy).Contents (Elt F) → (⟨S50000x64, .f32⟩ : BufTy).Contents (Elt F)),
    StableHlo.binary main_v77 main_v86 main_v87 (addf : (⟨S50000x64, .f32⟩ : BufTy).Contents (Elt F) → (⟨S50000x64, .f32⟩ : BufTy).Contents (Elt F) → (⟨S50000x64, .f32⟩ : BufTy).Contents (Elt F)),
    StableHlo.nullary main_cst_15 (constant S_ .f32 0x00000000#32),
    StableHlo.binary main_v87 main_cst_15 main_v88 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v89 (broadcastInDim S64 ![] bcast_S_S64 : (⟨S_, .f32⟩ : BufTy).Contents (Elt F) → (⟨S64, .f32⟩ : BufTy).Contents (Elt F)),
    StableHlo.binary main_v88 main_v89 main_v90 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32) ]

/-- The per-channel variance of h₃, as for h₁. (22 operations.) -/
abbrev opsVar2 : List (HloOp τ sig (Elt F)) :=
  [ StableHlo.TRef.nullary main_call3.cst (constant S_ .f32 0x00000000#32),
    StableHlo.TRef.binary (.of main_v87 : StableHlo.TRef sig ⟨S50000x64, .f32⟩) main_call3.cst main_call3.v0 (fun x v => Host.reduceAdd x v reducesTo_S50000x64_S64_d0 h_S_),
    StableHlo.TRef.unary main_call3.v0 main_call3.v1 (broadcastInDim S1x64 ![1] bcast_S64_S1x64_1),
    StableHlo.TRef.nullary main_call3.cst_0 (constant S_ .f32 0x47435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S50000x64 ![0, 1] bcast_S1x64_S50000x64_0_1),
    StableHlo.TRef.binary (.of main_v87 : StableHlo.TRef sig ⟨S50000x64, .f32⟩) main_call3.v4 main_call3.v5 subf,
    StableHlo.TRef.binary main_call3.v5 main_call3.v5 main_call3.v6 mulf,
    StableHlo.TRef.unary (.of main_c_17 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b) ]

/-- The second normalisation up to its epsilon: γ₂·(h₃ − mean), and 1e-5 broadcast over the channels. (8 operations.) -/
abbrev opsLn2a : List (HloOp τ sig (Elt F)) :=
  [ StableHlo.unary main_v90 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v93 main_v94 (subf : (⟨S50000x64, .f32⟩ : BufTy).Contents (Elt F) → (⟨S50000x64, .f32⟩ : BufTy).Contents (Elt F) → (⟨S50000x64, .f32⟩ : BufTy).Contents (Elt F)),
    StableHlo.unary main_arg14 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S50000x64 ![0, 1] bcast_S1x64_S50000x64_0_1 : (⟨S1x64, .f32⟩ : BufTy).Contents (Elt F) → (⟨S50000x64, .f32⟩ : BufTy).Contents (Elt F)),
    StableHlo.binary main_v96 main_v94 main_v97 (mulf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v98 (broadcastInDim S64 ![] bcast_S_S64 : (⟨S_, .f32⟩ : BufTy).Contents (Elt F) → (⟨S64, .f32⟩ : BufTy).Contents (Elt F)) ]

/-- The rest of the second normalisation: ·rsqrt(var + 1e-5) + β₂, the result. (8 operations.) -/
abbrev opsLn2b : List (HloOp τ sig (Elt F)) :=
  [ StableHlo.binary main_v91 main_v98 main_v99 (addf : (⟨S64, .f32⟩ : BufTy).Contents (Elt F) → (⟨S64, .f32⟩ : BufTy).Contents (Elt F) → (⟨S64, .f32⟩ : BufTy).Contents (Elt F)),
    StableHlo.unary main_v99 main_v100 (Host.rsqrt : (⟨S64, .f32⟩ : BufTy).Contents (Elt F) → (⟨S64, .f32⟩ : BufTy).Contents (Elt F)),
    StableHlo.unary main_v100 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v97 main_v102 main_v103 (mulf : (⟨S50000x64, .f32⟩ : BufTy).Contents (Elt F) → (⟨S50000x64, .f32⟩ : BufTy).Contents (Elt F) → (⟨S50000x64, .f32⟩ : BufTy).Contents (Elt F)),
    StableHlo.unary main_arg15 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S50000x64 ![0, 1] bcast_S1x64_S50000x64_0_1 : (⟨S1x64, .f32⟩ : BufTy).Contents (Elt F) → (⟨S50000x64, .f32⟩ : BufTy).Contents (Elt F)),
    StableHlo.binary main_v103 main_v105 main_v106 (addf : (⟨S50000x64, .f32⟩ : BufTy).Contents (Elt F) → (⟨S50000x64, .f32⟩ : BufTy).Contents (Elt F) → (⟨S50000x64, .f32⟩ : BufTy).Contents (Elt F)) ]

/-- Everything up to and including the merge of the heads: the attention block, whose last operation writes `main_v53`. -/
abbrev opsAttn : List (HloOp τ sig (Elt F)) := opsScore ++ opsClip ++ opsMsg ++ opsNorm

/-- Everything after it, from the output projection on: the projection, the two residual sums and normalisations, the
    two dense layers. -/
abbrev opsTail : List (HloOp τ sig (Elt F)) := opsOut ++ opsVar1 ++ opsLn1 ++ opsRelu ++ opsFfn ++ opsVar2 ++ opsLn2a ++ opsLn2b

/-- @main's 177 operations, in order. -/
abbrev ops : List (HloOp τ sig (Elt F)) := opsAttn ++ opsTail

/-! ## @main is the sequence of the list

Each of the three printed windows is the chain of its stretches (the callee's definition unfolds at the call, its
record's fields at the literal buffers: both sides are the same nest of steps), and @main runs the windows in order. -/

theorem main_part0_chain (c : Dev nD) : main_part0 (F := F) c = (Pipeline.chainK
    [ StableHlo.seq opsScore, StableHlo.seq opsClip ] (StableHlo.seq opsMsg) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
    [ StableHlo.seq opsNorm, StableHlo.seq opsOut, StableHlo.seq opsVar1, StableHlo.seq opsLn1, StableHlo.seq opsRelu,
      StableHlo.seq opsFfn, StableHlo.seq opsVar2 ] (StableHlo.seq opsLn2a) : Prog (TpuEff nD τ sig (Elt F) (Pipeline.Sig Λ₀ (Fin 0) fun p => (pcfgs (F := F) p).Adm) .tc) PUnit) := by
  chain_rfl

theorem main_part2_chain (c : Dev nD) : main_part2 (F := F) c = (StableHlo.seq opsLn2b : Prog (TpuEff nD τ sig (Elt F) (Pipeline.Sig Λ₀ (Fin 0) fun p => (pcfgs (F := F) p).Adm) .tc) PUnit) := by
  chain_rfl

/-- @main is the straight line `ops`: the windows' chains one after the other, and a sequence of a concatenation is the
    sequences in a row (`StableHlo.seq_append`), both sides re-associated to the right. -/
theorem main_eq (c : Dev nD) : main (F := F) c = StableHlo.seq ops := by
  show (main_part0 (F := F) c >>= fun _ => (main_part1 (F := F) c >>= fun _ => main_part2 (F := F) c)) = _
  rw [main_part0_chain, main_part1_chain, main_part2_chain]
  simp only [Pipeline.chainK, ops, opsAttn, opsTail, StableHlo.seq_append, bind_assoc]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

private theorem forall_app {α : Type} {p : α → Prop} {l₁ l₂ : List α} (h₁ : l₁.Forall p) (h₂ : l₂.Forall p) :
    (l₁ ++ l₂).Forall p := List.forall_append.mpr ⟨h₁, h₂⟩

theorem opsScore_sub : (opsScore : List (HloOp τ sig (Elt F))).Forall fun op => op.bufs ⊆ StableHlo.tcRefs τ sig :=
  ⟨StableHlo.binary_bufs_sub .., StableHlo.reshape_bufs_sub .., StableHlo.binary_bufs_sub .., StableHlo.reshape_bufs_sub .., StableHlo.binary_bufs_sub .., StableHlo.reshape_bufs_sub .., StableHlo.binary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.nullary_bufs_sub ..⟩
theorem opsClip_sub : (opsClip : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem opsMsg_sub : (opsMsg : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub ..⟩
theorem opsNorm_sub : (opsNorm : List (HloOp τ sig (Elt F))).Forall fun op => op.bufs ⊆ StableHlo.tcRefs τ sig :=
  ⟨StableHlo.ternary_bufs_sub .., StableHlo.nullary_bufs_sub .., StableHlo.unary_bufs_sub .., StableHlo.binary_bufs_sub .., StableHlo.unary_bufs_sub .., StableHlo.binary_bufs_sub .., StableHlo.reshape_bufs_sub ..⟩
theorem opsOut_sub : (opsOut : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem opsVar1_sub : (opsVar1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem opsLn1_sub : (opsLn1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem opsRelu_sub : (opsRelu : List (HloOp τ sig (Elt F))).Forall fun op => op.bufs ⊆ StableHlo.tcRefs τ sig :=
  ⟨StableHlo.nullary_bufs_sub .., StableHlo.unary_bufs_sub .., StableHlo.binary_bufs_sub ..⟩
theorem opsFfn_sub : (opsFfn : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem opsVar2_sub : (opsVar2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem opsLn2a_sub : (opsLn2a : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub ..⟩
theorem opsLn2b_sub : (opsLn2b : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩

/-- Every operation touches TensorCore references only. -/
theorem ops_sub : (ops : List (HloOp τ sig (Elt F))).Forall fun op => op.bufs ⊆ StableHlo.tcRefs τ sig :=
  forall_app (forall_app (forall_app (forall_app (opsScore_sub) opsClip_sub) opsMsg_sub) opsNorm_sub)
    (forall_app (forall_app (forall_app (forall_app (forall_app (forall_app (forall_app (opsOut_sub) opsVar1_sub) opsLn1_sub) opsRelu_sub) opsFfn_sub) opsVar2_sub) opsLn2a_sub) opsLn2b_sub)

theorem opsScore_fresh : (opsScore : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsClip_fresh : (opsClip : List (HloOp τ sig (Elt F))).Forall fun op => op.fresh = ∅ :=
  ⟨rfl, rfl, rfl, rfl, rfl, rfl⟩
theorem opsMsg_fresh : (opsMsg : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem opsNorm_fresh : (opsNorm : List (HloOp τ sig (Elt F))).Forall fun op => op.fresh = ∅ :=
  ⟨rfl, rfl, rfl, rfl, rfl, rfl, rfl⟩
theorem opsOut_fresh : (opsOut : List (HloOp τ sig (Elt F))).Forall fun op => op.fresh = ∅ :=
  ⟨rfl, rfl, rfl, rfl, rfl, rfl, rfl, rfl, rfl, rfl, rfl⟩
theorem opsVar1_fresh : (opsVar1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem opsLn1_fresh : (opsLn1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem opsRelu_fresh : (opsRelu : List (HloOp τ sig (Elt F))).Forall fun op => op.fresh = ∅ :=
  ⟨rfl, rfl, rfl⟩
theorem opsFfn_fresh : (opsFfn : List (HloOp τ sig (Elt F))).Forall fun op => op.fresh = ∅ :=
  ⟨rfl, rfl, rfl, rfl, rfl, rfl, rfl, rfl, rfl, rfl, rfl⟩
theorem opsVar2_fresh : (opsVar2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem opsLn2a_fresh : (opsLn2a : List (HloOp τ sig (Elt F))).Forall fun op => op.fresh = ∅ :=
  ⟨rfl, rfl, rfl, rfl, rfl, rfl, rfl, rfl⟩
theorem opsLn2b_fresh : (opsLn2b : List (HloOp τ sig (Elt F))).Forall fun op => op.fresh = ∅ :=
  ⟨rfl, rfl, rfl, rfl, rfl, rfl, rfl, rfl⟩

/-- Every operation determines its results. -/
theorem ops_fresh : (ops : List (HloOp τ sig (Elt F))).Forall fun op => op.fresh = ∅ :=
  forall_app (forall_app (forall_app (forall_app (opsScore_fresh) opsClip_fresh) opsMsg_fresh) opsNorm_fresh)
    (forall_app (forall_app (forall_app (forall_app (forall_app (forall_app (forall_app (opsOut_fresh) opsVar1_fresh) opsLn1_fresh) opsRelu_fresh) opsFfn_fresh) opsVar2_fresh) opsLn2a_fresh) opsLn2b_fresh)

/-! ## The run -/

/-- On every device, for any float values, from any memory with zero counters: every weakly fair execution of @main
    terminates, and every TensorCore buffer ends at the fold of the operations' results over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

/-! ## The arguments are never written -/

/-- The seventeen argument buffers. -/
abbrev args : List (Ref sig .tc) :=
  [main_arg0, main_arg1, main_arg2, main_arg3, main_arg4, main_arg5, main_arg6, main_arg7, main_arg8, main_arg9, main_arg10, main_arg11, main_arg12, main_arg13, main_arg14, main_arg15, main_arg16]

/-- An operation writes exactly one buffer, and that buffer is no argument. -/
def WritesNoArg (op : HloOp τ sig (Elt F)) : Prop :=
  ∃ y : Ref sig .tc, op.writes = {Proc.devRef .tc y} ∧ y ∉ args

theorem opsScore_writes : (opsScore : List (HloOp τ sig (Elt F))).Forall WritesNoArg :=
  ⟨⟨main_v0, rfl, by decide⟩, ⟨main_v1, rfl, by decide⟩, ⟨main_v2, rfl, by decide⟩, ⟨main_v3, rfl, by decide⟩, ⟨main_v4, rfl, by decide⟩, ⟨main_v5, rfl, by decide⟩, ⟨main_v6, rfl, by decide⟩, ⟨main_v7, rfl, by decide⟩, ⟨main_v8, rfl, by decide⟩, ⟨main_v9, rfl, by decide⟩, ⟨main_v10, rfl, by decide⟩, ⟨main_v11, rfl, by decide⟩, ⟨main_c, rfl, by decide⟩, ⟨main_v12, rfl, by decide⟩, ⟨main_v13, rfl, by decide⟩, ⟨main_c_0, rfl, by decide⟩, ⟨main_v14, rfl, by decide⟩, ⟨main_v15, rfl, by decide⟩, ⟨main_v16, rfl, by decide⟩, ⟨main_v17, rfl, by decide⟩, ⟨main_v18, rfl, by decide⟩, ⟨main_c_1, rfl, by decide⟩, ⟨main_v19, rfl, by decide⟩, ⟨main_v20, rfl, by decide⟩, ⟨main_c_2, rfl, by decide⟩, ⟨main_v21, rfl, by decide⟩, ⟨main_v22, rfl, by decide⟩, ⟨main_v23, rfl, by decide⟩, ⟨main_v24, rfl, by decide⟩, ⟨main_v25, rfl, by decide⟩, ⟨main_v26, rfl, by decide⟩, ⟨main_cst, rfl, by decide⟩, ⟨main_v27, rfl, by decide⟩, ⟨main_v28, rfl, by decide⟩, ⟨main_v29, rfl, by decide⟩, ⟨main_cst_3, rfl, by decide⟩, ⟨main_v30, rfl, by decide⟩, ⟨main_v31, rfl, by decide⟩, ⟨main_cst_4, rfl, by decide⟩, ⟨main_cst_5, rfl, by decide⟩⟩
theorem opsClip_writes : (opsClip : List (HloOp τ sig (Elt F))).Forall WritesNoArg :=
  ⟨⟨main_call0.v0.ref, rfl, by decide⟩, ⟨main_call0.v1.ref, rfl, by decide⟩, ⟨main_call0.v2.ref, rfl, by decide⟩, ⟨main_call0.v3.ref, rfl, by decide⟩, ⟨main_call0.v4.ref, rfl, by decide⟩, ⟨main_call0.v5.ref, rfl, by decide⟩⟩
theorem opsMsg_writes : (opsMsg : List (HloOp τ sig (Elt F))).Forall WritesNoArg :=
  ⟨⟨main_v33, rfl, by decide⟩, ⟨main_c_6, rfl, by decide⟩, ⟨main_v34, rfl, by decide⟩, ⟨main_v35, rfl, by decide⟩, ⟨main_c_7, rfl, by decide⟩, ⟨main_v36, rfl, by decide⟩, ⟨main_v37, rfl, by decide⟩, ⟨main_v38, rfl, by decide⟩, ⟨main_v39, rfl, by decide⟩, ⟨main_v40, rfl, by decide⟩, ⟨main_v41, rfl, by decide⟩, ⟨main_v42, rfl, by decide⟩, ⟨main_cst_8, rfl, by decide⟩, ⟨main_v43, rfl, by decide⟩, ⟨main_v44, rfl, by decide⟩, ⟨main_v45, rfl, by decide⟩, ⟨main_cst_9, rfl, by decide⟩, ⟨main_v46, rfl, by decide⟩, ⟨main_v47, rfl, by decide⟩⟩
theorem opsNorm_writes : (opsNorm : List (HloOp τ sig (Elt F))).Forall WritesNoArg :=
  ⟨⟨main_v48, rfl, by decide⟩, ⟨main_cst_10, rfl, by decide⟩, ⟨main_v49, rfl, by decide⟩, ⟨main_v50, rfl, by decide⟩, ⟨main_v51, rfl, by decide⟩, ⟨main_v52, rfl, by decide⟩, ⟨main_v53, rfl, by decide⟩⟩
theorem opsOut_writes : (opsOut : List (HloOp τ sig (Elt F))).Forall WritesNoArg :=
  ⟨⟨main_v54, rfl, by decide⟩, ⟨main_v55, rfl, by decide⟩, ⟨main_v56, rfl, by decide⟩, ⟨main_v57, rfl, by decide⟩, ⟨main_v58, rfl, by decide⟩, ⟨main_cst_11, rfl, by decide⟩, ⟨main_v59, rfl, by decide⟩, ⟨main_cst_12, rfl, by decide⟩, ⟨main_v60, rfl, by decide⟩, ⟨main_v61, rfl, by decide⟩, ⟨main_c_13, rfl, by decide⟩⟩
theorem opsVar1_writes : (opsVar1 : List (HloOp τ sig (Elt F))).Forall WritesNoArg :=
  ⟨⟨main_call1.cst.ref, rfl, by decide⟩, ⟨main_call1.v0.ref, rfl, by decide⟩, ⟨main_call1.v1.ref, rfl, by decide⟩, ⟨main_call1.cst_0.ref, rfl, by decide⟩, ⟨main_call1.v2.ref, rfl, by decide⟩, ⟨main_call1.v3.ref, rfl, by decide⟩, ⟨main_call1.v4.ref, rfl, by decide⟩, ⟨main_call1.v5.ref, rfl, by decide⟩, ⟨main_call1.v6.ref, rfl, by decide⟩, ⟨main_call1.v7.ref, rfl, by decide⟩, ⟨main_call1.cst_1.ref, rfl, by decide⟩, ⟨main_call1.v8.ref, rfl, by decide⟩, ⟨main_call1.cst_2.ref, rfl, by decide⟩, ⟨main_call1.v9.ref, rfl, by decide⟩, ⟨main_call1.v10.ref, rfl, by decide⟩, ⟨main_call1.v11.ref, rfl, by decide⟩, ⟨main_call1.cst_3.ref, rfl, by decide⟩, ⟨main_call1.v12.ref, rfl, by decide⟩, ⟨main_call1.cst_4.ref, rfl, by decide⟩, ⟨main_call1.call0.v0.ref, rfl, by decide⟩, ⟨main_call1.call0.v1.ref, rfl, by decide⟩, ⟨main_call1.call0.v2.ref, rfl, by decide⟩⟩
theorem opsLn1_writes : (opsLn1 : List (HloOp τ sig (Elt F))).Forall WritesNoArg :=
  ⟨⟨main_v63, rfl, by decide⟩, ⟨main_v64, rfl, by decide⟩, ⟨main_v65, rfl, by decide⟩, ⟨main_v66, rfl, by decide⟩, ⟨main_v67, rfl, by decide⟩, ⟨main_v68, rfl, by decide⟩, ⟨main_cst_14, rfl, by decide⟩, ⟨main_v69, rfl, by decide⟩, ⟨main_v70, rfl, by decide⟩, ⟨main_v71, rfl, by decide⟩, ⟨main_v72, rfl, by decide⟩, ⟨main_v73, rfl, by decide⟩, ⟨main_v74, rfl, by decide⟩, ⟨main_v75, rfl, by decide⟩, ⟨main_v76, rfl, by decide⟩, ⟨main_v77, rfl, by decide⟩, ⟨main_v78, rfl, by decide⟩, ⟨main_v79, rfl, by decide⟩, ⟨main_v80, rfl, by decide⟩, ⟨main_v81, rfl, by decide⟩⟩
theorem opsRelu_writes : (opsRelu : List (HloOp τ sig (Elt F))).Forall WritesNoArg :=
  ⟨⟨main_call2.cst.ref, rfl, by decide⟩, ⟨main_call2.v0.ref, rfl, by decide⟩, ⟨main_call2.v1.ref, rfl, by decide⟩⟩
theorem opsFfn_writes : (opsFfn : List (HloOp τ sig (Elt F))).Forall WritesNoArg :=
  ⟨⟨main_v83, rfl, by decide⟩, ⟨main_v84, rfl, by decide⟩, ⟨main_v85, rfl, by decide⟩, ⟨main_v86, rfl, by decide⟩, ⟨main_v87, rfl, by decide⟩, ⟨main_cst_15, rfl, by decide⟩, ⟨main_v88, rfl, by decide⟩, ⟨main_cst_16, rfl, by decide⟩, ⟨main_v89, rfl, by decide⟩, ⟨main_v90, rfl, by decide⟩, ⟨main_c_17, rfl, by decide⟩⟩
theorem opsVar2_writes : (opsVar2 : List (HloOp τ sig (Elt F))).Forall WritesNoArg :=
  ⟨⟨main_call3.cst.ref, rfl, by decide⟩, ⟨main_call3.v0.ref, rfl, by decide⟩, ⟨main_call3.v1.ref, rfl, by decide⟩, ⟨main_call3.cst_0.ref, rfl, by decide⟩, ⟨main_call3.v2.ref, rfl, by decide⟩, ⟨main_call3.v3.ref, rfl, by decide⟩, ⟨main_call3.v4.ref, rfl, by decide⟩, ⟨main_call3.v5.ref, rfl, by decide⟩, ⟨main_call3.v6.ref, rfl, by decide⟩, ⟨main_call3.v7.ref, rfl, by decide⟩, ⟨main_call3.cst_1.ref, rfl, by decide⟩, ⟨main_call3.v8.ref, rfl, by decide⟩, ⟨main_call3.cst_2.ref, rfl, by decide⟩, ⟨main_call3.v9.ref, rfl, by decide⟩, ⟨main_call3.v10.ref, rfl, by decide⟩, ⟨main_call3.v11.ref, rfl, by decide⟩, ⟨main_call3.cst_3.ref, rfl, by decide⟩, ⟨main_call3.v12.ref, rfl, by decide⟩, ⟨main_call3.cst_4.ref, rfl, by decide⟩, ⟨main_call3.call0.v0.ref, rfl, by decide⟩, ⟨main_call3.call0.v1.ref, rfl, by decide⟩, ⟨main_call3.call0.v2.ref, rfl, by decide⟩⟩
theorem opsLn2a_writes : (opsLn2a : List (HloOp τ sig (Elt F))).Forall WritesNoArg :=
  ⟨⟨main_v92, rfl, by decide⟩, ⟨main_v93, rfl, by decide⟩, ⟨main_v94, rfl, by decide⟩, ⟨main_v95, rfl, by decide⟩, ⟨main_v96, rfl, by decide⟩, ⟨main_v97, rfl, by decide⟩, ⟨main_cst_18, rfl, by decide⟩, ⟨main_v98, rfl, by decide⟩⟩
theorem opsLn2b_writes : (opsLn2b : List (HloOp τ sig (Elt F))).Forall WritesNoArg :=
  ⟨⟨main_v99, rfl, by decide⟩, ⟨main_v100, rfl, by decide⟩, ⟨main_v101, rfl, by decide⟩, ⟨main_v102, rfl, by decide⟩, ⟨main_v103, rfl, by decide⟩, ⟨main_v104, rfl, by decide⟩, ⟨main_v105, rfl, by decide⟩, ⟨main_v106, rfl, by decide⟩⟩

theorem ops_writes : (ops : List (HloOp τ sig (Elt F))).Forall WritesNoArg :=
  forall_app (forall_app (forall_app (forall_app (opsScore_writes) opsClip_writes) opsMsg_writes) opsNorm_writes)
    (forall_app (forall_app (forall_app (forall_app (forall_app (forall_app (forall_app (opsOut_writes) opsVar1_writes) opsLn1_writes) opsRelu_writes) opsFfn_writes) opsVar2_writes) opsLn2a_writes) opsLn2b_writes)

/-- An argument buffer holds after the line what it held before it. -/
theorem kept {r : Ref sig .tc} (hr : r ∈ args) (V : Valuation τ sig (Elt F)) :
    StableHlo.after ops V (Proc.devRef .tc r) = V (Proc.devRef .tc r) :=
  StableHlo.after_of_forall_not_mem ops V fun op hop hb => by
    obtain ⟨y, hw, hy⟩ := List.forall_iff_forall_mem.mp ops_writes op hop
    rw [hw, Finset.mem_singleton] at hb
    exact hy (Proc.devRef_injective _ hb ▸ hr)

theorem kept_arg0 (V : Valuation τ sig (Elt F)) :
    StableHlo.after ops V (Proc.devRef .tc main_arg0) = V (Proc.devRef .tc main_arg0) := kept (by decide) V
theorem kept_arg1 (V : Valuation τ sig (Elt F)) :
    StableHlo.after ops V (Proc.devRef .tc main_arg1) = V (Proc.devRef .tc main_arg1) := kept (by decide) V
theorem kept_arg2 (V : Valuation τ sig (Elt F)) :
    StableHlo.after ops V (Proc.devRef .tc main_arg2) = V (Proc.devRef .tc main_arg2) := kept (by decide) V
theorem kept_arg3 (V : Valuation τ sig (Elt F)) :
    StableHlo.after ops V (Proc.devRef .tc main_arg3) = V (Proc.devRef .tc main_arg3) := kept (by decide) V
theorem kept_arg4 (V : Valuation τ sig (Elt F)) :
    StableHlo.after ops V (Proc.devRef .tc main_arg4) = V (Proc.devRef .tc main_arg4) := kept (by decide) V
theorem kept_arg5 (V : Valuation τ sig (Elt F)) :
    StableHlo.after ops V (Proc.devRef .tc main_arg5) = V (Proc.devRef .tc main_arg5) := kept (by decide) V
theorem kept_arg6 (V : Valuation τ sig (Elt F)) :
    StableHlo.after ops V (Proc.devRef .tc main_arg6) = V (Proc.devRef .tc main_arg6) := kept (by decide) V
theorem kept_arg7 (V : Valuation τ sig (Elt F)) :
    StableHlo.after ops V (Proc.devRef .tc main_arg7) = V (Proc.devRef .tc main_arg7) := kept (by decide) V
theorem kept_arg8 (V : Valuation τ sig (Elt F)) :
    StableHlo.after ops V (Proc.devRef .tc main_arg8) = V (Proc.devRef .tc main_arg8) := kept (by decide) V
theorem kept_arg9 (V : Valuation τ sig (Elt F)) :
    StableHlo.after ops V (Proc.devRef .tc main_arg9) = V (Proc.devRef .tc main_arg9) := kept (by decide) V
theorem kept_arg10 (V : Valuation τ sig (Elt F)) :
    StableHlo.after ops V (Proc.devRef .tc main_arg10) = V (Proc.devRef .tc main_arg10) := kept (by decide) V
theorem kept_arg11 (V : Valuation τ sig (Elt F)) :
    StableHlo.after ops V (Proc.devRef .tc main_arg11) = V (Proc.devRef .tc main_arg11) := kept (by decide) V
theorem kept_arg12 (V : Valuation τ sig (Elt F)) :
    StableHlo.after ops V (Proc.devRef .tc main_arg12) = V (Proc.devRef .tc main_arg12) := kept (by decide) V
theorem kept_arg13 (V : Valuation τ sig (Elt F)) :
    StableHlo.after ops V (Proc.devRef .tc main_arg13) = V (Proc.devRef .tc main_arg13) := kept (by decide) V
theorem kept_arg14 (V : Valuation τ sig (Elt F)) :
    StableHlo.after ops V (Proc.devRef .tc main_arg14) = V (Proc.devRef .tc main_arg14) := kept (by decide) V
theorem kept_arg15 (V : Valuation τ sig (Elt F)) :
    StableHlo.after ops V (Proc.devRef .tc main_arg15) = V (Proc.devRef .tc main_arg15) := kept (by decide) V
theorem kept_arg16 (V : Valuation τ sig (Elt F)) :
    StableHlo.after ops V (Proc.devRef .tc main_arg16) = V (Proc.devRef .tc main_arg16) := kept (by decide) V

end Cert.ReferenceIdeal.RefRun

namespace Cert.ReferenceIdeal.RefRun

open Cert.ReferenceIdeal Idealize.ShloMosaic Idealize.ShloMosaic.TcCoe Idealize.SL.Sem

/-- The reference runs — terminates, nothing faulting — and its argument arrays end unchanged. -/
theorem frame_ri [hReferenceIdeal : Cert.ReferenceIdeal.Facts] [hPre_finite_inputs : Cert.Pre_finite_inputs.Facts] :
    Cert.frame_ReferenceIdeal := fun m g _ =>
  (θ_run _ _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _)⟩)
    (run_raw (F := Ideal) m g)

end Cert.ReferenceIdeal.RefRun

end
-- ==== Proof.RefAttn.lean ====
/- The attention block of the reference, read as a function of whole arrays. The block is the first 72 operations of
   the reference's line (`opsAttn`), in four stretches: the per-edge score, its clipping, the weighted messages and
   their sum per target node, the normalisation by the summed weights. Each stretch is read over an arbitrary
   valuation — what it leaves at the buffers a later stretch reads, as a function of what it finds at the buffers it
   reads — and the four readings are chained along `StableHlo.after_append`. -/
import proofs.«108813_j27779848470631_2_alg».proof.Proof.RefRun

noncomputable section

namespace Cert.ReferenceIdeal.RefRun

open Cert.ReferenceIdeal Idealize.ShloMosaic Idealize.ShloMosaic.TcCoe Idealize.SL.Sem
open Cert.ReferenceIdeal.Facts₀

variable {F : FTy → Type} [FloatOps F] [hReferenceIdeal : Cert.ReferenceIdeal.Facts]

/-! ## The block's functions -/

/-- Row 0 of the edge list (the source node of each edge), as a vector. -/
def row0 (idx : IVec S2x800000 32) : IVec S800000 32 :=
  fun i => shapeCast S800000 (extractStridedSlice S1x800000 ![0, 0] idx slices_S2x800000_S1x800000_0_0) shapeCasts_S1x800000_S800000 i

/-- Row 1 of the edge list (the target node of each edge), as a vector. -/
def row1 (idx : IVec S2x800000 32) : IVec S800000 32 :=
  fun i => shapeCast S800000 (extractStridedSlice S1x800000 ![1, 0] idx slices_S2x800000_S1x800000_1_0) shapeCasts_S1x800000_S800000 i

/-- A vector of node numbers as a column of start indices, a negative entry first increased by the node count. -/
def wrapCol (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- A vector of node numbers as a column of scatter indices, as it is. -/
def col (r : IVec S800000 32) : IVec S800000x1 32 :=
  broadcastInDim S800000x1 ![0] bcast_S800000_S800000x1_0 r

/-- The node features times a 64 × 64 matrix, split into 8 heads of 8 channels. -/
def headsN (x : FVec F S50000x64 .f32) (W : FVec F S64x64 .f32) : FVec F S50000x8x8 .f32 :=
  fun i => shapeCast S50000x8x8 (Host.dotGeneral dot_S50000x64_S64x64_S50000x64_1_0_0_1_n_n none x W) shapeCasts_S50000x64_S50000x8x8 i

/-- The edge features times a 64 × 64 matrix, split into 8 heads of 8 channels. -/
def headsE (e : FVec F S800000x64 .f32) (W : FVec F S64x64 .f32) : FVec F S800000x8x8 .f32 :=
  fun i => shapeCast S800000x8x8 (Host.dotGeneral dot_S800000x64_S64x64_S800000x64_1_0_0_1_n_n none e W) shapeCasts_S800000x64_S800000x8x8 i

/-- The rows of a per-node table at a column of node numbers: one [8, 8] slab per edge. -/
def rowsAt (t : FVec F S50000x8x8 .f32) (c : IVec S800000x1 32) : FVec F S800000x8x8 .f32 :=
  Host.gather gather_S50000x8x8_S800000x1_S800000x8x8_12_0_n_n_0_1_188 t c

/-- The per-edge, per-head score before clipping: k at the source times q at the target times 1/√8 times the edge's
    projection, summed over the head's 8 channels (kept as a last axis of length 1). -/
def scoreSum (x : FVec F S50000x64 .f32) (e : FVec F S800000x64 .f32) (Wq Wk We : FVec F S64x64 .f32)
    (idx : IVec S2x800000 32) : FVec F S800000x8x1 .f32 :=
  broadcastInDim S800000x8x1 ![0, 1] bcast_S800000x8_S800000x8x1_0_1
    (Host.reduceAdd
      (mulf
        (mulf (mulf (rowsAt (headsN x Wk) (wrapCol (row0 idx))) (rowsAt (headsN x Wq) (wrapCol (row1 idx))))
          (broadcastInDim S800000x8x8 ![] bcast_S_S800000x8x8 (constant S_ .f32 0x3EB504F3#32)))
        (headsE e We))
      (constant S_ .f32 0x00000000#32) reducesTo_S800000x8x8_S800000x8_d2 h_S_)

/-- min(hi, max(lo, s)), the bounds scalars. -/
def clipTo (s : FVec F S800000x8x1 .f32) (lo hi : FVec F S_ .f32) : FVec F S800000x8x1 .f32 :=
  minimumf (broadcastInDim S800000x8x1 ![] bcast_S_S800000x8x1 (id hi))
    (maximumf (broadcastInDim S800000x8x1 ![] bcast_S_S800000x8x1 (id lo)) s)

/-- The attention weight of each edge and head: exp of the score clipped to [−5, 5]. -/
def weight (x : FVec F S50000x64 .f32) (e : FVec F S800000x64 .f32) (Wq Wk We : FVec F S64x64 .f32)
    (idx : IVec S2x800000 32) : FVec F S800000x8x1 .f32 :=
  Host.exp (clipTo (scoreSum x e Wq Wk We idx) (constant S_ .f32 0xC0A00000#32) (constant S_ .f32 0x40A00000#32))

/-- The messages summed per target node: v at the source times the edge's weight, scatter-added from zero. -/
def numer (vh : FVec F S50000x8x8 .f32) (src dst : IVec S800000 32) (w : FVec F S800000x8x1 .f32) : FVec F S50000x8x8 .f32 :=
  Host.scatterAdd scatter_S50000x8x8_S800000x1_S800000x8x8_12_0_0_1
    (broadcastInDim S50000x8x8 ![] bcast_S_S50000x8x8 (constant S_ .f32 0x00000000#32))
    (col dst)
    (mulf (rowsAt vh (wrapCol src)) (broadcastInDim S800000x8x8 ![0, 1, 2] bcast_S800000x8x1_S800000x8x8_0_1_2 w))

/-- The quotient of the summed messages by the summed weights plus 1e-6, the heads merged back into 64 channels. -/
def normed (num : FVec F S50000x8x8 .f32) (z0 : FVec F S50000x8x1 .f32) (c : IVec S800000x1 32) (w : FVec F S800000x8x1 .f32) :
    FVec F S50000x64 .f32 :=
  fun i => shapeCast S50000x64
    (Host.divf num
      (broadcastInDim S50000x8x8 ![0, 1, 2] bcast_S50000x8x1_S50000x8x8_0_1_2
        (addf (Host.scatterAdd scatter_S50000x8x1_S800000x1_S800000x8x1_12_0_0_1 z0 c w)
          (broadcastInDim S50000x8x1 ![] bcast_S_S50000x8x1 (constant S_ .f32 0x358637BD#32)))))
    shapeCasts_S50000x8x8_S50000x64 i

/-- The attention block: from the node features `x`, the edge features `e`, the four projections and the edge list,
    the [50000, 64] array the rest of the layer starts from. -/
def refAttn (x : FVec F S50000x64 .f32) (e : FVec F S800000x64 .f32) (Wq Wk We Wv : FVec F S64x64 .f32)
    (idx : IVec S2x800000 32) : FVec F S50000x64 .f32 :=
  normed (numer (headsN x Wv) (row0 idx) (row1 idx) (weight x e Wq Wk We idx))
    (broadcastInDim S50000x8x1 ![] bcast_S_S50000x8x1 (constant S_ .f32 0x00000000#32))
    (col (row1 idx)) (weight x e Wq Wk We idx)

/-! ## The stretches, each over any valuation -/

section Stages

variable (V : Valuation τ sig (Elt F))

local macro "⟪" r:term "⟫" : term => `((Proc.devRef (τ := τ) .tc $r : DevRef τ sig))

/-! ### The score -/

theorem score_v31 : StableHlo.after opsScore V ⟪main_v31⟫
    = scoreSum (V ⟪main_arg0⟫) (V ⟪main_arg1⟫) (V ⟪main_arg2⟫) (V ⟪main_arg3⟫) (V ⟪main_arg4⟫) (V ⟪main_arg16⟫) := by
  after_results_simp
  rfl

theorem score_v5 : StableHlo.after opsScore V ⟪main_v5⟫ = headsN (V ⟪main_arg0⟫) (V ⟪main_arg5⟫) := by
  after_results_simp
  rfl

theorem score_v9 : StableHlo.after opsScore V ⟪main_v9⟫ = row0 (V ⟪main_arg16⟫) := by
  after_results_simp
  rfl

theorem score_v11 : StableHlo.after opsScore V ⟪main_v11⟫ = row1 (V ⟪main_arg16⟫) := by
  after_results_simp
  rfl

theorem score_cst_4 : StableHlo.after opsScore V ⟪main_cst_4⟫ = constant S_ .f32 0xC0A00000#32 := by
  after_results_simp

theorem score_cst_5 : StableHlo.after opsScore V ⟪main_cst_5⟫ = constant S_ .f32 0x40A00000#32 := by
  after_results_simp

/-! ### The clipping -/

theorem clip_v32 : StableHlo.after opsClip V ⟪main_v32⟫ = clipTo (V ⟪main_v31⟫) (V ⟪main_cst_4⟫) (V ⟪main_cst_5⟫) := by
  after_results_simp
  rfl

theorem clip_v5 : StableHlo.after opsClip V ⟪main_v5⟫ = V ⟪main_v5⟫ := by after_results_simp
theorem clip_v9 : StableHlo.after opsClip V ⟪main_v9⟫ = V ⟪main_v9⟫ := by after_results_simp
theorem clip_v11 : StableHlo.after opsClip V ⟪main_v11⟫ = V ⟪main_v11⟫ := by after_results_simp

/-! ### The weights, the messages and their sum per target node -/

theorem msg_v33 : StableHlo.after opsMsg V ⟪main_v33⟫ = Host.exp (V ⟪main_v32⟫) := by
  after_results_simp

theorem msg_v45 : StableHlo.after opsMsg V ⟪main_v45⟫
    = numer (V ⟪main_v5⟫) (V ⟪main_v9⟫) (V ⟪main_v11⟫) (Host.exp (V ⟪main_v32⟫)) := by
  after_results_simp
  rfl

theorem msg_v46 : StableHlo.after opsMsg V ⟪main_v46⟫
    = broadcastInDim S50000x8x1 ![] bcast_S_S50000x8x1 (constant S_ .f32 0x00000000#32) := by
  after_results_simp

theorem msg_v47 : StableHlo.after opsMsg V ⟪main_v47⟫ = col (V ⟪main_v11⟫) := by
  after_results_simp
  rfl

/-! ### The normalisation -/

theorem norm_v53 : StableHlo.after opsNorm V ⟪main_v53⟫
    = normed (V ⟪main_v45⟫) (V ⟪main_v46⟫) (V ⟪main_v47⟫) (V ⟪main_v33⟫) := by
  after_results_simp
  rfl

/-! ## The block -/

/-- No operation of the block writes an argument. -/
theorem opsAttn_writes : (opsAttn : List (HloOp τ sig (Elt F))).Forall WritesNoArg :=
  List.forall_append.mpr ⟨List.forall_append.mpr ⟨List.forall_append.mpr ⟨opsScore_writes, opsClip_writes⟩, opsMsg_writes⟩,
    opsNorm_writes⟩

/-- The block leaves every argument buffer as it found it. -/
theorem attn_arg {r : Ref sig .tc} (hr : r ∈ args) : StableHlo.after opsAttn V ⟪r⟫ = V ⟪r⟫ :=
  StableHlo.after_of_forall_not_mem opsAttn V fun op hop hb => by
    obtain ⟨y, hw, hy⟩ := List.forall_iff_forall_mem.mp opsAttn_writes op hop
    rw [hw, Finset.mem_singleton] at hb
    exact hy (Proc.devRef_injective _ hb ▸ hr)

/-- From any valuation, after the attention block the buffer `main_v53` holds `refAttn` of what the valuation has at
    the node features, the edge features, the four projections and the edge list. -/
theorem attn_eq : StableHlo.after opsAttn V ⟪main_v53⟫
    = refAttn (V ⟪main_arg0⟫) (V ⟪main_arg1⟫) (V ⟪main_arg2⟫) (V ⟪main_arg3⟫) (V ⟪main_arg4⟫) (V ⟪main_arg5⟫)
        (V ⟪main_arg16⟫) := by
  simp only [opsAttn, StableHlo.after_append]
  rw [norm_v53, msg_v45, msg_v46, msg_v47, msg_v33, clip_v32, clip_v5, clip_v9, clip_v11,
    score_v31, score_v5, score_v9, score_v11, score_cst_4, score_cst_5]
  rfl

end Stages

end Cert.ReferenceIdeal.RefRun

end
-- ==== Proof.RefTail.lean ====
/- The part of the reference after the attention block, read against the shared functions of whole arrays
   (`Cert.Tail`). It is the last 105 operations of the reference's line (`opsTail`), in eight stretches: the output
   projection with the first residual and its column mean; the column variance; the first normalisation and the first
   dense layer; the rectifier; the second dense layer with the second residual and its column mean; the column variance
   again; the second normalisation, in two pieces. Each stretch is read over an arbitrary valuation — what it leaves at
   the buffers a later stretch reads, as a function of what it finds at the buffers it reads — and the readings are
   chained along `StableHlo.after_append`. -/
import proofs.«108813_j27779848470631_2_alg».proof.Proof.RefRun
import proofs.«108813_j27779848470631_2_alg».proof.Proof.Tail

noncomputable section

namespace Cert.ReferenceIdeal.RefTail

open Cert.ReferenceIdeal Cert.ReferenceIdeal.RefRun Idealize.ShloMosaic Idealize.ShloMosaic.TcCoe Idealize.SL.Sem
open Cert.ReferenceIdeal.Facts₀

variable {F : FTy → Type} [FloatOps F] [hReferenceIdeal : Cert.ReferenceIdeal.Facts]

local macro "⟪" r:term "⟫" : term => `((Proc.devRef (τ := τ) .tc $r : DevRef τ sig))

/-- A stretch none of whose operations writes an argument leaves every argument buffer as it found it. -/
theorem keptArg {l : List (HloOp τ sig (Elt F))} (h : l.Forall WritesNoArg) {r : Ref sig .tc} (hr : r ∈ args)
    (V : Valuation τ sig (Elt F)) : StableHlo.after l V ⟪r⟫ = V ⟪r⟫ :=
  StableHlo.after_of_forall_not_mem l V fun op hop hb => by
    obtain ⟨y, hw, hy⟩ := List.forall_iff_forall_mem.mp h op hop
    rw [hw, Finset.mem_singleton] at hb
    exact hy (Proc.devRef_injective _ hb ▸ hr)

section Stages

variable (W : Valuation τ sig (Elt F))

/-! ### The output projection, the first residual, its column mean -/

theorem out_v58 : StableHlo.after opsOut W ⟪main_v58⟫
    = Cert.Tail.proj (W ⟪main_arg0⟫) (W ⟪main_v53⟫) (W ⟪main_arg6⟫) (W ⟪main_arg7⟫) := by
  after_results_simp
  rfl

theorem out_v61 : StableHlo.after opsOut W ⟪main_v61⟫
    = Cert.Tail.colMean (Cert.Tail.proj (W ⟪main_arg0⟫) (W ⟪main_v53⟫) (W ⟪main_arg6⟫) (W ⟪main_arg7⟫)) := by
  after_results_simp
  rfl

theorem out_c_13 : StableHlo.after opsOut W ⟪main_c_13⟫ = constantI S_ 32 0#32 := by
  after_results_simp

theorem out_arg {r : Ref sig .tc} (hr : r ∈ args) : StableHlo.after opsOut W (no_index ⟪r⟫) = W ⟪r⟫ := keptArg opsOut_writes hr W

/-! ### The column variance of the first residual

The divisor is 50000 minus the conversion of an integer scalar the stretch reads; where that scalar is the zero the line
wrote before the call, the divisor is the count. -/

theorem var1_v62 (hc : W ⟪main_c_13⟫ = constantI S_ 32 0#32) :
    StableHlo.after opsVar1 W ⟪main_v62⟫ = Cert.Tail.colVar (W ⟪main_v58⟫) := by
  after_results_simp
  rw [hc]
  rfl

theorem var1_v58 : StableHlo.after opsVar1 W ⟪main_v58⟫ = W ⟪main_v58⟫ := by after_results_simp
theorem var1_v61 : StableHlo.after opsVar1 W ⟪main_v61⟫ = W ⟪main_v61⟫ := by after_results_simp
theorem var1_arg {r : Ref sig .tc} (hr : r ∈ args) : StableHlo.after opsVar1 W (no_index ⟪r⟫) = W ⟪r⟫ := keptArg opsVar1_writes hr W

/-! ### The first normalisation and the first dense layer -/

theorem ln1_v77 : StableHlo.after opsLn1 W ⟪main_v77⟫
    = Cert.Tail.bnCore (W ⟪main_v58⟫) (W ⟪main_v61⟫) (W ⟪main_v62⟫) (W ⟪main_arg12⟫) (W ⟪main_arg13⟫) := by
  after_results_simp
  rfl

theorem ln1_v81 : StableHlo.after opsLn1 W ⟪main_v81⟫
    = Cert.Tail.ffnPre (Cert.Tail.bnCore (W ⟪main_v58⟫) (W ⟪main_v61⟫) (W ⟪main_v62⟫) (W ⟪main_arg12⟫) (W ⟪main_arg13⟫))
        (W ⟪main_arg8⟫) (W ⟪main_arg9⟫) := by
  after_results_simp
  rfl

theorem ln1_arg {r : Ref sig .tc} (hr : r ∈ args) : StableHlo.after opsLn1 W (no_index ⟪r⟫) = W ⟪r⟫ := keptArg opsLn1_writes hr W

/-! ### The rectifier -/

theorem relu_v82 : StableHlo.after opsRelu W ⟪main_v82⟫ = Cert.Tail.relu (W ⟪main_v81⟫) := by
  after_results_simp
  rfl

theorem relu_v77 : StableHlo.after opsRelu W ⟪main_v77⟫ = W ⟪main_v77⟫ := by after_results_simp
theorem relu_arg {r : Ref sig .tc} (hr : r ∈ args) : StableHlo.after opsRelu W (no_index ⟪r⟫) = W ⟪r⟫ := keptArg opsRelu_writes hr W

/-! ### The second dense layer, the second residual, its column mean -/

theorem ffn_v87 : StableHlo.after opsFfn W ⟪main_v87⟫
    = Cert.Tail.ffnPost (W ⟪main_v77⟫) (W ⟪main_v82⟫) (W ⟪main_arg10⟫) (W ⟪main_arg11⟫) := by
  after_results_simp
  rfl

theorem ffn_v90 : StableHlo.after opsFfn W ⟪main_v90⟫
    = Cert.Tail.colMean (Cert.Tail.ffnPost (W ⟪main_v77⟫) (W ⟪main_v82⟫) (W ⟪main_arg10⟫) (W ⟪main_arg11⟫)) := by
  after_results_simp
  rfl

theorem ffn_c_17 : StableHlo.after opsFfn W ⟪main_c_17⟫ = constantI S_ 32 0#32 := by
  after_results_simp

theorem ffn_arg {r : Ref sig .tc} (hr : r ∈ args) : StableHlo.after opsFfn W (no_index ⟪r⟫) = W ⟪r⟫ := keptArg opsFfn_writes hr W

/-! ### The column variance of the second residual -/

theorem var2_v91 (hc : W ⟪main_c_17⟫ = constantI S_ 32 0#32) :
    StableHlo.after opsVar2 W ⟪main_v91⟫ = Cert.Tail.colVar (W ⟪main_v87⟫) := by
  after_results_simp
  rw [hc]
  rfl

theorem var2_v87 : StableHlo.after opsVar2 W ⟪main_v87⟫ = W ⟪main_v87⟫ := by after_results_simp
theorem var2_v90 : StableHlo.after opsVar2 W ⟪main_v90⟫ = W ⟪main_v90⟫ := by after_results_simp
theorem var2_arg {r : Ref sig .tc} (hr : r ∈ args) : StableHlo.after opsVar2 W (no_index ⟪r⟫) = W ⟪r⟫ := keptArg opsVar2_writes hr W

/-! ### The second normalisation (its two pieces in a row) -/

theorem ln2_v106 : StableHlo.after opsLn2b (StableHlo.after opsLn2a W) ⟪main_v106⟫
    = Cert.Tail.bnCore (W ⟪main_v87⟫) (W ⟪main_v90⟫) (W ⟪main_v91⟫) (W ⟪main_arg14⟫) (W ⟪main_arg15⟫) := by
  after_results_simp
  rfl

/-! ## The whole tail -/

/-- From any valuation, after the tail's operations the result buffer holds `Cert.Tail.tail` of what the valuation has
    at the node features, at the attention block's output and at the ten parameter arrays. -/
theorem tail_eq : StableHlo.after opsTail W ⟪main_v106⟫
    = Cert.Tail.tail (W ⟪main_arg0⟫) (W ⟪main_v53⟫) (W ⟪main_arg6⟫) (W ⟪main_arg7⟫) (W ⟪main_arg8⟫) (W ⟪main_arg9⟫)
        (W ⟪main_arg10⟫) (W ⟪main_arg11⟫) (W ⟪main_arg12⟫) (W ⟪main_arg13⟫) (W ⟪main_arg14⟫) (W ⟪main_arg15⟫) := by
  simp only [opsTail, StableHlo.after_append]
  -- the second normalisation, of what the second variance stretch leaves
  rw [ln2_v106, var2_v91 _ (ffn_c_17 _), var2_v87, var2_v90]
  -- the second residual and its mean, of what the rectifier leaves
  rw [ffn_v87, ffn_v90, relu_v82, relu_v77]
  -- the first normalisation and dense layer, of what the first variance stretch leaves
  rw [ln1_v77, ln1_v81, var1_v62 _ (out_c_13 _), var1_v58, var1_v61, out_v58, out_v61]
  -- the arguments, unchanged through every stretch before the one that reads them
  simp (disch := decide) only [var2_arg, ffn_arg, relu_arg, ln1_arg, var1_arg, out_arg]
  rfl

end Stages

end Cert.ReferenceIdeal.RefTail

end
-- ==== Proof.RefValue.lean ====
/- The reference's result as a function of its arguments. The reference's line is the attention block followed by the
   tail; the block leaves `refAttn` of the arguments at its output buffer and the arguments untouched, and the tail
   leaves `Cert.Tail.tail` of the node features, that buffer and the parameters at the result buffer. So the result is
   the tail of the attention of the arguments; and the run of the program ends with the result buffer at that value of
   the launch contents and every argument buffer unchanged. -/
import proofs.«108813_j27779848470631_2_alg».proof.Proof.RefAttn
import proofs.«108813_j27779848470631_2_alg».proof.Proof.RefTail

noncomputable section

namespace Cert.ReferenceIdeal.RefValue

open Cert.ReferenceIdeal Cert.ReferenceIdeal.RefRun Cert.ReferenceIdeal.RefTail Idealize.ShloMosaic Idealize.ShloMosaic.TcCoe
  Idealize.SL.Sem

variable {F : FTy → Type} [FloatOps F] [hReferenceIdeal : Cert.ReferenceIdeal.Facts]

local macro "⟪" r:term "⟫" : term => `((Proc.devRef (τ := τ) .tc $r : DevRef τ sig))

/-- From any valuation, after the whole line the result buffer holds the tail of the attention of what the valuation
    has at the arguments. -/
theorem result_eq (V : Valuation τ sig (Elt F)) : StableHlo.after ops V ⟪main_v106⟫
    = Cert.Tail.tail (V ⟪main_arg0⟫)
        (refAttn (V ⟪main_arg0⟫) (V ⟪main_arg1⟫) (V ⟪main_arg2⟫) (V ⟪main_arg3⟫) (V ⟪main_arg4⟫) (V ⟪main_arg5⟫) (V ⟪main_arg16⟫))
        (V ⟪main_arg6⟫) (V ⟪main_arg7⟫) (V ⟪main_arg8⟫) (V ⟪main_arg9⟫) (V ⟪main_arg10⟫) (V ⟪main_arg11⟫) (V ⟪main_arg12⟫)
        (V ⟪main_arg13⟫) (V ⟪main_arg14⟫) (V ⟪main_arg15⟫) := by
  show StableHlo.after (opsAttn ++ opsTail) V ⟪main_v106⟫ = _
  rw [StableHlo.after_append, tail_eq, attn_eq,
    attn_arg V (r := main_arg0) (by decide), attn_arg V (r := main_arg6) (by decide), attn_arg V (r := main_arg7) (by decide),
    attn_arg V (r := main_arg8) (by decide), attn_arg V (r := main_arg9) (by decide), attn_arg V (r := main_arg10) (by decide),
    attn_arg V (r := main_arg11) (by decide), attn_arg V (r := main_arg12) (by decide), attn_arg V (r := main_arg13) (by decide),
    attn_arg V (r := main_arg14) (by decide), attn_arg V (r := main_arg15) (by decide)]

/-- On every device, for any float values, from any memory with zero counters: every weakly fair execution of @main
    terminates with the result buffer at the tail of the attention of the arguments' launch contents, and every argument
    buffer unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106)
        = Cert.Tail.tail (m ((c.tc : Thread nD τ).loc main_arg0))
            (refAttn (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg16)))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run _ _ _).mono (fun _ h c => ⟨(h c main_v106).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _)⟩)
    (run_raw m ρ)

end Cert.ReferenceIdeal.RefValue

end
-- ==== Proof.IdxOpsR.lean ====
/-
  The reference program's row gather and its two accumulating scatters, read at one index.

  The arrays are rank 3 (node or edge, head, slot); the gathered and scattered axis is the first, the other two
  are copied. The gather reads row `clampRow (idx e)`; the scatter at `(n, h, d)` is the operand there plus the sum
  over the edges `e` whose index, read signed and not clamped, is `n`, of update element `(e, h, d)`.
-/
import proofs.«108813_j27779848470631_2_alg».proof.Proof.Gen.ReferenceIdeal
import proofs.«108813_j27779848470631_2_alg».proof.Proof.Spec
import proofs.«108813_j27779848470631_2_alg».proof.Proof.IdxOpsK
import Idealize.ShloMosaic.Lib.ValueIdx
import Idealize.ShloMosaic.PureOps.Ideal.Laws

noncomputable section

open scoped BigOperators

namespace Cert.IdxOps

open Idealize.ShloMosaic Idealize.ShloMosaic.ValueIdx
open Cert.ReferenceIdeal (S50000x8x8 S800000x1 S800000x8x8 S50000x8x1 S800000x8x1)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- The row gather at `(e, h, d)`: element `(h, d)` of the operand's row `clampRow (idx e)`. -/
theorem gatherR_apply {α : Type} (x : S50000x8x8.Idx → α) (idx : IVec S800000x1 32)
    (e : Fin 800000) (h d : Fin 8) :
    Host.gather Cert.ReferenceIdeal.gather_S50000x8x8_S800000x1_S800000x8x8_12_0_n_n_0_1_188 x idx (ix3 e h d)
      = x (ix3 (Cert.Spec.clampRow (idx (ix2 e (0 : Fin 1)))) h d) := by
  unfold Host.gather
  congr 1
  funext a
  refine Fin.ext ?_
  let D := Cert.ReferenceIdeal.gather_S50000x8x8_S800000x1_S800000x8x8_12_0_n_n_0_1_188
  match a with
  | ⟨0, h0⟩ =>
    show D.start (ix3 e h d) idx 0 + D.batchCoord (ix3 e h d) 0 + D.offCoord (ix3 e h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ D.startIndexMap from List.mem_singleton.mpr rfl)]
    have hsi : D.siIdx (ix3 e h d) ⟨List.idxOf (0 : Fin 3) D.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, h1⟩ =>
    show D.start (ix3 e h d) idx 1 + D.batchCoord (ix3 e h d) 1 + D.offCoord (ix3 e h d) 1 = _
    rw [GatherDims.batchCoord_eq_zero _ _ _ List.not_mem_nil]
    unfold GatherDims.start
    rw [dif_neg (show (1 : Fin 3) ∉ D.startIndexMap from by decide)]
    unfold GatherDims.offCoord
    rw [dif_pos (show (1 : Fin 3) ∈ D.sKept from by decide)]
    simp only [Nat.add_zero, Nat.zero_add]
    rfl
  | ⟨2, h2⟩ =>
    show D.start (ix3 e h d) idx 2 + D.batchCoord (ix3 e h d) 2 + D.offCoord (ix3 e h d) 2 = _
    rw [GatherDims.batchCoord_eq_zero _ _ _ List.not_mem_nil]
    unfold GatherDims.start
    rw [dif_neg (show (2 : Fin 3) ∉ D.startIndexMap from by decide)]
    unfold GatherDims.offCoord
    rw [dif_pos (show (2 : Fin 3) ∈ D.sKept from by decide)]
    simp only [Nat.add_zero, Nat.zero_add]
    rfl

section R88
private abbrev DR88 := Cert.ReferenceIdeal.scatter_S50000x8x8_S800000x1_S800000x8x8_12_0_0_1

theorem scatterR88_start0 (idx : IVec S800000x1 32) (e : Fin 800000) (h' : Fin 8) (d' : Fin 8) :
    DR88.start (ix3 e h' d') idx 0 = (idx (ix2 e (0 : Fin 1))).toInt := by
  unfold ScatterDims.start
  rw [dif_pos (show (0 : Fin 3) ∈ DR88.scatterDimsToOperandDims from List.mem_singleton.mpr rfl)]
  have hsi : DR88.siIdx (ix3 e h' d') ⟨List.idxOf (0 : Fin 3) DR88.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterR88_start1 (idx : IVec S800000x1 32) (e : Fin 800000) (h' : Fin 8) (d' : Fin 8) :
    DR88.start (ix3 e h' d') idx 1 = 0 := by
  unfold ScatterDims.start
  rw [dif_neg (show (1 : Fin 3) ∉ DR88.scatterDimsToOperandDims from by decide)]

theorem scatterR88_start2 (idx : IVec S800000x1 32) (e : Fin 800000) (h' : Fin 8) (d' : Fin 8) :
    DR88.start (ix3 e h' d') idx 2 = 0 := by
  unfold ScatterDims.start
  rw [dif_neg (show (2 : Fin 3) ∉ DR88.scatterDimsToOperandDims from by decide)]

theorem scatterR88_window0 (e : Fin 800000) (h' : Fin 8) (d' : Fin 8) : DR88.window (ix3 e h' d') 0 = 0 := by
  unfold ScatterDims.window
  rw [dif_neg (show (0 : Fin 3) ∉ DR88.sKept from by decide)]

theorem scatterR88_window1 (e : Fin 800000) (h' : Fin 8) (d' : Fin 8) :
    DR88.window (ix3 e h' d') 1 = h'.val := by
  unfold ScatterDims.window
  rw [dif_pos (show (1 : Fin 3) ∈ DR88.sKept from by decide)]
  rfl

theorem scatterR88_window2 (e : Fin 800000) (h' : Fin 8) (d' : Fin 8) :
    DR88.window (ix3 e h' d') 2 = d'.val := by
  unfold ScatterDims.window
  rw [dif_pos (show (2 : Fin 3) ∈ DR88.sKept from by decide)]
  rfl

/-- Update `(e, h', d')` lands on `(n, h, d)` exactly when edge `e`'s index, read signed, is `n`, and the other two
    coordinates agree. -/
theorem scatterR88_lands (idx : IVec S800000x1 32) (e : Fin 800000) (h' : Fin 8) (d' : Fin 8) (n : Fin 50000)
    (h : Fin 8) (d : Fin 8) :
    DR88.resultIdx? (ix3 e h' d') idx = some (ix3 n h d)
      ↔ Cert.Spec.hits (idx (ix2 e (0 : Fin 1))) n ∧ h' = h ∧ d' = d := by
  rw [resultIdx?_eq_some_iff]
  have h3 : ∀ P : Fin 3 → Prop, (∀ a, P a) ↔ P 0 ∧ P 1 ∧ P 2 := by
    intro P
    constructor
    · intro H; exact ⟨H 0, H 1, H 2⟩
    · rintro ⟨H0, H1, H2⟩ a
      match a with
      | ⟨0, _⟩ => exact H0
      | ⟨1, _⟩ => exact H1
      | ⟨2, _⟩ => exact H2
  rw [h3, scatterR88_start0, scatterR88_start1, scatterR88_start2, scatterR88_window0,
    scatterR88_window1, scatterR88_window2]
  unfold Cert.Spec.hits
  show _ + ((0 : Nat) : Int) = ((n.val : Nat) : Int) ∧ (0 : Int) + ((h'.val : Nat) : Int) = ((h.val : Nat) : Int)
    ∧ (0 : Int) + ((d'.val : Nat) : Int) = ((d.val : Nat) : Int) ↔ _
  constructor
  · rintro ⟨e0, e1, e2⟩
    exact ⟨by omega, Fin.ext (by omega), Fin.ext (by omega)⟩
  · rintro ⟨e0, e1, e2⟩
    subst e1; subst e2
    exact ⟨by omega, by omega, by omega⟩

/-- The accumulating scatter at `(n, h, d)`: the operand there plus element `(h, d)` of every update row whose
    index is `n`. -/
theorem scatterR88_apply' (x0 : S50000x8x8.Idx → EReal) (idx : IVec S800000x1 32) (u : S800000x8x8.Idx → EReal)
    (n : Fin 50000) (h : Fin 8) (d : Fin 8) :
    Ideal.hostScatterAdd Cert.ReferenceIdeal.scatter_S50000x8x8_S800000x1_S800000x8x8_12_0_0_1 x0 idx u (ix3 n h d)
      = x0 (ix3 n h d) + ∑ e ∈ Finset.univ.filter (fun e : Fin 800000 => Cert.Spec.hits (idx (ix2 e (0 : Fin 1))) n),
          u (ix3 e h d) := by
  unfold Ideal.hostScatterAdd
  refine congrArg (fun t => x0 (ix3 n h d) + t) ?_
  rw [Finset.sum_filter, sum_idx3, Finset.sum_filter]
  refine Finset.sum_congr rfl (fun e _ => ?_)
  rw [Finset.sum_congr rfl (fun h' _ => Finset.sum_congr rfl (fun d' _ =>
    if_congr (scatterR88_lands idx e h' d' n h d) rfl rfl))]
  by_cases hh : Cert.Spec.hits (idx (ix2 e (0 : Fin 1))) n
  · simp only [hh, true_and, if_true]
    have inner : ∀ h' : Fin 8, (∑ d' : Fin 8, if h' = h ∧ d' = d then u (ix3 e h' d') else 0)
        = if h' = h then u (ix3 e h' d) else 0 := by
      intro h'
      by_cases e1 : h' = h
      · simp only [e1, true_and, if_true]
        rw [Finset.sum_ite_eq' Finset.univ d (fun d' => u (ix3 e h d'))]
        simp only [Finset.mem_univ, if_true]
      · simp only [e1, false_and, if_false]
        exact Finset.sum_const_zero
    rw [Finset.sum_congr rfl (fun h' _ => inner h')]
    rw [Finset.sum_ite_eq' Finset.univ h (fun h' => u (ix3 e h' d))]
    simp only [Finset.mem_univ, if_true]
  · simp only [hh, false_and, if_false]
    rw [Finset.sum_congr rfl (fun h' _ => Finset.sum_const_zero)]
    exact Finset.sum_const_zero
end R88

section R81
private abbrev DR81 := Cert.ReferenceIdeal.scatter_S50000x8x1_S800000x1_S800000x8x1_12_0_0_1

theorem scatterR81_start0 (idx : IVec S800000x1 32) (e : Fin 800000) (h' : Fin 8) (d' : Fin 1) :
    DR81.start (ix3 e h' d') idx 0 = (idx (ix2 e (0 : Fin 1))).toInt := by
  unfold ScatterDims.start
  rw [dif_pos (show (0 : Fin 3) ∈ DR81.scatterDimsToOperandDims from List.mem_singleton.mpr rfl)]
  have hsi : DR81.siIdx (ix3 e h' d') ⟨List.idxOf (0 : Fin 3) DR81.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterR81_start1 (idx : IVec S800000x1 32) (e : Fin 800000) (h' : Fin 8) (d' : Fin 1) :
    DR81.start (ix3 e h' d') idx 1 = 0 := by
  unfold ScatterDims.start
  rw [dif_neg (show (1 : Fin 3) ∉ DR81.scatterDimsToOperandDims from by decide)]

theorem scatterR81_start2 (idx : IVec S800000x1 32) (e : Fin 800000) (h' : Fin 8) (d' : Fin 1) :
    DR81.start (ix3 e h' d') idx 2 = 0 := by
  unfold ScatterDims.start
  rw [dif_neg (show (2 : Fin 3) ∉ DR81.scatterDimsToOperandDims from by decide)]

theorem scatterR81_window0 (e : Fin 800000) (h' : Fin 8) (d' : Fin 1) : DR81.window (ix3 e h' d') 0 = 0 := by
  unfold ScatterDims.window
  rw [dif_neg (show (0 : Fin 3) ∉ DR81.sKept from by decide)]

theorem scatterR81_window1 (e : Fin 800000) (h' : Fin 8) (d' : Fin 1) :
    DR81.window (ix3 e h' d') 1 = h'.val := by
  unfold ScatterDims.window
  rw [dif_pos (show (1 : Fin 3) ∈ DR81.sKept from by decide)]
  rfl

theorem scatterR81_window2 (e : Fin 800000) (h' : Fin 8) (d' : Fin 1) :
    DR81.window (ix3 e h' d') 2 = d'.val := by
  unfold ScatterDims.window
  rw [dif_pos (show (2 : Fin 3) ∈ DR81.sKept from by decide)]
  rfl

/-- Update `(e, h', d')` lands on `(n, h, d)` exactly when edge `e`'s index, read signed, is `n`, and the other two
    coordinates agree. -/
theorem scatterR81_lands (idx : IVec S800000x1 32) (e : Fin 800000) (h' : Fin 8) (d' : Fin 1) (n : Fin 50000)
    (h : Fin 8) (d : Fin 1) :
    DR81.resultIdx? (ix3 e h' d') idx = some (ix3 n h d)
      ↔ Cert.Spec.hits (idx (ix2 e (0 : Fin 1))) n ∧ h' = h ∧ d' = d := by
  rw [resultIdx?_eq_some_iff]
  have h3 : ∀ P : Fin 3 → Prop, (∀ a, P a) ↔ P 0 ∧ P 1 ∧ P 2 := by
    intro P
    constructor
    · intro H; exact ⟨H 0, H 1, H 2⟩
    · rintro ⟨H0, H1, H2⟩ a
      match a with
      | ⟨0, _⟩ => exact H0
      | ⟨1, _⟩ => exact H1
      | ⟨2, _⟩ => exact H2
  rw [h3, scatterR81_start0, scatterR81_start1, scatterR81_start2, scatterR81_window0,
    scatterR81_window1, scatterR81_window2]
  unfold Cert.Spec.hits
  show _ + ((0 : Nat) : Int) = ((n.val : Nat) : Int) ∧ (0 : Int) + ((h'.val : Nat) : Int) = ((h.val : Nat) : Int)
    ∧ (0 : Int) + ((d'.val : Nat) : Int) = ((d.val : Nat) : Int) ↔ _
  constructor
  · rintro ⟨e0, e1, e2⟩
    exact ⟨by omega, Fin.ext (by omega), Fin.ext (by omega)⟩
  · rintro ⟨e0, e1, e2⟩
    subst e1; subst e2
    exact ⟨by omega, by omega, by omega⟩

/-- The accumulating scatter at `(n, h, d)`: the operand there plus element `(h, d)` of every update row whose
    index is `n`. -/
theorem scatterR81_apply' (x0 : S50000x8x1.Idx → EReal) (idx : IVec S800000x1 32) (u : S800000x8x1.Idx → EReal)
    (n : Fin 50000) (h : Fin 8) (d : Fin 1) :
    Ideal.hostScatterAdd Cert.ReferenceIdeal.scatter_S50000x8x1_S800000x1_S800000x8x1_12_0_0_1 x0 idx u (ix3 n h d)
      = x0 (ix3 n h d) + ∑ e ∈ Finset.univ.filter (fun e : Fin 800000 => Cert.Spec.hits (idx (ix2 e (0 : Fin 1))) n),
          u (ix3 e h d) := by
  unfold Ideal.hostScatterAdd
  refine congrArg (fun t => x0 (ix3 n h d) + t) ?_
  rw [Finset.sum_filter, sum_idx3, Finset.sum_filter]
  refine Finset.sum_congr rfl (fun e _ => ?_)
  rw [Finset.sum_congr rfl (fun h' _ => Finset.sum_congr rfl (fun d' _ =>
    if_congr (scatterR81_lands idx e h' d' n h d) rfl rfl))]
  by_cases hh : Cert.Spec.hits (idx (ix2 e (0 : Fin 1))) n
  · simp only [hh, true_and, if_true]
    have inner : ∀ h' : Fin 8, (∑ d' : Fin 1, if h' = h ∧ d' = d then u (ix3 e h' d') else 0)
        = if h' = h then u (ix3 e h' d) else 0 := by
      intro h'
      by_cases e1 : h' = h
      · simp only [e1, true_and, if_true]
        rw [Finset.sum_ite_eq' Finset.univ d (fun d' => u (ix3 e h d'))]
        simp only [Finset.mem_univ, if_true]
      · simp only [e1, false_and, if_false]
        exact Finset.sum_const_zero
    rw [Finset.sum_congr rfl (fun h' _ => inner h')]
    rw [Finset.sum_ite_eq' Finset.univ h (fun h' => u (ix3 e h' d))]
    simp only [Finset.mem_univ, if_true]
  · simp only [hh, false_and, if_false]
    rw [Finset.sum_congr rfl (fun h' _ => Finset.sum_const_zero)]
    exact Finset.sum_const_zero
end R81

/-- The scatter into the `[50000, 8, 8]` operand at `(n, h, d)`. -/
theorem scatterR88_apply (x0 : S50000x8x8.Idx → EReal) (idx : IVec S800000x1 32) (u : S800000x8x8.Idx → EReal)
    (n : Fin 50000) (h d : Fin 8) :
    Ideal.hostScatterAdd Cert.ReferenceIdeal.scatter_S50000x8x8_S800000x1_S800000x8x8_12_0_0_1 x0 idx u (ix3 n h d)
      = x0 (ix3 n h d) + ∑ e ∈ Finset.univ.filter (fun e : Fin 800000 => Cert.Spec.hits (idx (ix2 e (0 : Fin 1))) n),
          u (ix3 e h d) :=
  scatterR88_apply' x0 idx u n h d

/-- The scatter into the `[50000, 8, 1]` operand at `(n, h, 0)`. -/
theorem scatterR81_apply (x0 : S50000x8x1.Idx → EReal) (idx : IVec S800000x1 32) (u : S800000x8x1.Idx → EReal)
    (n : Fin 50000) (h : Fin 8) :
    Ideal.hostScatterAdd Cert.ReferenceIdeal.scatter_S50000x8x1_S800000x1_S800000x8x1_12_0_0_1 x0 idx u
        (ix3 n h (0 : Fin 1))
      = x0 (ix3 n h (0 : Fin 1))
        + ∑ e ∈ Finset.univ.filter (fun e : Fin 800000 => Cert.Spec.hits (idx (ix2 e (0 : Fin 1))) n),
          u (ix3 e h (0 : Fin 1)) :=
  scatterR81_apply' x0 idx u n h 0

end Cert.IdxOps

end
-- ==== Proof.RefMath.lean ====
/-
  The reference's attention block read at an index, on the extended reals: each node's output at a slot is, over the
  edges that point at the node, the sum of the messages at that slot divided by the sum of the scores of the slot's
  head plus 1e-6, with the per-edge arithmetic of `Cert.Spec`.
-/
import proofs.«108813_j27779848470631_2_alg».proof.Proof.RefAttn
import proofs.«108813_j27779848470631_2_alg».proof.Proof.Spec
import proofs.«108813_j27779848470631_2_alg».proof.Proof.IdxOpsR
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

namespace Cert.ReferenceIdeal.RefMath

open Cert.ReferenceIdeal Cert.ReferenceIdeal.RefRun Cert.ReferenceIdeal.Facts₀
open Idealize.ShloMosaic Idealize.ShloMosaic.ValueIdx
open scoped BigOperators

variable [hReferenceIdeal : Cert.ReferenceIdeal.Facts]

/-! ## The projections, split into heads -/

/-- The node features times a 64 × 64 matrix at (n, j): the sum over the 64 features. -/
theorem dotN_apply (A : FVec Ideal S50000x64 .f32) (B : FVec Ideal S64x64 .f32) (r : Fin 50000) (j : Fin 64) :
    Host.dotGeneral dot_S50000x64_S64x64_S50000x64_1_0_0_1_n_n none A B (ix2 r j) = ∑ k : Fin 64, A (ix2 r k) * B (ix2 k j) := by
  show FloatOps.dotGeneral _ none _ A B (ix2 r j) = _
  rw [Ideal.dotGeneral_apply, ← Equiv.sum_comp (contrEquiv1 dot_S50000x64_S64x64_S50000x64_1_0_0_1_n_n 64 rfl rfl).symm]
  refine Finset.sum_congr rfl fun c _ => ?_
  have c2 := contrEquiv1_symm_val dot_S50000x64_S64x64_S50000x64_1_0_0_1_n_n 64 rfl rfl c
  have l2 : dot_S50000x64_S64x64_S50000x64_1_0_0_1_n_n.lhsIdx (ix2 r j) ((contrEquiv1 _ 64 rfl rfl).symm c) = ix2 r c := by
    funext ax; apply Fin.ext
    match ax with
    | ⟨0, _⟩ => simp [DotDims.lhsIdx, dot_S50000x64_S64x64_S50000x64_1_0_0_1_n_n]; rfl
    | ⟨1, _⟩ => simp [DotDims.lhsIdx, dot_S50000x64_S64x64_S50000x64_1_0_0_1_n_n]; exact c2
  have r2 : dot_S50000x64_S64x64_S50000x64_1_0_0_1_n_n.rhsIdx (ix2 r j) ((contrEquiv1 _ 64 rfl rfl).symm c) = ix2 c j := by
    funext ax; apply Fin.ext
    match ax with
    | ⟨0, _⟩ => simp [DotDims.rhsIdx, dot_S50000x64_S64x64_S50000x64_1_0_0_1_n_n]; exact c2
    | ⟨1, _⟩ => simp [DotDims.rhsIdx, dot_S50000x64_S64x64_S50000x64_1_0_0_1_n_n]; rfl
  rw [l2, r2]

/-- The edge features times a 64 × 64 matrix at (e, j): the sum over the 64 features. -/
theorem dotE_apply (A : FVec Ideal S800000x64 .f32) (B : FVec Ideal S64x64 .f32) (r : Fin 800000) (j : Fin 64) :
    Host.dotGeneral dot_S800000x64_S64x64_S800000x64_1_0_0_1_n_n none A B (ix2 r j) = ∑ k : Fin 64, A (ix2 r k) * B (ix2 k j) := by
  show FloatOps.dotGeneral _ none _ A B (ix2 r j) = _
  rw [Ideal.dotGeneral_apply, ← Equiv.sum_comp (contrEquiv1 dot_S800000x64_S64x64_S800000x64_1_0_0_1_n_n 64 rfl rfl).symm]
  refine Finset.sum_congr rfl fun c _ => ?_
  have c2 := contrEquiv1_symm_val dot_S800000x64_S64x64_S800000x64_1_0_0_1_n_n 64 rfl rfl c
  have l2 : dot_S800000x64_S64x64_S800000x64_1_0_0_1_n_n.lhsIdx (ix2 r j) ((contrEquiv1 _ 64 rfl rfl).symm c) = ix2 r c := by
    funext ax; apply Fin.ext
    match ax with
    | ⟨0, _⟩ => simp [DotDims.lhsIdx, dot_S800000x64_S64x64_S800000x64_1_0_0_1_n_n]; rfl
    | ⟨1, _⟩ => simp [DotDims.lhsIdx, dot_S800000x64_S64x64_S800000x64_1_0_0_1_n_n]; exact c2
  have r2 : dot_S800000x64_S64x64_S800000x64_1_0_0_1_n_n.rhsIdx (ix2 r j) ((contrEquiv1 _ 64 rfl rfl).symm c) = ix2 c j := by
    funext ax; apply Fin.ext
    match ax with
    | ⟨0, _⟩ => simp [DotDims.rhsIdx, dot_S800000x64_S64x64_S800000x64_1_0_0_1_n_n]; exact c2
    | ⟨1, _⟩ => simp [DotDims.rhsIdx, dot_S800000x64_S64x64_S800000x64_1_0_0_1_n_n]; rfl
  rw [l2, r2]

/-- Split into 8 heads of 8 channels, channel d of head h is column 8h + d. -/
theorem headsN_apply (x : FVec Ideal S50000x64 .f32) (W : FVec Ideal S64x64 .f32) (n : Fin 50000) (h d : Fin 8) :
    headsN (F := Ideal) x W (ix3 n h d) = ∑ k : Fin 64, x (ix2 n k) * W (ix2 k (Cert.Spec.slot h d)) := by
  unfold headsN
  rw [shapeCast_apply _ _ (ix3 n h d) (ix2 n (Cert.Spec.slot h d)) (by
    rw [Shape.rowMajor_val_two, Shape.rowMajor_val_three]
    show n.val * 64 + (8 * h.val + d.val) = (n.val * 8 + h.val) * 8 + d.val
    omega), dotN_apply]

theorem headsE_apply (e : FVec Ideal S800000x64 .f32) (W : FVec Ideal S64x64 .f32) (n : Fin 800000) (h d : Fin 8) :
    headsE (F := Ideal) e W (ix3 n h d) = ∑ k : Fin 64, e (ix2 n k) * W (ix2 k (Cert.Spec.slot h d)) := by
  unfold headsE
  rw [shapeCast_apply _ _ (ix3 n h d) (ix2 n (Cert.Spec.slot h d)) (by
    rw [Shape.rowMajor_val_two, Shape.rowMajor_val_three]
    show n.val * 64 + (8 * h.val + d.val) = (n.val * 8 + h.val) * 8 + d.val
    omega), dotE_apply]

/-! ## The gather and the two scatter-adds at an index -/

/-- The rows of a per-node table at a column of node numbers: edge e reads the table's row at its node number, the
    number read as a signed integer and clamped to 0 … 49999. -/
theorem rowsAt_apply (t : FVec Ideal S50000x8x8 .f32) (c : IVec S800000x1 32) (e : Fin 800000) (h d : Fin 8) :
    rowsAt (F := Ideal) t c (ix3 e h d) = t (ix3 (Cert.Spec.clampRow (c (ix2 e (0 : Fin 1)))) h d) := by
  unfold rowsAt
  exact Cert.IdxOps.gatherR_apply t c e h d

/-- A scatter-add of per-edge [8, 8] slabs: node n receives the slabs of the edges whose number hits it. -/
theorem scatter88_apply (x0 : FVec Ideal S50000x8x8 .f32) (c : IVec S800000x1 32) (u : FVec Ideal S800000x8x8 .f32)
    (n : Fin 50000) (h d : Fin 8) :
    Host.scatterAdd scatter_S50000x8x8_S800000x1_S800000x8x8_12_0_0_1 x0 c u (ix3 n h d)
      = x0 (ix3 n h d) + ∑ e ∈ Finset.univ.filter (fun e : Fin 800000 => Cert.Spec.hits (c (ix2 e (0 : Fin 1))) n), u (ix3 e h d) :=
  Cert.IdxOps.scatterR88_apply x0 c u n h d

/-- A scatter-add of per-edge [8, 1] columns likewise. -/
theorem scatter81_apply (x0 : FVec Ideal S50000x8x1 .f32) (c : IVec S800000x1 32) (u : FVec Ideal S800000x8x1 .f32)
    (n : Fin 50000) (h : Fin 8) :
    Host.scatterAdd scatter_S50000x8x1_S800000x1_S800000x8x1_12_0_0_1 x0 c u (ix3 n h (0 : Fin 1))
      = x0 (ix3 n h (0 : Fin 1))
        + ∑ e ∈ Finset.univ.filter (fun e : Fin 800000 => Cert.Spec.hits (c (ix2 e (0 : Fin 1))) n), u (ix3 e h (0 : Fin 1)) :=
  Cert.IdxOps.scatterR81_apply x0 c u n h

/-! ## The score of an edge and head -/

/-- A sum over the last axis of an [800000, 8, 8] array from the zero literal: the sum of the eight entries. -/
theorem sumLast_apply (v : FVec Ideal S800000x8x8 .f32) (e : Fin 800000) (h : Fin 8) :
    Host.reduceAdd v (constant (F := Ideal) S_ .f32 0x00000000#32) reducesTo_S800000x8x8_S800000x8_d2 h_S_ (ix2 e h)
      = ∑ d : Fin 8, v (ix3 e h d) := by
  have hr : S800000x8x8.Reduces [2] S800000x8 := by decide
  rw [hostReduceAdd_apply, Ideal.hostReduceAdd_single _ hr, constant_apply, Ideal.ofBits_zero_f32, zero_add]
  refine Finset.sum_congr rfl fun d _ => congrArg v ?_
  funext a
  match a with
  | ⟨0, _⟩ => rfl
  | ⟨1, _⟩ => rfl
  | ⟨2, _⟩ => rfl

/-- The host's exponential at an index is the exponential of the element. -/
theorem hostExp_apply {s : Shape} {φ : FTy} (a : FVec Ideal s φ) (i : s.Idx) : Host.exp a i = Ideal.exp (a i) := rfl

/-- A scalar spread over any shape reads the scalar. -/
theorem splat_apply {T : Shape} (hb : S_.BroadcastsInDim T ![]) (b : BitVec 32) (j : T.Idx) :
    broadcastInDim T ![] hb (constant (F := Ideal) S_ .f32 b) j = Ideal.ofBits .f32 b := by
  rw [broadcastInDim_scalar_apply, constant_apply]

/-- An [800000, 8] array with a trailing unit axis added reads the array. -/
theorem keepdim_apply (v : FVec Ideal S800000x8 .f32) (e : Fin 800000) (h : Fin 8) :
    broadcastInDim S800000x8x1 ![0, 1] bcast_S800000x8_S800000x8x1_0_1 v (ix3 e h (0 : Fin 1)) = v (ix2 e h) :=
  broadcastInDim_apply _ _ v _ (ix2 e h) (fun a => match a with | ⟨0, _⟩ => rfl | ⟨1, _⟩ => rfl)

/-- An [800000, 8, 1] array spread along its unit axis reads its one entry there. -/
theorem spreadE_apply (w : FVec Ideal S800000x8x1 .f32) (e : Fin 800000) (h d : Fin 8) :
    broadcastInDim S800000x8x8 ![0, 1, 2] bcast_S800000x8x1_S800000x8x8_0_1_2 w (ix3 e h d) = w (ix3 e h (0 : Fin 1)) :=
  broadcastInDim_apply _ _ w _ (ix3 e h (0 : Fin 1)) (fun a => match a with | ⟨0, _⟩ => rfl | ⟨1, _⟩ => rfl | ⟨2, _⟩ => rfl)

/-- A [50000, 8, 1] array spread along its unit axis likewise. -/
theorem spreadN_apply (w : FVec Ideal S50000x8x1 .f32) (n : Fin 50000) (h d : Fin 8) :
    broadcastInDim S50000x8x8 ![0, 1, 2] bcast_S50000x8x1_S50000x8x8_0_1_2 w (ix3 n h d) = w (ix3 n h (0 : Fin 1)) :=
  broadcastInDim_apply _ _ w _ (ix3 n h (0 : Fin 1)) (fun a => match a with | ⟨0, _⟩ => rfl | ⟨1, _⟩ => rfl | ⟨2, _⟩ => rfl)

/-- The score before clipping of edge e and head h: the sum over the head's 8 channels of k at the source times q at
    the target times the scale times the edge's projection. -/
theorem scoreSum_apply (x : FVec Ideal S50000x64 .f32) (e : FVec Ideal S800000x64 .f32) (Wq Wk We : FVec Ideal S64x64 .f32)
    (idx : IVec S2x800000 32) (ed : Fin 800000) (h : Fin 8) :
    scoreSum (F := Ideal) x e Wq Wk We idx (ix3 ed h (0 : Fin 1))
      = ∑ d : Fin 8, ((rowsAt (F := Ideal) (headsN x Wk) (wrapCol (row0 idx)) (ix3 ed h d)
            * rowsAt (F := Ideal) (headsN x Wq) (wrapCol (row1 idx)) (ix3 ed h d))
          * Ideal.ofBits .f32 0x3EB504F3#32) * headsE (F := Ideal) e We (ix3 ed h d) := by
  unfold scoreSum
  rw [keepdim_apply, sumLast_apply]
  refine Finset.sum_congr rfl fun d _ => ?_
  rw [mulf_apply, mulf_apply, mulf_apply, splat_apply]

/-- The weight of edge e and head h: the exponential of the score clipped to [-5, 5]. -/
theorem weight_apply (x : FVec Ideal S50000x64 .f32) (e : FVec Ideal S800000x64 .f32) (Wq Wk We : FVec Ideal S64x64 .f32)
    (idx : IVec S2x800000 32) (ed : Fin 800000) (h : Fin 8) :
    weight (F := Ideal) x e Wq Wk We idx (ix3 ed h (0 : Fin 1))
      = Ideal.exp (min (Ideal.ofBits .f32 0x40A00000#32) (max (Ideal.ofBits .f32 0xC0A00000#32)
          (scoreSum (F := Ideal) x e Wq Wk We idx (ix3 ed h (0 : Fin 1))))) := by
  unfold weight clipTo
  rw [hostExp_apply, minimumf_apply, maximumf_apply, id_eq, id_eq, splat_apply, splat_apply]

/-- The weight of edge e and head h is the score of the edge's three rows. -/
theorem weight_eq_score (x : FVec Ideal S50000x64 .f32) (e : FVec Ideal S800000x64 .f32) (Wq Wk We : FVec Ideal S64x64 .f32)
    (idx : IVec S2x800000 32) (ed : Fin 800000) (h : Fin 8) :
    weight (F := Ideal) x e Wq Wk We idx (ix3 ed h (0 : Fin 1))
      = Cert.Spec.score (fun k => e (ix2 ed k))
          (fun k => x (ix2 (Cert.Spec.clampRow (wrapCol (row0 idx) (ix2 ed (0 : Fin 1)))) k))
          (fun k => x (ix2 (Cert.Spec.clampRow (wrapCol (row1 idx) (ix2 ed (0 : Fin 1)))) k))
          (fun k j => Wq (ix2 k j)) (fun k j => Wk (ix2 k j)) (fun k j => We (ix2 k j)) h := by
  rw [weight_apply, scoreSum_apply]
  unfold Cert.Spec.score Cert.Spec.hi Cert.Spec.lo
  refine congrArg Ideal.exp (congrArg (min _) (congrArg (max _) (Finset.sum_congr rfl fun d _ => ?_)))
  rw [rowsAt_apply, rowsAt_apply, headsN_apply, headsN_apply, headsE_apply]
  unfold Cert.Spec.prod Cert.Spec.rowDot Cert.Spec.scale
  exact mul_right_comm _ _ _

/-! ## The sums per target node, their quotient, and the block -/

/-- The messages summed at node n: over the edges whose target hits n, v at the source times the edge's weight. -/
theorem numer_apply (vh : FVec Ideal S50000x8x8 .f32) (src dst : IVec S800000 32) (w : FVec Ideal S800000x8x1 .f32)
    (n : Fin 50000) (h d : Fin 8) :
    numer (F := Ideal) vh src dst w (ix3 n h d)
      = ∑ e ∈ Finset.univ.filter (fun e : Fin 800000 => Cert.Spec.hits (col dst (ix2 e (0 : Fin 1))) n),
          rowsAt (F := Ideal) vh (wrapCol src) (ix3 e h d) * w (ix3 e h (0 : Fin 1)) := by
  unfold numer
  rw [scatter88_apply, splat_apply, Ideal.ofBits_zero_f32, zero_add]
  refine Finset.sum_congr rfl fun e _ => ?_
  rw [mulf_apply, spreadE_apply]

/-- Slot j is channel j % 8 of head j / 8. -/
theorem slot_head_mod (j : Fin 64) : Cert.Spec.slot (Cert.Spec.head j) ⟨j.val % 8, Nat.mod_lt _ (by decide)⟩ = j := by
  apply Fin.ext
  show 8 * (j.val / 8) + j.val % 8 = j.val
  omega

/-- The quotient at node n and slot j: the summed messages there over the summed weights of the slot's head plus 1e-6. -/
theorem normed_apply (num : FVec Ideal S50000x8x8 .f32) (z0 : FVec Ideal S50000x8x1 .f32) (c : IVec S800000x1 32)
    (w : FVec Ideal S800000x8x1 .f32) (n : Fin 50000) (j : Fin 64) :
    normed (F := Ideal) num z0 c w (ix2 n j)
      = Ideal.div (num (ix3 n (Cert.Spec.head j) ⟨j.val % 8, Nat.mod_lt _ (by decide)⟩))
          ((z0 (ix3 n (Cert.Spec.head j) (0 : Fin 1))
            + ∑ e ∈ Finset.univ.filter (fun e : Fin 800000 => Cert.Spec.hits (c (ix2 e (0 : Fin 1))) n),
                w (ix3 e (Cert.Spec.head j) (0 : Fin 1)))
            + Ideal.ofBits .f32 0x358637BD#32) := by
  unfold normed
  rw [shapeCast_apply _ _ (ix2 n j) (ix3 n (Cert.Spec.head j) ⟨j.val % 8, Nat.mod_lt _ (by decide)⟩) (by
    rw [Shape.rowMajor_val_two, Shape.rowMajor_val_three]
    show (n.val * 8 + j.val / 8) * 8 + j.val % 8 = n.val * 64 + j.val
    omega), hostDivf_apply, spreadN_apply, addf_apply, scatter81_apply, splat_apply]

/-- THE ATTENTION BLOCK AT NODE n AND SLOT j. -/
theorem refAttn_apply (x : FVec Ideal S50000x64 .f32) (e : FVec Ideal S800000x64 .f32) (Wq Wk We Wv : FVec Ideal S64x64 .f32)
    (idx : IVec S2x800000 32) (n : Fin 50000) (j : Fin 64) :
    refAttn (F := Ideal) x e Wq Wk We Wv idx (ix2 n j)
      = Cert.Spec.attn (fun ed k => e (ix2 ed k))
          (fun ed k => x (ix2 (Cert.Spec.clampRow (wrapCol (row0 idx) (ix2 ed (0 : Fin 1)))) k))
          (fun ed k => x (ix2 (Cert.Spec.clampRow (wrapCol (row1 idx) (ix2 ed (0 : Fin 1)))) k))
          (fun k j => Wq (ix2 k j)) (fun k j => Wk (ix2 k j)) (fun k j => Wv (ix2 k j)) (fun k j => We (ix2 k j))
          (fun ed => Cert.Spec.hits (col (row1 idx) (ix2 ed (0 : Fin 1))) n) j := by
  unfold refAttn
  rw [normed_apply, numer_apply, splat_apply, Ideal.ofBits_zero_f32, zero_add]
  unfold Cert.Spec.attn Cert.Spec.eps
  refine congrArg₂ Ideal.div (Finset.sum_congr rfl fun ed _ => ?_)
    (congrArg (· + Ideal.ofBits .f32 0x358637BD#32) (Finset.sum_congr rfl fun ed _ => ?_))
  · rw [rowsAt_apply, headsN_apply, slot_head_mod, weight_eq_score]
    rfl
  · exact weight_eq_score x e Wq Wk We idx ed (Cert.Spec.head j)

end Cert.ReferenceIdeal.RefMath

end
-- ==== Proof.RefArr.lean ====
/-
  The reference's attention block is the shared attention array: at every node and slot the block's value is the
  per-node quotient of `Cert.Spec.attn` over the same edge rows, node rows, matrices and hit sets, the two programs'
  index columns being the same operations on the edge index.
-/
import proofs.«108813_j27779848470631_2_alg».proof.Proof.RefMath
import proofs.«108813_j27779848470631_2_alg».proof.Proof.AttnArr

set_option maxRecDepth 16384

noncomputable section

namespace Cert.ReferenceIdeal.RefMath

open Cert.ReferenceIdeal Cert.ReferenceIdeal.RefRun Cert.ReferenceIdeal.Facts₀
open Idealize.ShloMosaic Idealize.ShloMosaic.ValueIdx
open scoped BigOperators

variable [hReferenceIdeal : Cert.ReferenceIdeal.Facts]

/-- The column of wrapped source indices, in the shared vocabulary. -/
theorem wrapCol_row0 (idx : IVec S2x800000 32) :
    wrapCol (row0 idx) = Cert.IdxNorm.col (Cert.IdxNorm.wrap (Cert.IdxNorm.srcRaw idx)) := rfl
/-- The column of wrapped destination indices. -/
theorem wrapCol_row1 (idx : IVec S2x800000 32) :
    wrapCol (row1 idx) = Cert.IdxNorm.col (Cert.IdxNorm.wrap (Cert.IdxNorm.dstRaw idx)) := rfl
/-- The column of raw destination indices. -/
theorem col_row1 (idx : IVec S2x800000 32) : col (row1 idx) = Cert.IdxNorm.col (Cert.IdxNorm.dstRaw idx) := rfl

/-- The per-node quotient depends only on its arguments as functions (the decision procedure for the hit set is
    immaterial). -/
theorem attn_congr (f f' xs xs' xt xt' : Fin 800000 → Fin 64 → EReal) (Wq Wq' Wk Wk' Wv Wv' We We' : Fin 64 → Fin 64 → EReal)
    (hit hit' : Fin 800000 → Prop) [i1 : DecidablePred hit] [i2 : DecidablePred hit'] (j j' : Fin 64)
    (h1 : f = f') (h2 : xs = xs') (h3 : xt = xt') (h4 : Wq = Wq') (h5 : Wk = Wk') (h6 : Wv = Wv') (h7 : We = We')
    (h8 : hit = hit') (h9 : j = j') :
    Cert.Spec.attn f xs xt Wq Wk Wv We hit j = Cert.Spec.attn f' xs' xt' Wq' Wk' Wv' We' hit' j' := by
  subst h1 h2 h3 h4 h5 h6 h7 h8 h9
  have hi : i1 = i2 := Subsingleton.elim _ _
  subst hi
  rfl

/-- THE BLOCK IS THE SHARED ARRAY. -/
theorem refAttn_eq_attnArr (x : FVec Ideal S50000x64 .f32) (e : FVec Ideal S800000x64 .f32) (Wq Wk We Wv : FVec Ideal S64x64 .f32)
    (idx : IVec S2x800000 32) :
    refAttn (F := Ideal) x e Wq Wk We Wv idx = Cert.AttnArr.attnArr x e Wq Wk We Wv idx := by
  funext i
  obtain ⟨n, j, rfl⟩ : ∃ (n : Fin 50000) (j : Fin 64), i = ix2 n j := ⟨i 0, i 1, eq_ix2 i⟩
  rw [refAttn_apply, wrapCol_row0, wrapCol_row1, col_row1]
  unfold Cert.AttnArr.attnArr
  exact attn_congr _ _ _ _ _ _ _ _ _ _ _ _ _ _ _ _ _ _ rfl rfl rfl rfl rfl rfl rfl rfl rfl

end Cert.ReferenceIdeal.RefMath

end
-- ==== Proof.lean ====
/-
  One graph-attention layer as a TPU kernel with host code around it, against the same layer in plain array operations.
  Both compute, for every node, the messages of its incoming edges (the source's value projection times the edge's
  per-head score, the score being exp of the clamped head sum of key · query · edge projection · 1/√8) summed and divided
  by the summed scores plus 1e-6, and then apply the same output projection, residuals, batch normalisations and
  feed-forward block. They differ in where the projections happen (the kernel gathers node rows and multiplies; the
  reference multiplies and gathers rows), in how a head's eight slots are summed and spread (a 0/1 matrix product
  against a reshape), in the order of a commutative product, and in the tiling. On the extended reals none of these
  changes a value, and no step needs finiteness: only commutativity and associativity of + and ·, and 0 · x = 0.

  The three frames: each program terminates without a fault and leaves its seventeen arguments as launched. The
  kernel's idealization rewrote nothing. The two idealized programs end with equal results.
-/
import proofs.«108813_j27779848470631_2_alg».proof.Defs
import proofs.«108813_j27779848470631_2_alg».proof.Proof.Gen.Kernel
import proofs.«108813_j27779848470631_2_alg».proof.Proof.Gen.KernelIdeal
import proofs.«108813_j27779848470631_2_alg».proof.Proof.Gen.ReferenceIdeal
import proofs.«108813_j27779848470631_2_alg».proof.Proof.Gen.Pre_finite_inputs
import proofs.«108813_j27779848470631_2_alg».proof.Proof.FrameK
import proofs.«108813_j27779848470631_2_alg».proof.Proof.KerRun
import proofs.«108813_j27779848470631_2_alg».proof.Proof.RefRun
import proofs.«108813_j27779848470631_2_alg».proof.Proof.RefValue
import proofs.«108813_j27779848470631_2_alg».proof.Proof.RefArr

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  Cert.ReferenceIdeal.RefRun.frame_ri

/-- Both idealized programs end with the rest of the layer applied to the shared attention array of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Tail.tail (F := Ideal) (m ((c.tc : Thread Cert.KernelIdeal.nD Cert.KernelIdeal.τ).loc Cert.KernelIdeal.main_arg0)) (Cert.AttnArr.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg16))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KernelIdeal.Hand.run_value m ρ, ?_⟩
  refine (θ_run Cert.ReferenceIdeal.defs _ _).mono (fun r h c => ?_) (Cert.ReferenceIdeal.RefValue.run_value (F := Ideal) m' ρ')
  obtain ⟨h0, hrest⟩ := h c
  refine ⟨?_, hrest⟩
  obtain ⟨a0, a1, a2, a3, a4, a5, a6, a7, a8, a9, a10, a11, a12, a13, a14, a15, a16⟩ := hagree c
  rw [h0, Cert.ReferenceIdeal.RefMath.refAttn_eq_attnArr, a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
